-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v178)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v178) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S1600000 : Shape := ⟨1, ![1600000]⟩
abbrev S200000 : Shape := ⟨1, ![200000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_

variable [Facts]

def fn_part5 {F : FTy → Type} [FloatOps F] (main_v83 : IVec S_ 1) (main_v84 : FVec F S32x4 .f32) (main_cst_32 : FVec F S_ .f32) : IVec S_ 1 :=
  let main_v85 : FVec F S32x4 .f32 := broadcastInDim S32x4 ![] bcast_S_S32x4 main_cst_32
  let main_v86 : IVec S32x4 1 := cmpf .olt main_v84 main_v85
  let main_c_33 : IVec S_ 1 := constantI S_ 1 1#1
  let main_v87 : IVec S_ 1 := (fun x v => Host.reduce IntOp.andi x v reducesTo_S32x4_S_d0_1 h_S_) main_v86 main_c_33
  let main_v88 : IVec S_ 1 := andi main_v83 main_v87
  main_v88

def fn_part4 {F : FTy → Type} [FloatOps F] (main_arg17 : FVec F S32 .f32) (main_arg18 : FVec F S32 .f32) (main_arg19 : FVec F S32 .f32) (main_arg20 : FVec F S32x4 .f32) (main_v63 : IVec S_ 1) (main_v67 : IVec S_ 1) : IVec S_ 1 :=
  let main_v68 : IVec S_ 1 := andi main_v63 main_v67
  let main_v69 : FVec F S32 .f32 := Host.absf main_arg17
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg18
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32 .f32 := Host.absf main_arg19
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x4 .f32 := Host.absf main_arg20
  let main_cst_32 : FVec F S_ .f32 := constant S_ .f32 0x7F800000#32
  fn_part5 (F := F) main_v83 main_v84 main_cst_32

def fn_part3 {F : FTy → Type} [FloatOps F] (main_arg14 : FVec F S64 .f32) (main_arg15 : FVec F S64 .f32) (main_arg16 : FVec F S64x32 .f32) (main_arg17 : FVec F S32 .f32) (main_arg18 : FVec F S32 .f32) (main_arg19 : FVec F S32 .f32) (main_arg20 : FVec F S32x4 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg16
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg17 main_arg18 main_arg19 main_arg20 main_v63 main_v67

def fn_part2 {F : FTy → Type} [FloatOps F] (main_arg10 : FVec F S256x128 .f32) (main_arg11 : FVec F S128 .f32) (main_arg12 : FVec F S128x64 .f32) (main_arg13 : FVec F S64 .f32) (main_arg14 : FVec F S64 .f32) (main_arg15 : FVec F S64 .f32) (main_arg16 : FVec F S64x32 .f32) (main_arg17 : FVec F S32 .f32) (main_arg18 : FVec F S32 .f32) (main_arg19 : FVec F S32 .f32) (main_arg20 : FVec F S32x4 .f32) (main_v33 : IVec S_ 1) : IVec S_ 1 :=
  let main_v34 : FVec F S256x128 .f32 := Host.absf main_arg10
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg12
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg14 main_arg15 main_arg16 main_arg17 main_arg18 main_arg19 main_arg20 main_v48 main_v49 main_v50

def fn_part1 {F : FTy → Type} [FloatOps F] (main_arg7 : FVec F S128 .f32) (main_arg8 : FVec F S128x128 .f32) (main_arg9 : FVec F S128 .f32) (main_arg10 : FVec F S256x128 .f32) (main_arg11 : FVec F S128 .f32) (main_arg12 : FVec F S128x64 .f32) (main_arg13 : FVec F S64 .f32) (main_arg14 : FVec F S64 .f32) (main_arg15 : FVec F S64 .f32) (main_arg16 : FVec F S64x32 .f32) (main_arg17 : FVec F S32 .f32) (main_arg18 : FVec F S32 .f32) (main_arg19 : FVec F S32 .f32) (main_arg20 : FVec F S32x4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_v33

def fn {F : FTy → Type} [FloatOps F] (main_arg0 : FVec F S200000x64 .f32) (main_arg1 : IVec S1600000 32) (main_arg2 : IVec S1600000 32) (main_arg3 : IVec S200000 32) (main_arg4 : FVec F S64x128 .f32) (main_arg5 : FVec F S128 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x64 .f32) (main_arg13 : FVec F S64 .f32) (main_arg14 : FVec F S64 .f32) (main_arg15 : FVec F S64 .f32) (main_arg16 : FVec F S64x32 .f32) (main_arg17 : FVec F S32 .f32) (main_arg18 : FVec F S32 .f32) (main_arg19 : FVec F S32 .f32) (main_arg20 : FVec F S32x4 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_arg18 main_arg19 main_arg20 main_v13 main_v16
-- ==== Kernel.lean ====
abbrev S200000x64 : Shape := ⟨2, ![200000, 64]⟩
abbrev S1600000 : Shape := ⟨1, ![1600000]⟩
abbrev S200000 : Shape := ⟨1, ![200000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S_ : Shape := ⟨0, ![]⟩
abbrev S1x128 : Shape := ⟨2, ![1, 128]⟩
abbrev S200000x128 : Shape := ⟨2, ![200000, 128]⟩
abbrev S4000x64 : Shape := ⟨2, ![4000, 64]⟩
abbrev S4000x128 : Shape := ⟨2, ![4000, 128]⟩
abbrev S1600000x1 : Shape := ⟨2, ![1600000, 1]⟩
abbrev S25000 : Shape := ⟨1, ![25000]⟩
abbrev S25000x1 : Shape := ⟨2, ![25000, 1]⟩
abbrev S1600000x128 : Shape := ⟨2, ![1600000, 128]⟩
abbrev S25000x128 : Shape := ⟨2, ![25000, 128]⟩
abbrev S200000x1 : Shape := ⟨2, ![200000, 1]⟩
abbrev S16x128 : Shape := ⟨2, ![16, 128]⟩
abbrev S16 : Shape := ⟨1, ![16]⟩
abbrev S16x1 : Shape := ⟨2, ![16, 1]⟩
abbrev S16x256 : Shape := ⟨2, ![16, 256]⟩
abbrev S16x64 : Shape := ⟨2, ![16, 64]⟩
abbrev S1x64 : Shape := ⟨2, ![1, 64]⟩
abbrev S16x32 : Shape := ⟨2, ![16, 32]⟩
abbrev S1x32 : Shape := ⟨2, ![1, 32]⟩
abbrev S16x4 : Shape := ⟨2, ![16, 4]⟩

abbrev nBuf : Space → Nat
  | .hbm => 305
  | .vmem => 18
  | .smem => 0
  | _ => 0

abbrev hbmTy0_0 (i : Nat) : BufTy := match i % 128 with
  | 0 => ⟨S200000x64, .f32⟩
  | 1 => ⟨S1600000, .i32⟩
  | 2 => ⟨S1600000, .i32⟩
  | 3 => ⟨S200000, .i32⟩
  | 4 => ⟨S64x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S128x64, .f32⟩
  | 13 => ⟨S64, .f32⟩
  | 14 => ⟨S64, .f32⟩
  | 15 => ⟨S64, .f32⟩
  | 16 => ⟨S64x32, .f32⟩
  | 17 => ⟨S32, .f32⟩
  | 18 => ⟨S32, .f32⟩
  | 19 => ⟨S32, .f32⟩
  | 20 => ⟨S32x4, .f32⟩
  | 21 => ⟨S_, .f32⟩
  | 22 => ⟨S128, .f32⟩
  | 23 => ⟨S1x128, .f32⟩
  | 24 => ⟨S200000x128, .f32⟩
  | 25 => ⟨S1x128, .f32⟩
  | 26 => ⟨S200000x128, .f32⟩
  | 27 => ⟨S_, .f32⟩
  | 28 => ⟨S1600000, .f32⟩
  | 29 => ⟨S_, .f32⟩
  | 30 => ⟨S200000, .f32⟩
  | 31 => ⟨S1600000x1, .i32⟩
  | 32 => ⟨S200000, .f32⟩
  | 33 => ⟨S_, .f32⟩
  | 34 => ⟨S200000, .f32⟩
  | 35 => ⟨S200000, .i1⟩
  | 36 => ⟨S_, .f32⟩
  | 37 => ⟨S200000, .f32⟩
  | 38 => ⟨S200000, .f32⟩
  | 39 => ⟨S_, .f32⟩
  | 40 => ⟨S_, .f32⟩
  | 41 => ⟨S200000, .f32⟩
  | 42 => ⟨S200000, .f32⟩
  | 43 => ⟨S_, .f32⟩
  | 44 => ⟨S25000, .f32⟩
  | 45 => ⟨S1600000x1, .i32⟩
  | 46 => ⟨S25000, .f32⟩
  | 47 => ⟨S_, .f32⟩
  | 48 => ⟨S25000, .f32⟩
  | 49 => ⟨S25000, .i1⟩
  | 50 => ⟨S_, .f32⟩
  | 51 => ⟨S25000, .f32⟩
  | 52 => ⟨S25000, .f32⟩
  | 53 => ⟨S_, .f32⟩
  | 54 => ⟨S_, .f32⟩
  | 55 => ⟨S25000, .f32⟩
  | 56 => ⟨S25000, .f32⟩
  | 57 => ⟨S25000x1, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S25000x128, .f32⟩
  | 69 => ⟨S1600000x1, .i32⟩
  | 70 => ⟨S25000x128, .f32⟩
  | 71 => ⟨S25000x128, .f32⟩
  | 72 => ⟨S25000x128, .f32⟩
  | 73 => ⟨S200000x1, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S_, .f32⟩
  | 84 => ⟨S200000x128, .f32⟩
  | 85 => ⟨S1600000x1, .i32⟩
  | 86 => ⟨S200000x128, .f32⟩
  | 87 => ⟨S200000x128, .f32⟩
  | 88 => ⟨S200000x128, .f32⟩
  | 89 => ⟨S1x128, .f32⟩
  | 90 => ⟨S200000x128, .f32⟩
  | 91 => ⟨S200000x128, .f32⟩
  | 92 => ⟨S_, .f32⟩
  | 93 => ⟨S200000x128, .f32⟩
  | 94 => ⟨S200000x128, .f32⟩
  | 95 => ⟨S_, .f32⟩
  | 96 => ⟨S16x128, .f32⟩
  | 97 => ⟨S200000x1, .i32⟩
  | 98 => ⟨S16x128, .f32⟩
  | 99 => ⟨S_, .f32⟩
  | 100 => ⟨S200000, .f32⟩
  | 101 => ⟨S_, .f32⟩
  | 102 => ⟨S16, .f32⟩
  | 103 => ⟨S200000x1, .i32⟩
  | 104 => ⟨S16, .f32⟩
  | 105 => ⟨S_, .f32⟩
  | 106 => ⟨S16, .f32⟩
  | 107 => ⟨S16, .f32⟩
  | 108 => ⟨S16x1, .f32⟩
  | 109 => ⟨S16x128, .f32⟩
  | 110 => ⟨S16x128, .f32⟩
  | 111 => ⟨S1x128, .f32⟩
  | 112 => ⟨S200000x128, .f32⟩
  | 113 => ⟨S_, .f32⟩
  | 114 => ⟨S1600000, .f32⟩
  | 115 => ⟨S_, .f32⟩
  | 116 => ⟨S200000, .f32⟩
  | 117 => ⟨S1600000x1, .i32⟩
  | 118 => ⟨S200000, .f32⟩
  | 119 => ⟨S_, .f32⟩
  | 120 => ⟨S200000, .f32⟩
  | 121 => ⟨S200000, .i1⟩
  | 122 => ⟨S_, .f32⟩
  | 123 => ⟨S200000, .f32⟩
  | 124 => ⟨S200000, .f32⟩
  | 125 => ⟨S_, .f32⟩
  | 126 => ⟨S_, .f32⟩
  | 127 => ⟨S200000, .f32⟩
  | _ => ⟨S200000x64, .f32⟩

abbrev hbmTy0_1 (i : Nat) : BufTy := match i % 128 with
  | 0 => ⟨S200000, .f32⟩
  | 1 => ⟨S_, .f32⟩
  | 2 => ⟨S25000, .f32⟩
  | 3 => ⟨S1600000x1, .i32⟩
  | 4 => ⟨S25000, .f32⟩
  | 5 => ⟨S_, .f32⟩
  | 6 => ⟨S25000, .f32⟩
  | 7 => ⟨S25000, .i1⟩
  | 8 => ⟨S_, .f32⟩
  | 9 => ⟨S25000, .f32⟩
  | 10 => ⟨S25000, .f32⟩
  | 11 => ⟨S_, .f32⟩
  | 12 => ⟨S_, .f32⟩
  | 13 => ⟨S25000, .f32⟩
  | 14 => ⟨S25000, .f32⟩
  | 15 => ⟨S25000x1, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S25000x128, .f32⟩
  | 27 => ⟨S1600000x1, .i32⟩
  | 28 => ⟨S25000x128, .f32⟩
  | 29 => ⟨S25000x128, .f32⟩
  | 30 => ⟨S25000x128, .f32⟩
  | 31 => ⟨S200000x1, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S_, .f32⟩
  | 42 => ⟨S200000x128, .f32⟩
  | 43 => ⟨S1600000x1, .i32⟩
  | 44 => ⟨S200000x128, .f32⟩
  | 45 => ⟨S200000x128, .f32⟩
  | 46 => ⟨S200000x128, .f32⟩
  | 47 => ⟨S1x128, .f32⟩
  | 48 => ⟨S200000x128, .f32⟩
  | 49 => ⟨S200000x128, .f32⟩
  | 50 => ⟨S_, .f32⟩
  | 51 => ⟨S200000x128, .f32⟩
  | 52 => ⟨S200000x128, .f32⟩
  | 53 => ⟨S_, .f32⟩
  | 54 => ⟨S16x128, .f32⟩
  | 55 => ⟨S200000x1, .i32⟩
  | 56 => ⟨S16x128, .f32⟩
  | 57 => ⟨S_, .f32⟩
  | 58 => ⟨S200000, .f32⟩
  | 59 => ⟨S_, .f32⟩
  | 60 => ⟨S16, .f32⟩
  | 61 => ⟨S200000x1, .i32⟩
  | 62 => ⟨S16, .f32⟩
  | 63 => ⟨S_, .f32⟩
  | 64 => ⟨S16, .f32⟩
  | 65 => ⟨S16, .f32⟩
  | 66 => ⟨S16x1, .f32⟩
  | 67 => ⟨S16x128, .f32⟩
  | 68 => ⟨S16x128, .f32⟩
  | 69 => ⟨S16x256, .f32⟩
  | 70 => ⟨S16x128, .f32⟩
  | 71 => ⟨S1x128, .f32⟩
  | 72 => ⟨S16x128, .f32⟩
  | 73 => ⟨S16x128, .f32⟩
  | 74 => ⟨S16x64, .f32⟩
  | 75 => ⟨S1x64, .f32⟩
  | 76 => ⟨S16x64, .f32⟩
  | 77 => ⟨S16x64, .f32⟩
  | 78 => ⟨S_, .f32⟩
  | 79 => ⟨S64, .f32⟩
  | 80 => ⟨S_, .f32⟩
  | 81 => ⟨S64, .f32⟩
  | 82 => ⟨S64, .f32⟩
  | 83 => ⟨S_, .i32⟩
  | 84 => ⟨S_, .f32⟩
  | 85 => ⟨S64, .f32⟩
  | 86 => ⟨S1x64, .f32⟩
  | 87 => ⟨S_, .f32⟩
  | 88 => ⟨S1x64, .f32⟩
  | 89 => ⟨S1x64, .f32⟩
  | 90 => ⟨S16x64, .f32⟩
  | 91 => ⟨S16x64, .f32⟩
  | 92 => ⟨S16x64, .f32⟩
  | 93 => ⟨S_, .f32⟩
  | 94 => ⟨S_, .f32⟩
  | 95 => ⟨S_, .f32⟩
  | 96 => ⟨S_, .f32⟩
  | 97 => ⟨S64, .f32⟩
  | 98 => ⟨S64, .f32⟩
  | 99 => ⟨S64, .f32⟩
  | 100 => ⟨S_, .f32⟩
  | 101 => ⟨S_, .i1⟩
  | 102 => ⟨S_, .f32⟩
  | 103 => ⟨S_, .f32⟩
  | 104 => ⟨S64, .f32⟩
  | 105 => ⟨S64, .f32⟩
  | 106 => ⟨S1x64, .f32⟩
  | 107 => ⟨S16x64, .f32⟩
  | 108 => ⟨S16x64, .f32⟩
  | 109 => ⟨S1x64, .f32⟩
  | 110 => ⟨S16x64, .f32⟩
  | 111 => ⟨S16x64, .f32⟩
  | 112 => ⟨S_, .f32⟩
  | 113 => ⟨S64, .f32⟩
  | 114 => ⟨S64, .f32⟩
  | 115 => ⟨S64, .f32⟩
  | 116 => ⟨S1x64, .f32⟩
  | 117 => ⟨S16x64, .f32⟩
  | 118 => ⟨S16x64, .f32⟩
  | 119 => ⟨S1x64, .f32⟩
  | 120 => ⟨S16x64, .f32⟩
  | 121 => ⟨S16x64, .f32⟩
  | 122 => ⟨S_, .f32⟩
  | 123 => ⟨S16x64, .f32⟩
  | 124 => ⟨S16x64, .f32⟩
  | 125 => ⟨S16x32, .f32⟩
  | 126 => ⟨S1x32, .f32⟩
  | 127 => ⟨S16x32, .f32⟩
  | _ => ⟨S200000x64, .f32⟩

abbrev hbmTy0_2 (i : Nat) : BufTy := match i % 128 with
  | 0 => ⟨S16x32, .f32⟩
  | 1 => ⟨S_, .f32⟩
  | 2 => ⟨S32, .f32⟩
  | 3 => ⟨S_, .f32⟩
  | 4 => ⟨S32, .f32⟩
  | 5 => ⟨S32, .f32⟩
  | 6 => ⟨S_, .i32⟩
  | 7 => ⟨S_, .f32⟩
  | 8 => ⟨S32, .f32⟩
  | 9 => ⟨S1x32, .f32⟩
  | 10 => ⟨S_, .f32⟩
  | 11 => ⟨S1x32, .f32⟩
  | 12 => ⟨S1x32, .f32⟩
  | 13 => ⟨S16x32, .f32⟩
  | 14 => ⟨S16x32, .f32⟩
  | 15 => ⟨S16x32, .f32⟩
  | 16 => ⟨S_, .f32⟩
  | 17 => ⟨S_, .f32⟩
  | 18 => ⟨S_, .f32⟩
  | 19 => ⟨S_, .f32⟩
  | 20 => ⟨S32, .f32⟩
  | 21 => ⟨S32, .f32⟩
  | 22 => ⟨S32, .f32⟩
  | 23 => ⟨S_, .f32⟩
  | 24 => ⟨S_, .i1⟩
  | 25 => ⟨S_, .f32⟩
  | 26 => ⟨S_, .f32⟩
  | 27 => ⟨S32, .f32⟩
  | 28 => ⟨S32, .f32⟩
  | 29 => ⟨S1x32, .f32⟩
  | 30 => ⟨S16x32, .f32⟩
  | 31 => ⟨S16x32, .f32⟩
  | 32 => ⟨S1x32, .f32⟩
  | 33 => ⟨S16x32, .f32⟩
  | 34 => ⟨S16x32, .f32⟩
  | 35 => ⟨S_, .f32⟩
  | 36 => ⟨S32, .f32⟩
  | 37 => ⟨S32, .f32⟩
  | 38 => ⟨S32, .f32⟩
  | 39 => ⟨S1x32, .f32⟩
  | 40 => ⟨S16x32, .f32⟩
  | 41 => ⟨S16x32, .f32⟩
  | 42 => ⟨S1x32, .f32⟩
  | 43 => ⟨S16x32, .f32⟩
  | 44 => ⟨S16x32, .f32⟩
  | 45 => ⟨S_, .f32⟩
  | 46 => ⟨S16x32, .f32⟩
  | 47 => ⟨S16x32, .f32⟩
  | 48 => ⟨S16x4, .f32⟩
  | _ => ⟨S200000x64, .f32⟩

abbrev hbmTy (i : Nat) : BufTy := match i / 128 with
  | 0 => hbmTy0_0 i
  | 1 => hbmTy0_1 i
  | 2 => hbmTy0_2 i
  | _ => ⟨S200000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S64x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_cst_1 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_2 : Ref sig .tc := ⟨.hbm, 33, rfl⟩
abbrev main_v9 : Ref sig .tc := ⟨.hbm, 34, rfl⟩
abbrev main_v10 : Ref sig .tc := ⟨.hbm, 35, rfl⟩
abbrev main_cst_3 : Ref sig .tc := ⟨.hbm, 36, rfl⟩
abbrev main_v11 : Ref sig .tc := ⟨.hbm, 37, rfl⟩
abbrev main_v12 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_v13 : Ref sig .tc := ⟨.hbm, 42, rfl⟩
abbrev main_cst_5 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_6 : Ref sig .tc := ⟨.hbm, 47, rfl⟩
abbrev main_v17 : Ref sig .tc := ⟨.hbm, 48, rfl⟩
abbrev main_v18 : Ref sig .tc := ⟨.hbm, 49, rfl⟩
abbrev main_cst_7 : Ref sig .tc := ⟨.hbm, 50, rfl⟩
abbrev main_v19 : Ref sig .tc := ⟨.hbm, 51, rfl⟩
abbrev main_v20 : Ref sig .tc := ⟨.hbm, 52, rfl⟩
abbrev main_cst_8 : Ref sig .tc := ⟨.hbm, 53, rfl⟩
abbrev main_call1_v0 : Ref sig .tc := ⟨.hbm, 54, rfl⟩
abbrev main_call1_v1 : Ref sig .tc := ⟨.hbm, 55, rfl⟩
abbrev main_v21 : Ref sig .tc := ⟨.hbm, 56, rfl⟩
abbrev main_v22 : Ref sig .tc := ⟨.hbm, 57, rfl⟩
abbrev main_c : Ref sig .tc := ⟨.hbm, 58, rfl⟩
abbrev main_v23 : Ref sig .tc := ⟨.hbm, 59, rfl⟩
abbrev main_v24 : Ref sig .tc := ⟨.hbm, 60, rfl⟩
abbrev main_c_9 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_10 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_c_11 : Ref sig .tc := ⟨.hbm, 74, rfl⟩
abbrev main_v36 : Ref sig .tc := ⟨.hbm, 75, rfl⟩
abbrev main_v37 : Ref sig .tc := ⟨.hbm, 76, rfl⟩
abbrev main_c_12 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_13 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_call2_cst : Ref sig .tc := ⟨.hbm, 92, rfl⟩
abbrev main_call2_v0 : Ref sig .tc := ⟨.hbm, 93, rfl⟩
abbrev main_v51 : Ref sig .tc := ⟨.hbm, 94, rfl⟩
abbrev main_cst_14 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_15 : Ref sig .tc := ⟨.hbm, 99, rfl⟩
abbrev main_v55 : Ref sig .tc := ⟨.hbm, 100, rfl⟩
abbrev main_cst_16 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_17 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_18 : Ref sig .tc := ⟨.hbm, 113, rfl⟩
abbrev main_v66 : Ref sig .tc := ⟨.hbm, 114, rfl⟩
abbrev main_cst_19 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_20 : Ref sig .tc := ⟨.hbm, 119, rfl⟩
abbrev main_v70 : Ref sig .tc := ⟨.hbm, 120, rfl⟩
abbrev main_v71 : Ref sig .tc := ⟨.hbm, 121, rfl⟩
abbrev main_cst_21 : Ref sig .tc := ⟨.hbm, 122, rfl⟩
abbrev main_v72 : Ref sig .tc := ⟨.hbm, 123, rfl⟩
abbrev main_v73 : Ref sig .tc := ⟨.hbm, 124, rfl⟩
abbrev main_cst_22 : Ref sig .tc := ⟨.hbm, 125, rfl⟩
abbrev main_call3_v0 : Ref sig .tc := ⟨.hbm, 126, rfl⟩
abbrev main_call3_v1 : Ref sig .tc := ⟨.hbm, 127, rfl⟩
abbrev main_v74 : Ref sig .tc := ⟨.hbm, 128, rfl⟩
abbrev main_cst_23 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_cst_24 : Ref sig .tc := ⟨.hbm, 133, rfl⟩
abbrev main_v78 : Ref sig .tc := ⟨.hbm, 134, rfl⟩
abbrev main_v79 : Ref sig .tc := ⟨.hbm, 135, rfl⟩
abbrev main_cst_25 : Ref sig .tc := ⟨.hbm, 136, rfl⟩
abbrev main_v80 : Ref sig .tc := ⟨.hbm, 137, rfl⟩
abbrev main_v81 : Ref sig .tc := ⟨.hbm, 138, rfl⟩
abbrev main_cst_26 : Ref sig .tc := ⟨.hbm, 139, rfl⟩
abbrev main_call4_v0 : Ref sig .tc := ⟨.hbm, 140, rfl⟩
abbrev main_call4_v1 : Ref sig .tc := ⟨.hbm, 141, rfl⟩
abbrev main_v82 : Ref sig .tc := ⟨.hbm, 142, rfl⟩
abbrev main_v83 : Ref sig .tc := ⟨.hbm, 143, rfl⟩
abbrev main_c_27 : Ref sig .tc := ⟨.hbm, 144, rfl⟩
abbrev main_v84 : Ref sig .tc := ⟨.hbm, 145, rfl⟩
abbrev main_v85 : Ref sig .tc := ⟨.hbm, 146, rfl⟩
abbrev main_c_28 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_29 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_c_30 : Ref sig .tc := ⟨.hbm, 160, rfl⟩
abbrev main_v97 : Ref sig .tc := ⟨.hbm, 161, rfl⟩
abbrev main_v98 : Ref sig .tc := ⟨.hbm, 162, rfl⟩
abbrev main_c_31 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_cst_32 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_call5_cst : Ref sig .tc := ⟨.hbm, 178, rfl⟩
abbrev main_call5_v0 : Ref sig .tc := ⟨.hbm, 179, rfl⟩
abbrev main_v112 : Ref sig .tc := ⟨.hbm, 180, rfl⟩
abbrev main_cst_33 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_cst_34 : Ref sig .tc := ⟨.hbm, 185, rfl⟩
abbrev main_v116 : Ref sig .tc := ⟨.hbm, 186, rfl⟩
abbrev main_cst_35 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_cst_36 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_cst_37 : Ref sig .tc := ⟨.hbm, 206, rfl⟩
abbrev main_v134 : Ref sig .tc := ⟨.hbm, 207, rfl⟩
abbrev main_cst_38 : Ref sig .tc := ⟨.hbm, 208, rfl⟩
abbrev main_v135 : Ref sig .tc := ⟨.hbm, 209, rfl⟩
abbrev main_v136 : Ref sig .tc := ⟨.hbm, 210, rfl⟩
abbrev main_c_39 : Ref sig .tc := ⟨.hbm, 211, rfl⟩
abbrev main_call6_cst : Ref sig .tc := ⟨.hbm, 212, rfl⟩
abbrev main_call6_v0 : Ref sig .tc := ⟨.hbm, 213, rfl⟩
abbrev main_call6_v1 : Ref sig .tc := ⟨.hbm, 214, rfl⟩
abbrev main_call6_cst_0 : Ref sig .tc := ⟨.hbm, 215, rfl⟩
abbrev main_call6_v2 : Ref sig .tc := ⟨.hbm, 216, rfl⟩
abbrev main_call6_v3 : Ref sig .tc := ⟨.hbm, 217, rfl⟩
abbrev main_call6_v4 : Ref sig .tc := ⟨.hbm, 218, rfl⟩
abbrev main_call6_v5 : Ref sig .tc := ⟨.hbm, 219, rfl⟩
abbrev main_call6_v6 : Ref sig .tc := ⟨.hbm, 220, rfl⟩
abbrev main_call6_v7 : Ref sig .tc := ⟨.hbm, 221, rfl⟩
abbrev main_call6_cst_1 : Ref sig .tc := ⟨.hbm, 222, rfl⟩
abbrev main_call6_v8 : Ref sig .tc := ⟨.hbm, 223, rfl⟩
abbrev main_call6_cst_2 : Ref sig .tc := ⟨.hbm, 224, rfl⟩
abbrev main_call6_v9 : Ref sig .tc := ⟨.hbm, 225, rfl⟩
abbrev main_call6_v10 : Ref sig .tc := ⟨.hbm, 226, rfl⟩
abbrev main_call6_v11 : Ref sig .tc := ⟨.hbm, 227, rfl⟩
abbrev main_call6_cst_3 : Ref sig .tc := ⟨.hbm, 228, rfl⟩
abbrev main_call6_v12 : Ref sig .tc := ⟨.hbm, 229, rfl⟩
abbrev main_call6_cst_4 : Ref sig .tc := ⟨.hbm, 230, rfl⟩
abbrev main_call6_call0_v0 : Ref sig .tc := ⟨.hbm, 231, rfl⟩
abbrev main_call6_call0_v1 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_cst_40 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_call7_cst : Ref sig .tc := ⟨.hbm, 250, rfl⟩
abbrev main_call7_v0 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_cst_41 : Ref sig .tc := ⟨.hbm, 257, rfl⟩
abbrev main_v158 : Ref sig .tc := ⟨.hbm, 258, rfl⟩
abbrev main_cst_42 : Ref sig .tc := ⟨.hbm, 259, rfl⟩
abbrev main_v159 : Ref sig .tc := ⟨.hbm, 260, rfl⟩
abbrev main_v160 : Ref sig .tc := ⟨.hbm, 261, rfl⟩
abbrev main_c_43 : Ref sig .tc := ⟨.hbm, 262, rfl⟩
abbrev main_call8_cst : Ref sig .tc := ⟨.hbm, 263, rfl⟩
abbrev main_call8_v0 : Ref sig .tc := ⟨.hbm, 264, rfl⟩
abbrev main_call8_v1 : Ref sig .tc := ⟨.hbm, 265, rfl⟩
abbrev main_call8_cst_0 : Ref sig .tc := ⟨.hbm, 266, rfl⟩
abbrev main_call8_v2 : Ref sig .tc := ⟨.hbm, 267, rfl⟩
abbrev main_call8_v3 : Ref sig .tc := ⟨.hbm, 268, rfl⟩
abbrev main_call8_v4 : Ref sig .tc := ⟨.hbm, 269, rfl⟩
abbrev main_call8_v5 : Ref sig .tc := ⟨.hbm, 270, rfl⟩
abbrev main_call8_v6 : Ref sig .tc := ⟨.hbm, 271, rfl⟩
abbrev main_call8_v7 : Ref sig .tc := ⟨.hbm, 272, rfl⟩
abbrev main_call8_cst_1 : Ref sig .tc := ⟨.hbm, 273, rfl⟩
abbrev main_call8_v8 : Ref sig .tc := ⟨.hbm, 274, rfl⟩
abbrev main_call8_cst_2 : Ref sig .tc := ⟨.hbm, 275, rfl⟩
abbrev main_call8_v9 : Ref sig .tc := ⟨.hbm, 276, rfl⟩
abbrev main_call8_v10 : Ref sig .tc := ⟨.hbm, 277, rfl⟩
abbrev main_call8_v11 : Ref sig .tc := ⟨.hbm, 278, rfl⟩
abbrev main_call8_cst_3 : Ref sig .tc := ⟨.hbm, 279, rfl⟩
abbrev main_call8_v12 : Ref sig .tc := ⟨.hbm, 280, rfl⟩
abbrev main_call8_cst_4 : Ref sig .tc := ⟨.hbm, 281, rfl⟩
abbrev main_call8_call0_v0 : Ref sig .tc := ⟨.hbm, 282, rfl⟩
abbrev main_call8_call0_v1 : Ref sig .tc := ⟨.hbm, 283, rfl⟩
abbrev main_v161 : Ref sig .tc := ⟨.hbm, 284, rfl⟩
abbrev main_v162 : Ref sig .tc := ⟨.hbm, 285, rfl⟩
abbrev main_v163 : Ref sig .tc := ⟨.hbm, 286, rfl⟩
abbrev main_v164 : Ref sig .tc := ⟨.hbm, 287, rfl⟩
abbrev main_v165 : Ref sig .tc := ⟨.hbm, 288, rfl⟩
abbrev main_v166 : Ref sig .tc := ⟨.hbm, 289, rfl⟩
abbrev main_v167 : Ref sig .tc := ⟨.hbm, 290, rfl⟩
abbrev main_cst_44 : Ref sig .tc := ⟨.hbm, 291, rfl⟩
abbrev main_v168 : Ref sig .tc := ⟨.hbm, 292, rfl⟩
abbrev main_v169 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_v173 : Ref sig .tc := ⟨.hbm, 297, rfl⟩
abbrev main_v174 : Ref sig .tc := ⟨.hbm, 298, rfl⟩
abbrev main_v175 : Ref sig .tc := ⟨.hbm, 299, rfl⟩
abbrev main_v176 : Ref sig .tc := ⟨.hbm, 300, rfl⟩
abbrev main_call9_cst : Ref sig .tc := ⟨.hbm, 301, rfl⟩
abbrev main_call9_v0 : Ref sig .tc := ⟨.hbm, 302, rfl⟩
abbrev main_v177 : Ref sig .tc := ⟨.hbm, 303, rfl⟩
abbrev main_v178 : Ref sig .tc := ⟨.hbm, 304, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S128 : S_.BroadcastsInDim S128 (![] : Fin 0 → Fin S128.rank)
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S_S200000 : S_.BroadcastsInDim S200000 (![] : Fin 0 → Fin S200000.rank)
  bcast_S1600000_S1600000x1_0 : S1600000.BroadcastsInDim S1600000x1 (![0] : Fin 1 → Fin S1600000x1.rank)
  bcast_S_S25000 : S_.BroadcastsInDim S25000 (![] : Fin 0 → Fin S25000.rank)
  bcast_S25000_S25000x1_0 : S25000.BroadcastsInDim S25000x1 (![0] : Fin 1 → Fin S25000x1.rank)
  bcast_S_S25000x128 : S_.BroadcastsInDim S25000x128 (![] : Fin 0 → Fin S25000x128.rank)
  bcast_S25000x1_S25000x128_0_1 : S25000x1.BroadcastsInDim S25000x128 (![0, 1] : Fin 2 → Fin S25000x128.rank)
  bcast_S200000_S200000x1_0 : S200000.BroadcastsInDim S200000x1 (![0] : Fin 1 → Fin S200000x1.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S16x128 : S_.BroadcastsInDim S16x128 (![] : Fin 0 → Fin S16x128.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  concatenates_S16x128_S16x128_S16x256_d1 : Shape.Concatenates [S16x128, S16x128] S16x256 1
  bcast_S1x128_S16x128_0_1 : S1x128.BroadcastsInDim S16x128 (![0, 1] : Fin 2 → Fin S16x128.rank)
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  reducesTo_S16x64_S64_d0 : S16x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S16x64 : S_.BroadcastsInDim S16x64 (![] : Fin 0 → Fin S16x64.rank)
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  reducesTo_S16x32_S32_d0 : S16x32.ReducesTo [0] S32
  bcast_S_S32 : S_.BroadcastsInDim S32 (![] : Fin 0 → Fin S32.rank)
  bcast_S_S1x32 : S_.BroadcastsInDim S1x32 (![] : Fin 0 → Fin S1x32.rank)
  bcast_S_S16x32 : S_.BroadcastsInDim S16x32 (![] : Fin 0 → Fin S16x32.rank)
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  scatter_S200000_S1600000x1_S1600000_n_0_0_1_wf : ScatterDims.WF S200000 S1600000x1 S1600000 [] [0] [0] 1
  scatter_S25000_S1600000x1_S1600000_n_0_0_1_wf : ScatterDims.WF S25000 S1600000x1 S1600000 [] [0] [0] 1
  gather_S200000x128_S1600000x1_S1600000x128_1_0_n_n_0_1_1128_wf : GatherDims.WF S200000x128 S1600000x1 S1600000x128 [1] [0] [] [0] [] 1 ![1, 128]
  scatter_S25000x128_S1600000x1_S1600000x128_1_0_0_1_wf : ScatterDims.WF S25000x128 S1600000x1 S1600000x128 [1] [0] [0] 1
  gather_S25000x128_S1600000x1_S1600000x128_1_0_n_n_0_1_1128_wf : GatherDims.WF S25000x128 S1600000x1 S1600000x128 [1] [0] [] [0] [] 1 ![1, 128]
  scatter_S200000x128_S1600000x1_S1600000x128_1_0_0_1_wf : ScatterDims.WF S200000x128 S1600000x1 S1600000x128 [1] [0] [0] 1
  scatter_S16x128_S200000x1_S200000x128_1_0_0_1_wf : ScatterDims.WF S16x128 S200000x1 S200000x128 [1] [0] [0] 1
  scatter_S16_S200000x1_S200000_n_0_0_1_wf : ScatterDims.WF S16 S200000x1 S200000 [] [0] [0] 1
  dot_S16x256_S256x128_S16x128_1_0_0_1_n_n_wf : DotDims.WF S16x256 S256x128 S16x128 [1] [0] [0] [1] [] []
  dot_S16x128_S128x64_S16x64_1_0_0_1_n_n_wf : DotDims.WF S16x128 S128x64 S16x64 [1] [0] [0] [1] [] []
  dot_S16x64_S64x32_S16x32_1_0_0_1_n_n_wf : DotDims.WF S16x64 S64x32 S16x32 [1] [0] [0] [1] [] []
  dot_S16x32_S32x4_S16x4_1_0_0_1_n_n_wf : DotDims.WF S16x32 S32x4 S16x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S200000x64.size a
  hwx0_0 : ∀ i : grid0.Coords, EltTy.bits .f32 = 32 ∨ (Rect.block (s := S200000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S200000x128.size a
  hwx0_3 : ∀ i : grid0.Coords, EltTy.bits .f32 = 32 ∨ (Rect.block (s := S200000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S200000x128.size a
  hwx1_3 : ∀ i : grid1.Coords, EltTy.bits .f32 = 32 ∨ (Rect.block (s := S200000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .f32 = 32 ∨ (Rect.block (s := S200000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S200000x128.size a
  hwx2_3 : ∀ i : grid2.Coords, EltTy.bits .f32 = 32 ∨ (Rect.block (s := S200000x128) S4000x128.size (cc2_transform_3 i) (hinb2_3 i)).WholeWords (EltTy.packing .f32)

variable [Facts₀]

def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S200000_S1600000x1_S1600000_n_0_0_1 : ScatterDims S200000 S1600000x1 S1600000 where
  updateWindowDims := []
  insertedWindowDims := [0]
  scatterDimsToOperandDims := [0]
  indexVectorDim := 1
  wf := scatter_S200000_S1600000x1_S1600000_n_0_0_1_wf
def scatter_S25000_S1600000x1_S1600000_n_0_0_1 : ScatterDims S25000 S1600000x1 S1600000 where
  updateWindowDims := []
  insertedWindowDims := [0]
  scatterDimsToOperandDims := [0]
  indexVectorDim := 1
  wf := scatter_S25000_S1600000x1_S1600000_n_0_0_1_wf
def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S25000x128_S1600000x1_S1600000x128_1_0_0_1 : ScatterDims S25000x128 S1600000x1 S1600000x128 where
  updateWindowDims := [1]
  insertedWindowDims := [0]
  scatterDimsToOperandDims := [0]
  indexVectorDim := 1
  wf := scatter_S25000x128_S1600000x1_S1600000x128_1_0_0_1_wf
def gather_S25000x128_S1600000x1_S1600000x128_1_0_n_n_0_1_1128 : GatherDims S25000x128 S1600000x1 S1600000x128 where
  offsetDims := [1]
  collapsedSliceDims := [0]
  operandBatchingDims := []
  startIndicesBatchingDims := []
  startIndexMap := [0]
  indexVectorDim := 1
  sliceSizes := ![1, 128]
  wf := gather_S25000x128_S1600000x1_S1600000x128_1_0_n_n_0_1_1128_wf
def scatter_S200000x128_S1600000x1_S1600000x128_1_0_0_1 : ScatterDims S200000x128 S1600000x1 S1600000x128 where
  updateWindowDims := [1]
  insertedWindowDims := [0]
  scatterDimsToOperandDims := [0]
  indexVectorDim := 1
  wf := scatter_S200000x128_S1600000x1_S1600000x128_1_0_0_1_wf
def scatter_S16x128_S200000x1_S200000x128_1_0_0_1 : ScatterDims S16x128 S200000x1 S200000x128 where
  updateWindowDims := [1]
  insertedWindowDims := [0]
  scatterDimsToOperandDims := [0]
  indexVectorDim := 1
  wf := scatter_S16x128_S200000x1_S200000x128_1_0_0_1_wf
def scatter_S16_S200000x1_S200000_n_0_0_1 : ScatterDims S16 S200000x1 S200000 where
  updateWindowDims := []
  insertedWindowDims := [0]
  scatterDimsToOperandDims := [0]
  indexVectorDim := 1
  wf := scatter_S16_S200000x1_S200000_n_0_0_1_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128_S128x64_S16x64_1_0_0_1_n_n : DotDims S16x128 S128x64 S16x64 where
  lhsContracting := [1]
  rhsContracting := [0]
  lhsNonContracting := [0]
  rhsNonContracting := [1]
  lhsBatch := []
  rhsBatch := []
  wf := dot_S16x128_S128x64_S16x64_1_0_0_1_n_n_wf
def dot_S16x64_S64x32_S16x32_1_0_0_1_n_n : DotDims S16x64 S64x32 S16x32 where
  lhsContracting := [1]
  rhsContracting := [0]
  lhsNonContracting := [0]
  rhsNonContracting := [1]
  lhsBatch := []
  rhsBatch := []
  wf := dot_S16x64_S64x32_S16x32_1_0_0_1_n_n_wf
def dot_S16x32_S32x4_S16x4_1_0_0_1_n_n : DotDims S16x32 S32x4 S16x4 where
  lhsContracting := [1]
  rhsContracting := [0]
  lhsNonContracting := [0]
  rhsNonContracting := [1]
  lhsBatch := []
  rhsBatch := []
  wf := dot_S16x32_S32x4_S16x4_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v51) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S200000x64 : Shape := ⟨2, ![200000, 64]⟩
abbrev S1600000 : Shape := ⟨1, ![1600000]⟩
abbrev S200000 : Shape := ⟨1, ![200000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S200000x128 : Shape := ⟨2, ![200000, 128]⟩
abbrev S1x128 : Shape := ⟨2, ![1, 128]⟩
abbrev S_ : Shape := ⟨0, ![]⟩
abbrev S1600000x1 : Shape := ⟨2, ![1600000, 1]⟩
abbrev S25000 : Shape := ⟨1, ![25000]⟩
abbrev S25000x1 : Shape := ⟨2, ![25000, 1]⟩
abbrev S1600000x128 : Shape := ⟨2, ![1600000, 128]⟩
abbrev S25000x128 : Shape := ⟨2, ![25000, 128]⟩
abbrev S200000x1 : Shape := ⟨2, ![200000, 1]⟩
abbrev S16x128 : Shape := ⟨2, ![16, 128]⟩
abbrev S16 : Shape := ⟨1, ![16]⟩
abbrev S16x1 : Shape := ⟨2, ![16, 1]⟩
abbrev S16x256 : Shape := ⟨2, ![16, 256]⟩
abbrev S16x64 : Shape := ⟨2, ![16, 64]⟩
abbrev S1x64 : Shape := ⟨2, ![1, 64]⟩
abbrev S16x32 : Shape := ⟨2, ![16, 32]⟩
abbrev S1x32 : Shape := ⟨2, ![1, 32]⟩
abbrev S16x4 : Shape := ⟨2, ![16, 4]⟩

abbrev nBuf : Space → Nat
  | .hbm => 310
  | .vmem => 0
  | .smem => 0
  | _ => 0

abbrev hbmTy0_0 (i : Nat) : BufTy := match i % 128 with
  | 0 => ⟨S200000x64, .f32⟩
  | 1 => ⟨S1600000, .i32⟩
  | 2 => ⟨S1600000, .i32⟩
  | 3 => ⟨S200000, .i32⟩
  | 4 => ⟨S64x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S128x64, .f32⟩
  | 13 => ⟨S64, .f32⟩
  | 14 => ⟨S64, .f32⟩
  | 15 => ⟨S64, .f32⟩
  | 16 => ⟨S64x32, .f32⟩
  | 17 => ⟨S32, .f32⟩
  | 18 => ⟨S32, .f32⟩
  | 19 => ⟨S32, .f32⟩
  | 20 => ⟨S32x4, .f32⟩
  | 21 => ⟨S200000x128, .f32⟩
  | 22 => ⟨S1x128, .f32⟩
  | 23 => ⟨S200000x128, .f32⟩
  | 24 => ⟨S200000x128, .f32⟩
  | 25 => ⟨S_, .f32⟩
  | 26 => ⟨S200000x128, .f32⟩
  | 27 => ⟨S200000x128, .f32⟩
  | 28 => ⟨S200000x128, .f32⟩
  | 29 => ⟨S_, .f32⟩
  | 30 => ⟨S1600000, .f32⟩
  | 31 => ⟨S_, .f32⟩
  | 32 => ⟨S200000, .f32⟩
  | 33 => ⟨S1600000x1, .i32⟩
  | 34 => ⟨S200000, .f32⟩
  | 35 => ⟨S_, .f32⟩
  | 36 => ⟨S200000, .f32⟩
  | 37 => ⟨S200000, .i1⟩
  | 38 => ⟨S_, .f32⟩
  | 39 => ⟨S200000, .f32⟩
  | 40 => ⟨S200000, .f32⟩
  | 41 => ⟨S_, .f32⟩
  | 42 => ⟨S_, .f32⟩
  | 43 => ⟨S200000, .f32⟩
  | 44 => ⟨S200000, .f32⟩
  | 45 => ⟨S_, .f32⟩
  | 46 => ⟨S1600000, .f32⟩
  | 47 => ⟨S_, .f32⟩
  | 48 => ⟨S25000, .f32⟩
  | 49 => ⟨S1600000x1, .i32⟩
  | 50 => ⟨S25000, .f32⟩
  | 51 => ⟨S_, .f32⟩
  | 52 => ⟨S25000, .f32⟩
  | 53 => ⟨S25000, .i1⟩
  | 54 => ⟨S_, .f32⟩
  | 55 => ⟨S25000, .f32⟩
  | 56 => ⟨S25000, .f32⟩
  | 57 => ⟨S_, .f32⟩
  | 58 => ⟨S_, .f32⟩
  | 59 => ⟨S25000, .f32⟩
  | 60 => ⟨S25000, .f32⟩
  | 61 => ⟨S25000x1, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x128, .f32⟩
  | 71 => ⟨S_, .f32⟩
  | 72 => ⟨S25000x128, .f32⟩
  | 73 => ⟨S1600000x1, .i32⟩
  | 74 => ⟨S25000x128, .f32⟩
  | 75 => ⟨S25000x128, .f32⟩
  | 76 => ⟨S25000x128, .f32⟩
  | 77 => ⟨S200000x1, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S_, .f32⟩
  | 88 => ⟨S200000x128, .f32⟩
  | 89 => ⟨S1600000x1, .i32⟩
  | 90 => ⟨S200000x128, .f32⟩
  | 91 => ⟨S200000x128, .f32⟩
  | 92 => ⟨S200000x128, .f32⟩
  | 93 => ⟨S1x128, .f32⟩
  | 94 => ⟨S200000x128, .f32⟩
  | 95 => ⟨S200000x128, .f32⟩
  | 96 => ⟨S_, .f32⟩
  | 97 => ⟨S200000x128, .f32⟩
  | 98 => ⟨S200000x128, .f32⟩
  | 99 => ⟨S_, .f32⟩
  | 100 => ⟨S16x128, .f32⟩
  | 101 => ⟨S200000x1, .i32⟩
  | 102 => ⟨S16x128, .f32⟩
  | 103 => ⟨S_, .f32⟩
  | 104 => ⟨S200000, .f32⟩
  | 105 => ⟨S_, .f32⟩
  | 106 => ⟨S16, .f32⟩
  | 107 => ⟨S200000x1, .i32⟩
  | 108 => ⟨S16, .f32⟩
  | 109 => ⟨S_, .f32⟩
  | 110 => ⟨S16, .f32⟩
  | 111 => ⟨S16, .f32⟩
  | 112 => ⟨S16x1, .f32⟩
  | 113 => ⟨S16x128, .f32⟩
  | 114 => ⟨S16x128, .f32⟩
  | 115 => ⟨S200000x128, .f32⟩
  | 116 => ⟨S_, .f32⟩
  | 117 => ⟨S1600000, .f32⟩
  | 118 => ⟨S_, .f32⟩
  | 119 => ⟨S200000, .f32⟩
  | 120 => ⟨S1600000x1, .i32⟩
  | 121 => ⟨S200000, .f32⟩
  | 122 => ⟨S_, .f32⟩
  | 123 => ⟨S200000, .f32⟩
  | 124 => ⟨S200000, .i1⟩
  | 125 => ⟨S_, .f32⟩
  | 126 => ⟨S200000, .f32⟩
  | 127 => ⟨S200000, .f32⟩
  | _ => ⟨S200000x64, .f32⟩

abbrev hbmTy0_1 (i : Nat) : BufTy := match i % 128 with
  | 0 => ⟨S_, .f32⟩
  | 1 => ⟨S_, .f32⟩
  | 2 => ⟨S200000, .f32⟩
  | 3 => ⟨S200000, .f32⟩
  | 4 => ⟨S_, .f32⟩
  | 5 => ⟨S1600000, .f32⟩
  | 6 => ⟨S_, .f32⟩
  | 7 => ⟨S25000, .f32⟩
  | 8 => ⟨S1600000x1, .i32⟩
  | 9 => ⟨S25000, .f32⟩
  | 10 => ⟨S_, .f32⟩
  | 11 => ⟨S25000, .f32⟩
  | 12 => ⟨S25000, .i1⟩
  | 13 => ⟨S_, .f32⟩
  | 14 => ⟨S25000, .f32⟩
  | 15 => ⟨S25000, .f32⟩
  | 16 => ⟨S_, .f32⟩
  | 17 => ⟨S_, .f32⟩
  | 18 => ⟨S25000, .f32⟩
  | 19 => ⟨S25000, .f32⟩
  | 20 => ⟨S25000x1, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S25000x128, .f32⟩
  | 32 => ⟨S1600000x1, .i32⟩
  | 33 => ⟨S25000x128, .f32⟩
  | 34 => ⟨S25000x128, .f32⟩
  | 35 => ⟨S25000x128, .f32⟩
  | 36 => ⟨S200000x1, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S_, .f32⟩
  | 47 => ⟨S200000x128, .f32⟩
  | 48 => ⟨S1600000x1, .i32⟩
  | 49 => ⟨S200000x128, .f32⟩
  | 50 => ⟨S200000x128, .f32⟩
  | 51 => ⟨S200000x128, .f32⟩
  | 52 => ⟨S1x128, .f32⟩
  | 53 => ⟨S200000x128, .f32⟩
  | 54 => ⟨S200000x128, .f32⟩
  | 55 => ⟨S_, .f32⟩
  | 56 => ⟨S200000x128, .f32⟩
  | 57 => ⟨S200000x128, .f32⟩
  | 58 => ⟨S_, .f32⟩
  | 59 => ⟨S16x128, .f32⟩
  | 60 => ⟨S200000x1, .i32⟩
  | 61 => ⟨S16x128, .f32⟩
  | 62 => ⟨S_, .f32⟩
  | 63 => ⟨S200000, .f32⟩
  | 64 => ⟨S_, .f32⟩
  | 65 => ⟨S16, .f32⟩
  | 66 => ⟨S200000x1, .i32⟩
  | 67 => ⟨S16, .f32⟩
  | 68 => ⟨S_, .f32⟩
  | 69 => ⟨S16, .f32⟩
  | 70 => ⟨S16, .f32⟩
  | 71 => ⟨S16x1, .f32⟩
  | 72 => ⟨S16x128, .f32⟩
  | 73 => ⟨S16x128, .f32⟩
  | 74 => ⟨S16x256, .f32⟩
  | 75 => ⟨S16x128, .f32⟩
  | 76 => ⟨S1x128, .f32⟩
  | 77 => ⟨S16x128, .f32⟩
  | 78 => ⟨S16x128, .f32⟩
  | 79 => ⟨S16x64, .f32⟩
  | 80 => ⟨S1x64, .f32⟩
  | 81 => ⟨S16x64, .f32⟩
  | 82 => ⟨S16x64, .f32⟩
  | 83 => ⟨S_, .f32⟩
  | 84 => ⟨S64, .f32⟩
  | 85 => ⟨S_, .f32⟩
  | 86 => ⟨S64, .f32⟩
  | 87 => ⟨S64, .f32⟩
  | 88 => ⟨S_, .i32⟩
  | 89 => ⟨S_, .f32⟩
  | 90 => ⟨S64, .f32⟩
  | 91 => ⟨S1x64, .f32⟩
  | 92 => ⟨S_, .f32⟩
  | 93 => ⟨S1x64, .f32⟩
  | 94 => ⟨S1x64, .f32⟩
  | 95 => ⟨S16x64, .f32⟩
  | 96 => ⟨S16x64, .f32⟩
  | 97 => ⟨S16x64, .f32⟩
  | 98 => ⟨S_, .f32⟩
  | 99 => ⟨S_, .f32⟩
  | 100 => ⟨S_, .f32⟩
  | 101 => ⟨S_, .f32⟩
  | 102 => ⟨S64, .f32⟩
  | 103 => ⟨S64, .f32⟩
  | 104 => ⟨S64, .f32⟩
  | 105 => ⟨S_, .f32⟩
  | 106 => ⟨S_, .i1⟩
  | 107 => ⟨S_, .f32⟩
  | 108 => ⟨S_, .f32⟩
  | 109 => ⟨S64, .f32⟩
  | 110 => ⟨S64, .f32⟩
  | 111 => ⟨S1x64, .f32⟩
  | 112 => ⟨S16x64, .f32⟩
  | 113 => ⟨S16x64, .f32⟩
  | 114 => ⟨S1x64, .f32⟩
  | 115 => ⟨S16x64, .f32⟩
  | 116 => ⟨S16x64, .f32⟩
  | 117 => ⟨S_, .f32⟩
  | 118 => ⟨S64, .f32⟩
  | 119 => ⟨S64, .f32⟩
  | 120 => ⟨S64, .f32⟩
  | 121 => ⟨S1x64, .f32⟩
  | 122 => ⟨S16x64, .f32⟩
  | 123 => ⟨S16x64, .f32⟩
  | 124 => ⟨S1x64, .f32⟩
  | 125 => ⟨S16x64, .f32⟩
  | 126 => ⟨S16x64, .f32⟩
  | 127 => ⟨S_, .f32⟩
  | _ => ⟨S200000x64, .f32⟩

abbrev hbmTy0_2 (i : Nat) : BufTy := match i % 128 with
  | 0 => ⟨S16x64, .f32⟩
  | 1 => ⟨S16x64, .f32⟩
  | 2 => ⟨S16x32, .f32⟩
  | 3 => ⟨S1x32, .f32⟩
  | 4 => ⟨S16x32, .f32⟩
  | 5 => ⟨S16x32, .f32⟩
  | 6 => ⟨S_, .f32⟩
  | 7 => ⟨S32, .f32⟩
  | 8 => ⟨S_, .f32⟩
  | 9 => ⟨S32, .f32⟩
  | 10 => ⟨S32, .f32⟩
  | 11 => ⟨S_, .i32⟩
  | 12 => ⟨S_, .f32⟩
  | 13 => ⟨S32, .f32⟩
  | 14 => ⟨S1x32, .f32⟩
  | 15 => ⟨S_, .f32⟩
  | 16 => ⟨S1x32, .f32⟩
  | 17 => ⟨S1x32, .f32⟩
  | 18 => ⟨S16x32, .f32⟩
  | 19 => ⟨S16x32, .f32⟩
  | 20 => ⟨S16x32, .f32⟩
  | 21 => ⟨S_, .f32⟩
  | 22 => ⟨S_, .f32⟩
  | 23 => ⟨S_, .f32⟩
  | 24 => ⟨S_, .f32⟩
  | 25 => ⟨S32, .f32⟩
  | 26 => ⟨S32, .f32⟩
  | 27 => ⟨S32, .f32⟩
  | 28 => ⟨S_, .f32⟩
  | 29 => ⟨S_, .i1⟩
  | 30 => ⟨S_, .f32⟩
  | 31 => ⟨S_, .f32⟩
  | 32 => ⟨S32, .f32⟩
  | 33 => ⟨S32, .f32⟩
  | 34 => ⟨S1x32, .f32⟩
  | 35 => ⟨S16x32, .f32⟩
  | 36 => ⟨S16x32, .f32⟩
  | 37 => ⟨S1x32, .f32⟩
  | 38 => ⟨S16x32, .f32⟩
  | 39 => ⟨S16x32, .f32⟩
  | 40 => ⟨S_, .f32⟩
  | 41 => ⟨S32, .f32⟩
  | 42 => ⟨S32, .f32⟩
  | 43 => ⟨S32, .f32⟩
  | 44 => ⟨S1x32, .f32⟩
  | 45 => ⟨S16x32, .f32⟩
  | 46 => ⟨S16x32, .f32⟩
  | 47 => ⟨S1x32, .f32⟩
  | 48 => ⟨S16x32, .f32⟩
  | 49 => ⟨S16x32, .f32⟩
  | 50 => ⟨S_, .f32⟩
  | 51 => ⟨S16x32, .f32⟩
  | 52 => ⟨S16x32, .f32⟩
  | 53 => ⟨S16x4, .f32⟩
  | _ => ⟨S200000x64, .f32⟩

abbrev hbmTy (i : Nat) : BufTy := match i / 128 with
  | 0 => hbmTy0_0 i
  | 1 => hbmTy0_1 i
  | 2 => hbmTy0_2 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_cst : Ref sig .tc := ⟨.hbm, 25, rfl⟩
abbrev main_call0_v0 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_v14 : Ref sig .tc := ⟨.hbm, 44, rfl⟩
abbrev main_cst_4 : Ref sig .tc := ⟨.hbm, 45, rfl⟩
abbrev main_v15 : Ref sig .tc := ⟨.hbm, 46, rfl⟩
abbrev main_cst_5 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_6 : Ref sig .tc := ⟨.hbm, 51, rfl⟩
abbrev main_v19 : Ref sig .tc := ⟨.hbm, 52, rfl⟩
abbrev main_v20 : Ref sig .tc := ⟨.hbm, 53, rfl⟩
abbrev main_cst_7 : Ref sig .tc := ⟨.hbm, 54, rfl⟩
abbrev main_v21 : Ref sig .tc := ⟨.hbm, 55, rfl⟩
abbrev main_v22 : Ref sig .tc := ⟨.hbm, 56, rfl⟩
abbrev main_cst_8 : Ref sig .tc := ⟨.hbm, 57, rfl⟩
abbrev main_call2_v0 : Ref sig .tc := ⟨.hbm, 58, rfl⟩
abbrev main_call2_v1 : Ref sig .tc := ⟨.hbm, 59, rfl⟩
abbrev main_v23 : Ref sig .tc := ⟨.hbm, 60, rfl⟩
abbrev main_v24 : Ref sig .tc := ⟨.hbm, 61, rfl⟩
abbrev main_c : Ref sig .tc := ⟨.hbm, 62, rfl⟩
abbrev main_v25 : Ref sig .tc := ⟨.hbm, 63, rfl⟩
abbrev main_v26 : Ref sig .tc := ⟨.hbm, 64, rfl⟩
abbrev main_c_9 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_10 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_c_11 : Ref sig .tc := ⟨.hbm, 78, rfl⟩
abbrev main_v38 : Ref sig .tc := ⟨.hbm, 79, rfl⟩
abbrev main_v39 : Ref sig .tc := ⟨.hbm, 80, rfl⟩
abbrev main_c_12 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_13 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_call3_cst : Ref sig .tc := ⟨.hbm, 96, rfl⟩
abbrev main_call3_v0 : Ref sig .tc := ⟨.hbm, 97, rfl⟩
abbrev main_v53 : Ref sig .tc := ⟨.hbm, 98, rfl⟩
abbrev main_cst_14 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_15 : Ref sig .tc := ⟨.hbm, 103, rfl⟩
abbrev main_v57 : Ref sig .tc := ⟨.hbm, 104, rfl⟩
abbrev main_cst_16 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_17 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_18 : Ref sig .tc := ⟨.hbm, 116, rfl⟩
abbrev main_v67 : Ref sig .tc := ⟨.hbm, 117, rfl⟩
abbrev main_cst_19 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_20 : Ref sig .tc := ⟨.hbm, 122, rfl⟩
abbrev main_v71 : Ref sig .tc := ⟨.hbm, 123, rfl⟩
abbrev main_v72 : Ref sig .tc := ⟨.hbm, 124, rfl⟩
abbrev main_cst_21 : Ref sig .tc := ⟨.hbm, 125, rfl⟩
abbrev main_v73 : Ref sig .tc := ⟨.hbm, 126, rfl⟩
abbrev main_v74 : Ref sig .tc := ⟨.hbm, 127, rfl⟩
abbrev main_cst_22 : Ref sig .tc := ⟨.hbm, 128, rfl⟩
abbrev main_call4_v0 : Ref sig .tc := ⟨.hbm, 129, rfl⟩
abbrev main_call4_v1 : Ref sig .tc := ⟨.hbm, 130, rfl⟩
abbrev main_v75 : Ref sig .tc := ⟨.hbm, 131, rfl⟩
abbrev main_cst_23 : Ref sig .tc := ⟨.hbm, 132, rfl⟩
abbrev main_v76 : Ref sig .tc := ⟨.hbm, 133, rfl⟩
abbrev main_cst_24 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_25 : Ref sig .tc := ⟨.hbm, 138, rfl⟩
abbrev main_v80 : Ref sig .tc := ⟨.hbm, 139, rfl⟩
abbrev main_v81 : Ref sig .tc := ⟨.hbm, 140, rfl⟩
abbrev main_cst_26 : Ref sig .tc := ⟨.hbm, 141, rfl⟩
abbrev main_v82 : Ref sig .tc := ⟨.hbm, 142, rfl⟩
abbrev main_v83 : Ref sig .tc := ⟨.hbm, 143, rfl⟩
abbrev main_cst_27 : Ref sig .tc := ⟨.hbm, 144, rfl⟩
abbrev main_call5_v0 : Ref sig .tc := ⟨.hbm, 145, rfl⟩
abbrev main_call5_v1 : Ref sig .tc := ⟨.hbm, 146, rfl⟩
abbrev main_v84 : Ref sig .tc := ⟨.hbm, 147, rfl⟩
abbrev main_v85 : Ref sig .tc := ⟨.hbm, 148, rfl⟩
abbrev main_c_28 : Ref sig .tc := ⟨.hbm, 149, rfl⟩
abbrev main_v86 : Ref sig .tc := ⟨.hbm, 150, rfl⟩
abbrev main_v87 : Ref sig .tc := ⟨.hbm, 151, rfl⟩
abbrev main_c_29 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_cst_30 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_c_31 : Ref sig .tc := ⟨.hbm, 165, rfl⟩
abbrev main_v99 : Ref sig .tc := ⟨.hbm, 166, rfl⟩
abbrev main_v100 : Ref sig .tc := ⟨.hbm, 167, rfl⟩
abbrev main_c_32 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_cst_33 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_call6_cst : Ref sig .tc := ⟨.hbm, 183, rfl⟩
abbrev main_call6_v0 : Ref sig .tc := ⟨.hbm, 184, rfl⟩
abbrev main_v114 : Ref sig .tc := ⟨.hbm, 185, rfl⟩
abbrev main_cst_34 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_35 : Ref sig .tc := ⟨.hbm, 190, rfl⟩
abbrev main_v118 : Ref sig .tc := ⟨.hbm, 191, rfl⟩
abbrev main_cst_36 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_cst_37 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_38 : Ref sig .tc := ⟨.hbm, 211, rfl⟩
abbrev main_v136 : Ref sig .tc := ⟨.hbm, 212, rfl⟩
abbrev main_cst_39 : Ref sig .tc := ⟨.hbm, 213, rfl⟩
abbrev main_v137 : Ref sig .tc := ⟨.hbm, 214, rfl⟩
abbrev main_v138 : Ref sig .tc := ⟨.hbm, 215, rfl⟩
abbrev main_c_40 : Ref sig .tc := ⟨.hbm, 216, rfl⟩
abbrev main_call7_cst : Ref sig .tc := ⟨.hbm, 217, rfl⟩
abbrev main_call7_v0 : Ref sig .tc := ⟨.hbm, 218, rfl⟩
abbrev main_call7_v1 : Ref sig .tc := ⟨.hbm, 219, rfl⟩
abbrev main_call7_cst_0 : Ref sig .tc := ⟨.hbm, 220, rfl⟩
abbrev main_call7_v2 : Ref sig .tc := ⟨.hbm, 221, rfl⟩
abbrev main_call7_v3 : Ref sig .tc := ⟨.hbm, 222, rfl⟩
abbrev main_call7_v4 : Ref sig .tc := ⟨.hbm, 223, rfl⟩
abbrev main_call7_v5 : Ref sig .tc := ⟨.hbm, 224, rfl⟩
abbrev main_call7_v6 : Ref sig .tc := ⟨.hbm, 225, rfl⟩
abbrev main_call7_v7 : Ref sig .tc := ⟨.hbm, 226, rfl⟩
abbrev main_call7_cst_1 : Ref sig .tc := ⟨.hbm, 227, rfl⟩
abbrev main_call7_v8 : Ref sig .tc := ⟨.hbm, 228, rfl⟩
abbrev main_call7_cst_2 : Ref sig .tc := ⟨.hbm, 229, rfl⟩
abbrev main_call7_v9 : Ref sig .tc := ⟨.hbm, 230, rfl⟩
abbrev main_call7_v10 : Ref sig .tc := ⟨.hbm, 231, rfl⟩
abbrev main_call7_v11 : Ref sig .tc := ⟨.hbm, 232, rfl⟩
abbrev main_call7_cst_3 : Ref sig .tc := ⟨.hbm, 233, rfl⟩
abbrev main_call7_v12 : Ref sig .tc := ⟨.hbm, 234, rfl⟩
abbrev main_call7_cst_4 : Ref sig .tc := ⟨.hbm, 235, rfl⟩
abbrev main_call7_call0_v0 : Ref sig .tc := ⟨.hbm, 236, rfl⟩
abbrev main_call7_call0_v1 : Ref sig .tc := ⟨.hbm, 237, rfl⟩
abbrev main_v139 : Ref sig .tc := ⟨.hbm, 238, rfl⟩
abbrev main_v140 : Ref sig .tc := ⟨.hbm, 239, rfl⟩
abbrev main_v141 : Ref sig .tc := ⟨.hbm, 240, rfl⟩
abbrev main_v142 : Ref sig .tc := ⟨.hbm, 241, rfl⟩
abbrev main_v143 : Ref sig .tc := ⟨.hbm, 242, rfl⟩
abbrev main_v144 : Ref sig .tc := ⟨.hbm, 243, rfl⟩
abbrev main_v145 : Ref sig .tc := ⟨.hbm, 244, rfl⟩
abbrev main_cst_41 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_call8_cst : Ref sig .tc := ⟨.hbm, 255, rfl⟩
abbrev main_call8_v0 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_cst_42 : Ref sig .tc := ⟨.hbm, 262, rfl⟩
abbrev main_v160 : Ref sig .tc := ⟨.hbm, 263, rfl⟩
abbrev main_cst_43 : Ref sig .tc := ⟨.hbm, 264, rfl⟩
abbrev main_v161 : Ref sig .tc := ⟨.hbm, 265, rfl⟩
abbrev main_v162 : Ref sig .tc := ⟨.hbm, 266, rfl⟩
abbrev main_c_44 : Ref sig .tc := ⟨.hbm, 267, rfl⟩
abbrev main_call9_cst : Ref sig .tc := ⟨.hbm, 268, rfl⟩
abbrev main_call9_v0 : Ref sig .tc := ⟨.hbm, 269, rfl⟩
abbrev main_call9_v1 : Ref sig .tc := ⟨.hbm, 270, rfl⟩
abbrev main_call9_cst_0 : Ref sig .tc := ⟨.hbm, 271, rfl⟩
abbrev main_call9_v2 : Ref sig .tc := ⟨.hbm, 272, rfl⟩
abbrev main_call9_v3 : Ref sig .tc := ⟨.hbm, 273, rfl⟩
abbrev main_call9_v4 : Ref sig .tc := ⟨.hbm, 274, rfl⟩
abbrev main_call9_v5 : Ref sig .tc := ⟨.hbm, 275, rfl⟩
abbrev main_call9_v6 : Ref sig .tc := ⟨.hbm, 276, rfl⟩
abbrev main_call9_v7 : Ref sig .tc := ⟨.hbm, 277, rfl⟩
abbrev main_call9_cst_1 : Ref sig .tc := ⟨.hbm, 278, rfl⟩
abbrev main_call9_v8 : Ref sig .tc := ⟨.hbm, 279, rfl⟩
abbrev main_call9_cst_2 : Ref sig .tc := ⟨.hbm, 280, rfl⟩
abbrev main_call9_v9 : Ref sig .tc := ⟨.hbm, 281, rfl⟩
abbrev main_call9_v10 : Ref sig .tc := ⟨.hbm, 282, rfl⟩
abbrev main_call9_v11 : Ref sig .tc := ⟨.hbm, 283, rfl⟩
abbrev main_call9_cst_3 : Ref sig .tc := ⟨.hbm, 284, rfl⟩
abbrev main_call9_v12 : Ref sig .tc := ⟨.hbm, 285, rfl⟩
abbrev main_call9_cst_4 : Ref sig .tc := ⟨.hbm, 286, rfl⟩
abbrev main_call9_call0_v0 : Ref sig .tc := ⟨.hbm, 287, rfl⟩
abbrev main_call9_call0_v1 : Ref sig .tc := ⟨.hbm, 288, rfl⟩
abbrev main_v163 : Ref sig .tc := ⟨.hbm, 289, rfl⟩
abbrev main_v164 : Ref sig .tc := ⟨.hbm, 290, rfl⟩
abbrev main_v165 : Ref sig .tc := ⟨.hbm, 291, rfl⟩
abbrev main_v166 : Ref sig .tc := ⟨.hbm, 292, rfl⟩
abbrev main_v167 : Ref sig .tc := ⟨.hbm, 293, rfl⟩
abbrev main_v168 : Ref sig .tc := ⟨.hbm, 294, rfl⟩
abbrev main_v169 : Ref sig .tc := ⟨.hbm, 295, rfl⟩
abbrev main_cst_45 : Ref sig .tc := ⟨.hbm, 296, rfl⟩
abbrev main_v170 : Ref sig .tc := ⟨.hbm, 297, rfl⟩
abbrev main_v171 : Ref sig .tc := ⟨.hbm, 298, rfl⟩
abbrev main_v172 : Ref sig .tc := ⟨.hbm, 299, rfl⟩
abbrev main_v173 : Ref sig .tc := ⟨.hbm, 300, rfl⟩
abbrev main_v174 : Ref sig .tc := ⟨.hbm, 301, rfl⟩
abbrev main_v175 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_call10_cst : Ref sig .tc := ⟨.hbm, 306, rfl⟩
abbrev main_call10_v0 : Ref sig .tc := ⟨.hbm, 307, rfl⟩
abbrev main_v179 : Ref sig .tc := ⟨.hbm, 308, rfl⟩
abbrev main_v180 : Ref sig .tc := ⟨.hbm, 309, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S1600000 : S_.BroadcastsInDim S1600000 (![] : Fin 0 → Fin S1600000.rank)
  bcast_S_S200000 : S_.BroadcastsInDim S200000 (![] : Fin 0 → Fin S200000.rank)
  bcast_S1600000_S1600000x1_0 : S1600000.BroadcastsInDim S1600000x1 (![0] : Fin 1 → Fin S1600000x1.rank)
  bcast_S_S25000 : S_.BroadcastsInDim S25000 (![] : Fin 0 → Fin S25000.rank)
  bcast_S25000_S25000x1_0 : S25000.BroadcastsInDim S25000x1 (![0] : Fin 1 → Fin S25000x1.rank)
  bcast_S_S25000x128 : S_.BroadcastsInDim S25000x128 (![] : Fin 0 → Fin S25000x128.rank)
  bcast_S25000x1_S25000x128_0_1 : S25000x1.BroadcastsInDim S25000x128 (![0, 1] : Fin 2 → Fin S25000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S16x128 : S_.BroadcastsInDim S16x128 (![] : Fin 0 → Fin S16x128.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  concatenates_S16x128_S16x128_S16x256_d1 : Shape.Concatenates [S16x128, S16x128] S16x256 1
  bcast_S1x128_S16x128_0_1 : S1x128.BroadcastsInDim S16x128 (![0, 1] : Fin 2 → Fin S16x128.rank)
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  reducesTo_S16x64_S64_d0 : S16x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S16x64 : S_.BroadcastsInDim S16x64 (![] : Fin 0 → Fin S16x64.rank)
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  reducesTo_S16x32_S32_d0 : S16x32.ReducesTo [0] S32
  bcast_S_S32 : S_.BroadcastsInDim S32 (![] : Fin 0 → Fin S32.rank)
  bcast_S_S1x32 : S_.BroadcastsInDim S1x32 (![] : Fin 0 → Fin S1x32.rank)
  bcast_S_S16x32 : S_.BroadcastsInDim S16x32 (![] : Fin 0 → Fin S16x32.rank)
  dot_S200000x64_S64x128_S200000x128_1_0_0_1_n_n_wf : DotDims.WF S200000x64 S64x128 S200000x128 [1] [0] [0] [1] [] []
  dot_S200000x128_S128x128_S200000x128_1_0_0_1_n_n_wf : DotDims.WF S200000x128 S128x128 S200000x128 [1] [0] [0] [1] [] []
  scatter_S200000_S1600000x1_S1600000_n_0_0_1_wf : ScatterDims.WF S200000 S1600000x1 S1600000 [] [0] [0] 1
  scatter_S25000_S1600000x1_S1600000_n_0_0_1_wf : ScatterDims.WF S25000 S1600000x1 S1600000 [] [0] [0] 1
  gather_S200000x128_S1600000x1_S1600000x128_1_0_n_n_0_1_1128_wf : GatherDims.WF S200000x128 S1600000x1 S1600000x128 [1] [0] [] [0] [] 1 ![1, 128]
  scatter_S25000x128_S1600000x1_S1600000x128_1_0_0_1_wf : ScatterDims.WF S25000x128 S1600000x1 S1600000x128 [1] [0] [0] 1
  gather_S25000x128_S1600000x1_S1600000x128_1_0_n_n_0_1_1128_wf : GatherDims.WF S25000x128 S1600000x1 S1600000x128 [1] [0] [] [0] [] 1 ![1, 128]
  scatter_S200000x128_S1600000x1_S1600000x128_1_0_0_1_wf : ScatterDims.WF S200000x128 S1600000x1 S1600000x128 [1] [0] [0] 1
  scatter_S16x128_S200000x1_S200000x128_1_0_0_1_wf : ScatterDims.WF S16x128 S200000x1 S200000x128 [1] [0] [0] 1
  scatter_S16_S200000x1_S200000_n_0_0_1_wf : ScatterDims.WF S16 S200000x1 S200000 [] [0] [0] 1
  dot_S16x256_S256x128_S16x128_1_0_0_1_n_n_wf : DotDims.WF S16x256 S256x128 S16x128 [1] [0] [0] [1] [] []
  dot_S16x128_S128x64_S16x64_1_0_0_1_n_n_wf : DotDims.WF S16x128 S128x64 S16x64 [1] [0] [0] [1] [] []
  dot_S16x64_S64x32_S16x32_1_0_0_1_n_n_wf : DotDims.WF S16x64 S64x32 S16x32 [1] [0] [0] [1] [] []
  dot_S16x32_S32x4_S16x4_1_0_0_1_n_n_wf : DotDims.WF S16x32 S32x4 S16x4 [1] [0] [0] [1] [] []

variable [Facts₀]

def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S200000_S1600000x1_S1600000_n_0_0_1 : ScatterDims S200000 S1600000x1 S1600000 where
  updateWindowDims := []
  insertedWindowDims := [0]
  scatterDimsToOperandDims := [0]
  indexVectorDim := 1
  wf := scatter_S200000_S1600000x1_S1600000_n_0_0_1_wf
def scatter_S25000_S1600000x1_S1600000_n_0_0_1 : ScatterDims S25000 S1600000x1 S1600000 where
  updateWindowDims := []
  insertedWindowDims := [0]
  scatterDimsToOperandDims := [0]
  indexVectorDim := 1
  wf := scatter_S25000_S1600000x1_S1600000_n_0_0_1_wf
def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S25000x128_S1600000x1_S1600000x128_1_0_0_1 : ScatterDims S25000x128 S1600000x1 S1600000x128 where
  updateWindowDims := [1]
  insertedWindowDims := [0]
  scatterDimsToOperandDims := [0]
  indexVectorDim := 1
  wf := scatter_S25000x128_S1600000x1_S1600000x128_1_0_0_1_wf
def gather_S25000x128_S1600000x1_S1600000x128_1_0_n_n_0_1_1128 : GatherDims S25000x128 S1600000x1 S1600000x128 where
  offsetDims := [1]
  collapsedSliceDims := [0]
  operandBatchingDims := []
  startIndicesBatchingDims := []
  startIndexMap := [0]
  indexVectorDim := 1
  sliceSizes := ![1, 128]
  wf := gather_S25000x128_S1600000x1_S1600000x128_1_0_n_n_0_1_1128_wf
def scatter_S200000x128_S1600000x1_S1600000x128_1_0_0_1 : ScatterDims S200000x128 S1600000x1 S1600000x128 where
  updateWindowDims := [1]
  insertedWindowDims := [0]
  scatterDimsToOperandDims := [0]
  indexVectorDim := 1
  wf := scatter_S200000x128_S1600000x1_S1600000x128_1_0_0_1_wf
def scatter_S16x128_S200000x1_S200000x128_1_0_0_1 : ScatterDims S16x128 S200000x1 S200000x128 where
  updateWindowDims := [1]
  insertedWindowDims := [0]
  scatterDimsToOperandDims := [0]
  indexVectorDim := 1
  wf := scatter_S16x128_S200000x1_S200000x128_1_0_0_1_wf
def scatter_S16_S200000x1_S200000_n_0_0_1 : ScatterDims S16 S200000x1 S200000 where
  updateWindowDims := []
  insertedWindowDims := [0]
  scatterDimsToOperandDims := [0]
  indexVectorDim := 1
  wf := scatter_S16_S200000x1_S200000_n_0_0_1_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128_S128x64_S16x64_1_0_0_1_n_n : DotDims S16x128 S128x64 S16x64 where
  lhsContracting := [1]
  rhsContracting := [0]
  lhsNonContracting := [0]
  rhsNonContracting := [1]
  lhsBatch := []
  rhsBatch := []
  wf := dot_S16x128_S128x64_S16x64_1_0_0_1_n_n_wf
def dot_S16x64_S64x32_S16x32_1_0_0_1_n_n : DotDims S16x64 S64x32 S16x32 where
  lhsContracting := [1]
  rhsContracting := [0]
  lhsNonContracting := [0]
  rhsNonContracting := [1]
  lhsBatch := []
  rhsBatch := []
  wf := dot_S16x64_S64x32_S16x32_1_0_0_1_n_n_wf
def dot_S16x32_S32x4_S16x4_1_0_0_1_n_n : DotDims S16x32 S32x4 S16x4 where
  lhsContracting := [1]
  rhsContracting := [0]
  lhsNonContracting := [0]
  rhsNonContracting := [1]
  lhsBatch := []
  rhsBatch := []
  wf := dot_S16x32_S32x4_S16x4_1_0_0_1_n_n_wf

class Facts : Prop extends Facts₀ where

variable [Facts]
-- ==== Proof.RefOps.lean ====
/- The host operations of the reference program's entry function, in order, as lists: each entry is the operation the printed
   program applies at that statement, a called function's operations written at its call over that call's own buffers.
   The lists are cut where the three dense layers' products stand (so that what lies between two products is one list) and
   where the printed program's four statement windows end. -/
import proofs.«144298_j83494164234286_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 5 of the entry function: 7 operations. -/
abbrev pc0 : List (HloOp τ sig (Elt F)) :=
  ( StableHlo.binary main_arg0 main_arg4 main_v0 ((fun l r => Host.dotGeneral dot_S200000x64_S64x128_S200000x128_1_0_0_1_n_n none l r) : (⟨S200000x64, .f32⟩ : BufTy).Contents (Elt F) → (⟨S64x128, .f32⟩ : BufTy).Contents (Elt F) → (⟨S200000x128, .f32⟩ : BufTy).Contents (Elt F))
  :: StableHlo.unary main_arg5 main_v1 (broadcastInDim S1x128 ![1] bcast_S128_S1x128_1 : (⟨S128, .f32⟩ : BufTy).Contents (Elt F) → (⟨S1x128, .f32⟩ : BufTy).Contents (Elt F))
  :: StableHlo.unary main_v1 main_v2 (broadcastInDim S200000x128 ![0, 1] bcast_S1x128_S200000x128_0_1 : (⟨S1x128, .f32⟩ : BufTy).Contents (Elt F) → (⟨S200000x128, .f32⟩ : BufTy).Contents (Elt F))
  :: StableHlo.binary main_v0 main_v2 main_v3 (addf : (⟨S200000x128, .f32⟩ : BufTy).Contents (Elt F) → (⟨S200000x128, .f32⟩ : BufTy).Contents (Elt F) → (⟨S200000x128, .f32⟩ : BufTy).Contents (Elt F))
  :: StableHlo.TRef.nullary (.of main_call0_cst : StableHlo.TRef sig ⟨S_, .f32⟩) (constant S_ .f32 0x00000000#32)
  :: StableHlo.TRef.unary (.of main_call0_cst : StableHlo.TRef sig ⟨S_, .f32⟩) (.of main_call0_v0 : StableHlo.TRef sig ⟨S200000x128, .f32⟩) (broadcastInDim S200000x128 ![] bcast_S_S200000x128)
  :: StableHlo.TRef.binary (.of main_v3 : StableHlo.TRef sig ⟨S200000x128, .f32⟩) (.of main_call0_v0 : StableHlo.TRef sig ⟨S200000x128, .f32⟩) (.of main_v4 : StableHlo.TRef sig ⟨S200000x128, .f32⟩) maximumf
  :: [] )

/-- Statements 6 … 6 of the entry function: 1 operations. -/
abbrev pc1 : List (HloOp τ sig (Elt F)) :=
  ( StableHlo.binary main_v4 main_arg6 main_v5 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F))
  :: [] )

/-- Statements 7 … 60 of the entry function: 58 operations. -/
abbrev pc2 : List (HloOp τ sig (Elt F)) :=
  ( StableHlo.nullary main_cst (constant S_ .f32 0x3F800000#32)
  :: StableHlo.unary main_cst main_v6 (broadcastInDim S1600000 ![] bcast_S_S1600000 : (⟨S_, .f32⟩ : BufTy).Contents (Elt F) → (⟨S1600000, .f32⟩ : BufTy).Contents (Elt F))
  :: StableHlo.nullary main_cst_0 (constant S_ .f32 0x00000000#32)
  :: StableHlo.unary main_cst_0 main_v7 (broadcastInDim S200000 ![] bcast_S_S200000 : (⟨S_, .f32⟩ : BufTy).Contents (Elt F) → (⟨S200000, .f32⟩ : BufTy).Contents (Elt F))
  :: StableHlo.unary main_arg1 main_v8 (broadcastInDim S1600000x1 ![0] bcast_S1600000_S1600000x1_0 : (⟨S1600000, .i32⟩ : BufTy).Contents (Elt F) → (⟨S1600000x1, .i32⟩ : BufTy).Contents (Elt F))
  :: StableHlo.ternary main_v7 main_v8 main_v6 main_v9 ((fun x i u => Host.scatterAdd scatter_S200000_S1600000x1_S1600000_n_0_0_1 x i u) : (⟨S200000, .f32⟩ : BufTy).Contents (Elt F) → (⟨S1600000x1, .i32⟩ : BufTy).Contents (Elt F) → (⟨S1600000, .f32⟩ : BufTy).Contents (Elt F) → (⟨S200000, .f32⟩ : BufTy).Contents (Elt F))
  :: StableHlo.nullary main_cst_1 (constant S_ .f32 0x00000000#32)
  :: StableHlo.unary main_cst_1 main_v10 (broadcastInDim S200000 ![] bcast_S_S200000 : (⟨S_, .f32⟩ : BufTy).Contents (Elt F) → (⟨S200000, .f32⟩ : BufTy).Contents (Elt F))
  :: StableHlo.binary main_v9 main_v10 main_v11 (cmpf .ogt : (⟨S200000, .f32⟩ : BufTy).Contents (Elt F) → (⟨S200000, .f32⟩ : BufTy).Contents (Elt F) → (⟨S200000, .i1⟩ : BufTy).Contents (Elt F))
  :: StableHlo.nullary main_cst_2 (constant S_ .f32 0x3F800000#32)
  :: StableHlo.unary main_cst_2 main_v12 (broadcastInDim S200000 ![] bcast_S_S200000 : (⟨S_, .f32⟩ : BufTy).Contents (Elt F) → (⟨S200000, .f32⟩ : BufTy).Contents (Elt F))
  :: StableHlo.binary main_v12 main_v9 main_v13 (Host.divf : (⟨S200000, .f32⟩ : BufTy).Contents (Elt F) → (⟨S200000, .f32⟩ : BufTy).Contents (Elt F) → (⟨S200000, .f32⟩ : BufTy).Contents (Elt F))
  :: StableHlo.nullary main_cst_3 (constant S_ .f32 0x00000000#32)
  :: StableHlo.TRef.unary (.of main_cst_3 : StableHlo.TRef sig ⟨S_, .f32⟩) (.of main_call1_v0 : StableHlo.TRef sig ⟨S_, .f32⟩) id
  :: StableHlo.TRef.unary (.of main_call1_v0 : StableHlo.TRef sig ⟨S_, .f32⟩) (.of main_call1_v1 : StableHlo.TRef sig ⟨S200000, .f32⟩) (broadcastInDim S200000 ![] bcast_S_S200000)
  :: StableHlo.TRef.ternary (.of main_v11 : StableHlo.TRef sig ⟨S200000, .i1⟩) (.of main_v13 : StableHlo.TRef sig ⟨S200000, .f32⟩) (.of main_call1_v1 : StableHlo.TRef sig ⟨S200000, .f32⟩) (.of main_v14 : StableHlo.TRef sig ⟨S200000, .f32⟩) select
  :: StableHlo.nullary main_cst_4 (constant S_ .f32 0x3F800000#32)
  :: StableHlo.unary main_cst_4 main_v15 (broadcastInDim S1600000 ![] bcast_S_S1600000 : (⟨S_, .f32⟩ : BufTy).Contents (Elt F) → (⟨S1600000, .f32⟩ : BufTy).Contents (Elt F))
  :: StableHlo.nullary main_cst_5 (constant S_ .f32 0x00000000#32)
  :: StableHlo.unary main_cst_5 main_v16 (broadcastInDim S25000 ![] bcast_S_S25000 : (⟨S_, .f32⟩ : BufTy).Contents (Elt F) → (⟨S25000, .f32⟩ : BufTy).Contents (Elt F))
  :: StableHlo.unary main_arg2 main_v17 (broadcastInDim S1600000x1 ![0] bcast_S1600000_S1600000x1_0 : (⟨S1600000, .i32⟩ : BufTy).Contents (Elt F) → (⟨S1600000x1, .i32⟩ : BufTy).Contents (Elt F))
  :: StableHlo.ternary main_v16 main_v17 main_v15 main_v18 ((fun x i u => Host.scatterAdd scatter_S25000_S1600000x1_S1600000_n_0_0_1 x i u) : (⟨S25000, .f32⟩ : BufTy).Contents (Elt F) → (⟨S1600000x1, .i32⟩ : BufTy).Contents (Elt F) → (⟨S1600000, .f32⟩ : BufTy).Contents (Elt F) → (⟨S25000, .f32⟩ : BufTy).Contents (Elt F))
  :: StableHlo.nullary main_cst_6 (constant S_ .f32 0x00000000#32)
  :: StableHlo.unary main_cst_6 main_v19 (broadcastInDim S25000 ![] bcast_S_S25000 : (⟨S_, .f32⟩ : BufTy).Contents (Elt F) → (⟨S25000, .f32⟩ : BufTy).Contents (Elt F))
  :: StableHlo.binary main_v18 main_v19 main_v20 (cmpf .ogt : (⟨S25000, .f32⟩ : BufTy).Contents (Elt F) → (⟨S25000, .f32⟩ : BufTy).Contents (Elt F) → (⟨S25000, .i1⟩ : BufTy).Contents (Elt F))
  :: StableHlo.nullary main_cst_7 (constant S_ .f32 0x3F800000#32)
  :: StableHlo.unary main_cst_7 main_v21 (broadcastInDim S25000 ![] bcast_S_S25000 : (⟨S_, .f32⟩ : BufTy).Contents (Elt F) → (⟨S25000, .f32⟩ : BufTy).Contents (Elt F))
  :: StableHlo.binary main_v21 main_v18 main_v22 (Host.divf : (⟨S25000, .f32⟩ : BufTy).Contents (Elt F) → (⟨S25000, .f32⟩ : BufTy).Contents (Elt F) → (⟨S25000, .f32⟩ : BufTy).Contents (Elt F))
  :: StableHlo.nullary main_cst_8 (constant S_ .f32 0x00000000#32)
  :: StableHlo.TRef.unary (.of main_cst_8 : StableHlo.TRef sig ⟨S_, .f32⟩) (.of main_call2_v0 : StableHlo.TRef sig ⟨S_, .f32⟩) id
  :: StableHlo.TRef.unary (.of main_call2_v0 : StableHlo.TRef sig ⟨S_, .f32⟩) (.of main_call2_v1 : StableHlo.TRef sig ⟨S25000, .f32⟩) (broadcastInDim S25000 ![] bcast_S_S25000)
  :: StableHlo.TRef.ternary (.of main_v20 : StableHlo.TRef sig ⟨S25000, .i1⟩) (.of main_v22 : StableHlo.TRef sig ⟨S25000, .f32⟩) (.of main_call2_v1 : StableHlo.TRef sig ⟨S25000, .f32⟩) (.of main_v23 : StableHlo.TRef sig ⟨S25000, .f32⟩) select
  :: StableHlo.unary main_v23 main_v24 (broadcastInDim S25000x1 ![0] bcast_S25000_S25000x1_0 : (⟨S25000, .f32⟩ : BufTy).Contents (Elt F) → (⟨S25000x1, .f32⟩ : BufTy).Contents (Elt F))
  :: StableHlo.nullary main_c (constantI S_ 32 0#32)
  :: StableHlo.unary main_c main_v25 (broadcastInDim S1600000 ![] bcast_S_S1600000 : (⟨S_, .i32⟩ : BufTy).Contents (Elt F) → (⟨S1600000, .i32⟩ : BufTy).Contents (Elt F))
  :: StableHlo.binary main_arg1 main_v25 main_v26 (cmpi .slt : (⟨S1600000, .i32⟩ : BufTy).Contents (Elt F) → (⟨S1600000, .i32⟩ : BufTy).Contents (Elt F) → (⟨S1600000, .i1⟩ : BufTy).Contents (Elt F))
  :: StableHlo.nullary main_c_9 (constantI S_ 32 200000#32)
  :: StableHlo.unary main_c_9 main_v27 (broadcastInDim S1600000 ![] bcast_S_S1600000 : (⟨S_, .i32⟩ : BufTy).Contents (Elt F) → (⟨S1600000, .i32⟩ : BufTy).Contents (Elt F))
  :: StableHlo.binary main_arg1 main_v27 main_v28 (addi : (⟨S1600000, .i32⟩ : BufTy).Contents (Elt F) → (⟨S1600000, .i32⟩ : BufTy).Contents (Elt F) → (⟨S1600000, .i32⟩ : BufTy).Contents (Elt F))
  :: StableHlo.ternary main_v26 main_v28 main_arg1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v29 main_v30 (broadcastInDim S1600000x1 ![0] bcast_S1600000_S1600000x1_0 : (⟨S1600000, .i32⟩ : BufTy).Contents (Elt F) → (⟨S1600000x1, .i32⟩ : BufTy).Contents (Elt F))
  :: StableHlo.binary main_v5 main_v30 main_v31 ((fun x i => Host.gather gather_S200000x128_S1600000x1_S1600000x128_1_0_n_n_0_1_1128 x i) : (⟨S200000x128, .f32⟩ : BufTy).Contents (Elt F) → (⟨S1600000x1, .i32⟩ : BufTy).Contents (Elt F) → (⟨S1600000x128, .f32⟩ : BufTy).Contents (Elt F))
  :: StableHlo.nullary main_cst_10 (constant S_ .f32 0x00000000#32)
  :: StableHlo.unary main_cst_10 main_v32 (broadcastInDim S25000x128 ![] bcast_S_S25000x128 : (⟨S_, .f32⟩ : BufTy).Contents (Elt F) → (⟨S25000x128, .f32⟩ : BufTy).Contents (Elt F))
  :: StableHlo.unary main_arg2 main_v33 (broadcastInDim S1600000x1 ![0] bcast_S1600000_S1600000x1_0 : (⟨S1600000, .i32⟩ : BufTy).Contents (Elt F) → (⟨S1600000x1, .i32⟩ : BufTy).Contents (Elt F))
  :: StableHlo.ternary main_v32 main_v33 main_v31 main_v34 ((fun x i u => Host.scatterAdd scatter_S25000x128_S1600000x1_S1600000x128_1_0_0_1 x i u) : (⟨S25000x128, .f32⟩ : BufTy).Contents (Elt F) → (⟨S1600000x1, .i32⟩ : BufTy).Contents (Elt F) → (⟨S1600000x128, .f32⟩ : BufTy).Contents (Elt F) → (⟨S25000x128, .f32⟩ : BufTy).Contents (Elt F))
  :: StableHlo.unary main_v24 main_v35 (broadcastInDim S25000x128 ![0, 1] bcast_S25000x1_S25000x128_0_1 : (⟨S25000x1, .f32⟩ : BufTy).Contents (Elt F) → (⟨S25000x128, .f32⟩ : BufTy).Contents (Elt F))
  :: StableHlo.binary main_v35 main_v34 main_v36 (mulf : (⟨S25000x128, .f32⟩ : BufTy).Contents (Elt F) → (⟨S25000x128, .f32⟩ : BufTy).Contents (Elt F) → (⟨S25000x128, .f32⟩ : BufTy).Contents (Elt F))
  :: StableHlo.unary main_v14 main_v37 (broadcastInDim S200000x1 ![0] bcast_S200000_S200000x1_0 : (⟨S200000, .f32⟩ : BufTy).Contents (Elt F) → (⟨S200000x1, .f32⟩ : BufTy).Contents (Elt F))
  :: StableHlo.nullary main_c_11 (constantI S_ 32 0#32)
  :: StableHlo.unary main_c_11 main_v38 (broadcastInDim S1600000 ![] bcast_S_S1600000 : (⟨S_, .i32⟩ : BufTy).Contents (Elt F) → (⟨S1600000, .i32⟩ : BufTy).Contents (Elt F))
  :: StableHlo.binary main_arg2 main_v38 main_v39 (cmpi .slt : (⟨S1600000, .i32⟩ : BufTy).Contents (Elt F) → (⟨S1600000, .i32⟩ : BufTy).Contents (Elt F) → (⟨S1600000, .i1⟩ : BufTy).Contents (Elt F))
  :: StableHlo.nullary main_c_12 (constantI S_ 32 25000#32)
  :: StableHlo.unary main_c_12 main_v40 (broadcastInDim S1600000 ![] bcast_S_S1600000 : (⟨S_, .i32⟩ : BufTy).Contents (Elt F) → (⟨S1600000, .i32⟩ : BufTy).Contents (Elt F))
  :: StableHlo.binary main_arg2 main_v40 main_v41 (addi : (⟨S1600000, .i32⟩ : BufTy).Contents (Elt F) → (⟨S1600000, .i32⟩ : BufTy).Contents (Elt F) → (⟨S1600000, .i32⟩ : BufTy).Contents (Elt F))
  :: StableHlo.ternary main_v39 main_v41 main_arg2 main_v42 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v42 main_v43 (broadcastInDim S1600000x1 ![0] bcast_S1600000_S1600000x1_0 : (⟨S1600000, .i32⟩ : BufTy).Contents (Elt F) → (⟨S1600000x1, .i32⟩ : BufTy).Contents (Elt F))
  :: StableHlo.binary main_v36 main_v43 main_v44 ((fun x i => Host.gather gather_S25000x128_S1600000x1_S1600000x128_1_0_n_n_0_1_1128 x i) : (⟨S25000x128, .f32⟩ : BufTy).Contents (Elt F) → (⟨S1600000x1, .i32⟩ : BufTy).Contents (Elt F) → (⟨S1600000x128, .f32⟩ : BufTy).Contents (Elt F))
  :: [] )

/-- Statements 61 … 70 of the entry function: 12 operations. -/
abbrev pc3 : List (HloOp τ sig (Elt F)) :=
  ( StableHlo.nullary main_cst_13 (constant S_ .f32 0x00000000#32)
  :: StableHlo.unary main_cst_13 main_v45 (broadcastInDim S200000x128 ![] bcast_S_S200000x128 : (⟨S_, .f32⟩ : BufTy).Contents (Elt F) → (⟨S200000x128, .f32⟩ : BufTy).Contents (Elt F))
  :: StableHlo.unary main_arg1 main_v46 (broadcastInDim S1600000x1 ![0] bcast_S1600000_S1600000x1_0 : (⟨S1600000, .i32⟩ : BufTy).Contents (Elt F) → (⟨S1600000x1, .i32⟩ : BufTy).Contents (Elt F))
  :: StableHlo.ternary main_v45 main_v46 main_v44 main_v47 ((fun x i u => Host.scatterAdd scatter_S200000x128_S1600000x1_S1600000x128_1_0_0_1 x i u) : (⟨S200000x128, .f32⟩ : BufTy).Contents (Elt F) → (⟨S1600000x1, .i32⟩ : BufTy).Contents (Elt F) → (⟨S1600000x128, .f32⟩ : BufTy).Contents (Elt F) → (⟨S200000x128, .f32⟩ : BufTy).Contents (Elt F))
  :: StableHlo.unary main_v37 main_v48 (broadcastInDim S200000x128 ![0, 1] bcast_S200000x1_S200000x128_0_1 : (⟨S200000x1, .f32⟩ : BufTy).Contents (Elt F) → (⟨S200000x128, .f32⟩ : BufTy).Contents (Elt F))
  :: StableHlo.binary main_v48 main_v47 main_v49 (mulf : (⟨S200000x128, .f32⟩ : BufTy).Contents (Elt F) → (⟨S200000x128, .f32⟩ : BufTy).Contents (Elt F) → (⟨S200000x128, .f32⟩ : BufTy).Contents (Elt F))
  :: StableHlo.unary main_arg7 main_v50 (broadcastInDim S1x128 ![1] bcast_S128_S1x128_1 : (⟨S128, .f32⟩ : BufTy).Contents (Elt F) → (⟨S1x128, .f32⟩ : BufTy).Contents (Elt F))
  :: StableHlo.unary main_v50 main_v51 (broadcastInDim S200000x128 ![0, 1] bcast_S1x128_S200000x128_0_1 : (⟨S1x128, .f32⟩ : BufTy).Contents (Elt F) → (⟨S200000x128, .f32⟩ : BufTy).Contents (Elt F))
  :: StableHlo.binary main_v49 main_v51 main_v52 (addf : (⟨S200000x128, .f32⟩ : BufTy).Contents (Elt F) → (⟨S200000x128, .f32⟩ : BufTy).Contents (Elt F) → (⟨S200000x128, .f32⟩ : BufTy).Contents (Elt F))
  :: StableHlo.TRef.nullary (.of main_call3_cst : StableHlo.TRef sig ⟨S_, .f32⟩) (constant S_ .f32 0x00000000#32)
  :: StableHlo.TRef.unary (.of main_call3_cst : StableHlo.TRef sig ⟨S_, .f32⟩) (.of main_call3_v0 : StableHlo.TRef sig ⟨S200000x128, .f32⟩) (broadcastInDim S200000x128 ![] bcast_S_S200000x128)
  :: StableHlo.TRef.binary (.of main_v52 : StableHlo.TRef sig ⟨S200000x128, .f32⟩) (.of main_call3_v0 : StableHlo.TRef sig ⟨S200000x128, .f32⟩) (.of main_v53 : StableHlo.TRef sig ⟨S200000x128, .f32⟩) maximumf
  :: [] )

/-- Statements 71 … 86 of the entry function: 16 operations. -/
abbrev pc4 : List (HloOp τ sig (Elt F)) :=
  ( StableHlo.nullary main_cst_14 (constant S_ .f32 0x00000000#32)
  :: StableHlo.unary main_cst_14 main_v54 (broadcastInDim S16x128 ![] bcast_S_S16x128 : (⟨S_, .f32⟩ : BufTy).Contents (Elt F) → (⟨S16x128, .f32⟩ : BufTy).Contents (Elt F))
  :: StableHlo.unary main_arg3 main_v55 (broadcastInDim S200000x1 ![0] bcast_S200000_S200000x1_0 : (⟨S200000, .i32⟩ : BufTy).Contents (Elt F) → (⟨S200000x1, .i32⟩ : BufTy).Contents (Elt F))
  :: StableHlo.ternary main_v54 main_v55 main_v53 main_v56 ((fun x i u => Host.scatterAdd scatter_S16x128_S200000x1_S200000x128_1_0_0_1 x i u) : (⟨S16x128, .f32⟩ : BufTy).Contents (Elt F) → (⟨S200000x1, .i32⟩ : BufTy).Contents (Elt F) → (⟨S200000x128, .f32⟩ : BufTy).Contents (Elt F) → (⟨S16x128, .f32⟩ : BufTy).Contents (Elt F))
  :: StableHlo.nullary main_cst_15 (constant S_ .f32 0x3F800000#32)
  :: StableHlo.unary main_cst_15 main_v57 (broadcastInDim S200000 ![] bcast_S_S200000 : (⟨S_, .f32⟩ : BufTy).Contents (Elt F) → (⟨S200000, .f32⟩ : BufTy).Contents (Elt F))
  :: StableHlo.nullary main_cst_16 (constant S_ .f32 0x00000000#32)
  :: StableHlo.unary main_cst_16 main_v58 (broadcastInDim S16 ![] bcast_S_S16 : (⟨S_, .f32⟩ : BufTy).Contents (Elt F) → (⟨S16, .f32⟩ : BufTy).Contents (Elt F))
  :: StableHlo.unary main_arg3 main_v59 (broadcastInDim S200000x1 ![0] bcast_S200000_S200000x1_0 : (⟨S200000, .i32⟩ : BufTy).Contents (Elt F) → (⟨S200000x1, .i32⟩ : BufTy).Contents (Elt F))
  :: StableHlo.ternary main_v58 main_v59 main_v57 main_v60 ((fun x i u => Host.scatterAdd scatter_S16_S200000x1_S200000_n_0_0_1 x i u) : (⟨S16, .f32⟩ : BufTy).Contents (Elt F) → (⟨S200000x1, .i32⟩ : BufTy).Contents (Elt F) → (⟨S200000, .f32⟩ : BufTy).Contents (Elt F) → (⟨S16, .f32⟩ : BufTy).Contents (Elt F))
  :: StableHlo.nullary main_cst_17 (constant S_ .f32 0x3F800000#32)
  :: StableHlo.unary main_cst_17 main_v61 (broadcastInDim S16 ![] bcast_S_S16 : (⟨S_, .f32⟩ : BufTy).Contents (Elt F) → (⟨S16, .f32⟩ : BufTy).Contents (Elt F))
  :: StableHlo.binary main_v60 main_v61 main_v62 (maximumf : (⟨S16, .f32⟩ : BufTy).Contents (Elt F) → (⟨S16, .f32⟩ : BufTy).Contents (Elt F) → (⟨S16, .f32⟩ : BufTy).Contents (Elt F))
  :: StableHlo.unary main_v62 main_v63 (broadcastInDim S16x1 ![0] bcast_S16_S16x1_0 : (⟨S16, .f32⟩ : BufTy).Contents (Elt F) → (⟨S16x1, .f32⟩ : BufTy).Contents (Elt F))
  :: StableHlo.unary main_v63 main_v64 (broadcastInDim S16x128 ![0, 1] bcast_S16x1_S16x128_0_1 : (⟨S16x1, .f32⟩ : BufTy).Contents (Elt F) → (⟨S16x128, .f32⟩ : BufTy).Contents (Elt F))
  :: StableHlo.binary main_v56 main_v64 main_v65 (Host.divf : (⟨S16x128, .f32⟩ : BufTy).Contents (Elt F) → (⟨S16x128, .f32⟩ : BufTy).Contents (Elt F) → (⟨S16x128, .f32⟩ : BufTy).Contents (Elt F))
  :: [] )

/-- Statements 87 … 87 of the entry function: 1 operations. -/
abbrev pc5 : List (HloOp τ sig (Elt F)) :=
  ( StableHlo.binary main_v53 main_arg8 main_v66 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F))
  :: [] )

/-- Statements 88 … 120 of the entry function: 37 operations. -/
abbrev pc6 : List (HloOp τ sig (Elt F)) :=
  ( StableHlo.nullary main_cst_18 (constant S_ .f32 0x3F800000#32)
  :: StableHlo.unary main_cst_18 main_v67 (broadcastInDim S1600000 ![] bcast_S_S1600000 : (⟨S_, .f32⟩ : BufTy).Contents (Elt F) → (⟨S1600000, .f32⟩ : BufTy).Contents (Elt F))
  :: StableHlo.nullary main_cst_19 (constant S_ .f32 0x00000000#32)
  :: StableHlo.unary main_cst_19 main_v68 (broadcastInDim S200000 ![] bcast_S_S200000 : (⟨S_, .f32⟩ : BufTy).Contents (Elt F) → (⟨S200000, .f32⟩ : BufTy).Contents (Elt F))
  :: StableHlo.unary main_arg1 main_v69 (broadcastInDim S1600000x1 ![0] bcast_S1600000_S1600000x1_0 : (⟨S1600000, .i32⟩ : BufTy).Contents (Elt F) → (⟨S1600000x1, .i32⟩ : BufTy).Contents (Elt F))
  :: StableHlo.ternary main_v68 main_v69 main_v67 main_v70 ((fun x i u => Host.scatterAdd scatter_S200000_S1600000x1_S1600000_n_0_0_1 x i u) : (⟨S200000, .f32⟩ : BufTy).Contents (Elt F) → (⟨S1600000x1, .i32⟩ : BufTy).Contents (Elt F) → (⟨S1600000, .f32⟩ : BufTy).Contents (Elt F) → (⟨S200000, .f32⟩ : BufTy).Contents (Elt F))
  :: StableHlo.nullary main_cst_20 (constant S_ .f32 0x00000000#32)
  :: StableHlo.unary main_cst_20 main_v71 (broadcastInDim S200000 ![] bcast_S_S200000 : (⟨S_, .f32⟩ : BufTy).Contents (Elt F) → (⟨S200000, .f32⟩ : BufTy).Contents (Elt F))
  :: StableHlo.binary main_v70 main_v71 main_v72 (cmpf .ogt : (⟨S200000, .f32⟩ : BufTy).Contents (Elt F) → (⟨S200000, .f32⟩ : BufTy).Contents (Elt F) → (⟨S200000, .i1⟩ : BufTy).Contents (Elt F))
  :: StableHlo.nullary main_cst_21 (constant S_ .f32 0x3F800000#32)
  :: StableHlo.unary main_cst_21 main_v73 (broadcastInDim S200000 ![] bcast_S_S200000 : (⟨S_, .f32⟩ : BufTy).Contents (Elt F) → (⟨S200000, .f32⟩ : BufTy).Contents (Elt F))
  :: StableHlo.binary main_v73 main_v70 main_v74 (Host.divf : (⟨S200000, .f32⟩ : BufTy).Contents (Elt F) → (⟨S200000, .f32⟩ : BufTy).Contents (Elt F) → (⟨S200000, .f32⟩ : BufTy).Contents (Elt F))
  :: StableHlo.nullary main_cst_22 (constant S_ .f32 0x00000000#32)
  :: StableHlo.TRef.unary (.of main_cst_22 : StableHlo.TRef sig ⟨S_, .f32⟩) (.of main_call4_v0 : StableHlo.TRef sig ⟨S_, .f32⟩) id
  :: StableHlo.TRef.unary (.of main_call4_v0 : StableHlo.TRef sig ⟨S_, .f32⟩) (.of main_call4_v1 : StableHlo.TRef sig ⟨S200000, .f32⟩) (broadcastInDim S200000 ![] bcast_S_S200000)
  :: StableHlo.TRef.ternary (.of main_v72 : StableHlo.TRef sig ⟨S200000, .i1⟩) (.of main_v74 : StableHlo.TRef sig ⟨S200000, .f32⟩) (.of main_call4_v1 : StableHlo.TRef sig ⟨S200000, .f32⟩) (.of main_v75 : StableHlo.TRef sig ⟨S200000, .f32⟩) select
  :: StableHlo.nullary main_cst_23 (constant S_ .f32 0x3F800000#32)
  :: StableHlo.unary main_cst_23 main_v76 (broadcastInDim S1600000 ![] bcast_S_S1600000 : (⟨S_, .f32⟩ : BufTy).Contents (Elt F) → (⟨S1600000, .f32⟩ : BufTy).Contents (Elt F))
  :: StableHlo.nullary main_cst_24 (constant S_ .f32 0x00000000#32)
  :: StableHlo.unary main_cst_24 main_v77 (broadcastInDim S25000 ![] bcast_S_S25000 : (⟨S_, .f32⟩ : BufTy).Contents (Elt F) → (⟨S25000, .f32⟩ : BufTy).Contents (Elt F))
  :: StableHlo.unary main_arg2 main_v78 (broadcastInDim S1600000x1 ![0] bcast_S1600000_S1600000x1_0 : (⟨S1600000, .i32⟩ : BufTy).Contents (Elt F) → (⟨S1600000x1, .i32⟩ : BufTy).Contents (Elt F))
  :: StableHlo.ternary main_v77 main_v78 main_v76 main_v79 ((fun x i u => Host.scatterAdd scatter_S25000_S1600000x1_S1600000_n_0_0_1 x i u) : (⟨S25000, .f32⟩ : BufTy).Contents (Elt F) → (⟨S1600000x1, .i32⟩ : BufTy).Contents (Elt F) → (⟨S1600000, .f32⟩ : BufTy).Contents (Elt F) → (⟨S25000, .f32⟩ : BufTy).Contents (Elt F))
  :: StableHlo.nullary main_cst_25 (constant S_ .f32 0x00000000#32)
  :: StableHlo.unary main_cst_25 main_v80 (broadcastInDim S25000 ![] bcast_S_S25000 : (⟨S_, .f32⟩ : BufTy).Contents (Elt F) → (⟨S25000, .f32⟩ : BufTy).Contents (Elt F))
  :: StableHlo.binary main_v79 main_v80 main_v81 (cmpf .ogt : (⟨S25000, .f32⟩ : BufTy).Contents (Elt F) → (⟨S25000, .f32⟩ : BufTy).Contents (Elt F) → (⟨S25000, .i1⟩ : BufTy).Contents (Elt F))
  :: StableHlo.nullary main_cst_26 (constant S_ .f32 0x3F800000#32)
  :: StableHlo.unary main_cst_26 main_v82 (broadcastInDim S25000 ![] bcast_S_S25000 : (⟨S_, .f32⟩ : BufTy).Contents (Elt F) → (⟨S25000, .f32⟩ : BufTy).Contents (Elt F))
  :: StableHlo.binary main_v82 main_v79 main_v83 (Host.divf : (⟨S25000, .f32⟩ : BufTy).Contents (Elt F) → (⟨S25000, .f32⟩ : BufTy).Contents (Elt F) → (⟨S25000, .f32⟩ : BufTy).Contents (Elt F))
  :: StableHlo.nullary main_cst_27 (constant S_ .f32 0x00000000#32)
  :: StableHlo.TRef.unary (.of main_cst_27 : StableHlo.TRef sig ⟨S_, .f32⟩) (.of main_call5_v0 : StableHlo.TRef sig ⟨S_, .f32⟩) id
  :: StableHlo.TRef.unary (.of main_call5_v0 : StableHlo.TRef sig ⟨S_, .f32⟩) (.of main_call5_v1 : StableHlo.TRef sig ⟨S25000, .f32⟩) (broadcastInDim S25000 ![] bcast_S_S25000)
  :: StableHlo.TRef.ternary (.of main_v81 : StableHlo.TRef sig ⟨S25000, .i1⟩) (.of main_v83 : StableHlo.TRef sig ⟨S25000, .f32⟩) (.of main_call5_v1 : StableHlo.TRef sig ⟨S25000, .f32⟩) (.of main_v84 : StableHlo.TRef sig ⟨S25000, .f32⟩) select
  :: StableHlo.unary main_v84 main_v85 (broadcastInDim S25000x1 ![0] bcast_S25000_S25000x1_0 : (⟨S25000, .f32⟩ : BufTy).Contents (Elt F) → (⟨S25000x1, .f32⟩ : BufTy).Contents (Elt F))
  :: StableHlo.nullary main_c_28 (constantI S_ 32 0#32)
  :: StableHlo.unary main_c_28 main_v86 (broadcastInDim S1600000 ![] bcast_S_S1600000 : (⟨S_, .i32⟩ : BufTy).Contents (Elt F) → (⟨S1600000, .i32⟩ : BufTy).Contents (Elt F))
  :: StableHlo.binary main_arg1 main_v86 main_v87 (cmpi .slt : (⟨S1600000, .i32⟩ : BufTy).Contents (Elt F) → (⟨S1600000, .i32⟩ : BufTy).Contents (Elt F) → (⟨S1600000, .i1⟩ : BufTy).Contents (Elt F))
  :: StableHlo.nullary main_c_29 (constantI S_ 32 200000#32)
  :: [] )

/-- Statements 121 … 151 of the entry function: 33 operations. -/
abbrev pc7 : List (HloOp τ sig (Elt F)) :=
  ( StableHlo.unary main_c_29 main_v88 (broadcastInDim S1600000 ![] bcast_S_S1600000 : (⟨S_, .i32⟩ : BufTy).Contents (Elt F) → (⟨S1600000, .i32⟩ : BufTy).Contents (Elt F))
  :: StableHlo.binary main_arg1 main_v88 main_v89 (addi : (⟨S1600000, .i32⟩ : BufTy).Contents (Elt F) → (⟨S1600000, .i32⟩ : BufTy).Contents (Elt F) → (⟨S1600000, .i32⟩ : BufTy).Contents (Elt F))
  :: StableHlo.ternary main_v87 main_v89 main_arg1 main_v90 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v90 main_v91 (broadcastInDim S1600000x1 ![0] bcast_S1600000_S1600000x1_0 : (⟨S1600000, .i32⟩ : BufTy).Contents (Elt F) → (⟨S1600000x1, .i32⟩ : BufTy).Contents (Elt F))
  :: StableHlo.binary main_v66 main_v91 main_v92 ((fun x i => Host.gather gather_S200000x128_S1600000x1_S1600000x128_1_0_n_n_0_1_1128 x i) : (⟨S200000x128, .f32⟩ : BufTy).Contents (Elt F) → (⟨S1600000x1, .i32⟩ : BufTy).Contents (Elt F) → (⟨S1600000x128, .f32⟩ : BufTy).Contents (Elt F))
  :: StableHlo.nullary main_cst_30 (constant S_ .f32 0x00000000#32)
  :: StableHlo.unary main_cst_30 main_v93 (broadcastInDim S25000x128 ![] bcast_S_S25000x128 : (⟨S_, .f32⟩ : BufTy).Contents (Elt F) → (⟨S25000x128, .f32⟩ : BufTy).Contents (Elt F))
  :: StableHlo.unary main_arg2 main_v94 (broadcastInDim S1600000x1 ![0] bcast_S1600000_S1600000x1_0 : (⟨S1600000, .i32⟩ : BufTy).Contents (Elt F) → (⟨S1600000x1, .i32⟩ : BufTy).Contents (Elt F))
  :: StableHlo.ternary main_v93 main_v94 main_v92 main_v95 ((fun x i u => Host.scatterAdd scatter_S25000x128_S1600000x1_S1600000x128_1_0_0_1 x i u) : (⟨S25000x128, .f32⟩ : BufTy).Contents (Elt F) → (⟨S1600000x1, .i32⟩ : BufTy).Contents (Elt F) → (⟨S1600000x128, .f32⟩ : BufTy).Contents (Elt F) → (⟨S25000x128, .f32⟩ : BufTy).Contents (Elt F))
  :: StableHlo.unary main_v85 main_v96 (broadcastInDim S25000x128 ![0, 1] bcast_S25000x1_S25000x128_0_1 : (⟨S25000x1, .f32⟩ : BufTy).Contents (Elt F) → (⟨S25000x128, .f32⟩ : BufTy).Contents (Elt F))
  :: StableHlo.binary main_v96 main_v95 main_v97 (mulf : (⟨S25000x128, .f32⟩ : BufTy).Contents (Elt F) → (⟨S25000x128, .f32⟩ : BufTy).Contents (Elt F) → (⟨S25000x128, .f32⟩ : BufTy).Contents (Elt F))
  :: StableHlo.unary main_v75 main_v98 (broadcastInDim S200000x1 ![0] bcast_S200000_S200000x1_0 : (⟨S200000, .f32⟩ : BufTy).Contents (Elt F) → (⟨S200000x1, .f32⟩ : BufTy).Contents (Elt F))
  :: StableHlo.nullary main_c_31 (constantI S_ 32 0#32)
  :: StableHlo.unary main_c_31 main_v99 (broadcastInDim S1600000 ![] bcast_S_S1600000 : (⟨S_, .i32⟩ : BufTy).Contents (Elt F) → (⟨S1600000, .i32⟩ : BufTy).Contents (Elt F))
  :: StableHlo.binary main_arg2 main_v99 main_v100 (cmpi .slt : (⟨S1600000, .i32⟩ : BufTy).Contents (Elt F) → (⟨S1600000, .i32⟩ : BufTy).Contents (Elt F) → (⟨S1600000, .i1⟩ : BufTy).Contents (Elt F))
  :: StableHlo.nullary main_c_32 (constantI S_ 32 25000#32)
  :: StableHlo.unary main_c_32 main_v101 (broadcastInDim S1600000 ![] bcast_S_S1600000 : (⟨S_, .i32⟩ : BufTy).Contents (Elt F) → (⟨S1600000, .i32⟩ : BufTy).Contents (Elt F))
  :: StableHlo.binary main_arg2 main_v101 main_v102 (addi : (⟨S1600000, .i32⟩ : BufTy).Contents (Elt F) → (⟨S1600000, .i32⟩ : BufTy).Contents (Elt F) → (⟨S1600000, .i32⟩ : BufTy).Contents (Elt F))
  :: StableHlo.ternary main_v100 main_v102 main_arg2 main_v103 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
  :: StableHlo.unary main_v103 main_v104 (broadcastInDim S1600000x1 ![0] bcast_S1600000_S1600000x1_0 : (⟨S1600000, .i32⟩ : BufTy).Contents (Elt F) → (⟨S1600000x1, .i32⟩ : BufTy).Contents (Elt F))
  :: StableHlo.binary main_v97 main_v104 main_v105 ((fun x i => Host.gather gather_S25000x128_S1600000x1_S1600000x128_1_0_n_n_0_1_1128 x i) : (⟨S25000x128, .f32⟩ : BufTy).Contents (Elt F) → (⟨S1600000x1, .i32⟩ : BufTy).Contents (Elt F) → (⟨S1600000x128, .f32⟩ : BufTy).Contents (Elt F))
  :: StableHlo.nullary main_cst_33 (constant S_ .f32 0x00000000#32)
  :: StableHlo.unary main_cst_33 main_v106 (broadcastInDim S200000x128 ![] bcast_S_S200000x128 : (⟨S_, .f32⟩ : BufTy).Contents (Elt F) → (⟨S200000x128, .f32⟩ : BufTy).Contents (Elt F))
  :: StableHlo.unary main_arg1 main_v107 (broadcastInDim S1600000x1 ![0] bcast_S1600000_S1600000x1_0 : (⟨S1600000, .i32⟩ : BufTy).Contents (Elt F) → (⟨S1600000x1, .i32⟩ : BufTy).Contents (Elt F))
  :: StableHlo.ternary main_v106 main_v107 main_v105 main_v108 ((fun x i u => Host.scatterAdd scatter_S200000x128_S1600000x1_S1600000x128_1_0_0_1 x i u) : (⟨S200000x128, .f32⟩ : BufTy).Contents (Elt F) → (⟨S1600000x1, .i32⟩ : BufTy).Contents (Elt F) → (⟨S1600000x128, .f32⟩ : BufTy).Contents (Elt F) → (⟨S200000x128, .f32⟩ : BufTy).Contents (Elt F))
  :: StableHlo.unary main_v98 main_v109 (broadcastInDim S200000x128 ![0, 1] bcast_S200000x1_S200000x128_0_1 : (⟨S200000x1, .f32⟩ : BufTy).Contents (Elt F) → (⟨S200000x128, .f32⟩ : BufTy).Contents (Elt F))
  :: StableHlo.binary main_v109 main_v108 main_v110 (mulf : (⟨S200000x128, .f32⟩ : BufTy).Contents (Elt F) → (⟨S200000x128, .f32⟩ : BufTy).Contents (Elt F) → (⟨S200000x128, .f32⟩ : BufTy).Contents (Elt F))
  :: StableHlo.unary main_arg9 main_v111 (broadcastInDim S1x128 ![1] bcast_S128_S1x128_1 : (⟨S128, .f32⟩ : BufTy).Contents (Elt F) → (⟨S1x128, .f32⟩ : BufTy).Contents (Elt F))
  :: StableHlo.unary main_v111 main_v112 (broadcastInDim S200000x128 ![0, 1] bcast_S1x128_S200000x128_0_1 : (⟨S1x128, .f32⟩ : BufTy).Contents (Elt F) → (⟨S200000x128, .f32⟩ : BufTy).Contents (Elt F))
  :: StableHlo.binary main_v110 main_v112 main_v113 (addf : (⟨S200000x128, .f32⟩ : BufTy).Contents (Elt F) → (⟨S200000x128, .f32⟩ : BufTy).Contents (Elt F) → (⟨S200000x128, .f32⟩ : BufTy).Contents (Elt F))
  :: StableHlo.TRef.nullary (.of main_call6_cst : StableHlo.TRef sig ⟨S_, .f32⟩) (constant S_ .f32 0x00000000#32)
  :: StableHlo.TRef.unary (.of main_call6_cst : StableHlo.TRef sig ⟨S_, .f32⟩) (.of main_call6_v0 : StableHlo.TRef sig ⟨S200000x128, .f32⟩) (broadcastInDim S200000x128 ![] bcast_S_S200000x128)
  :: StableHlo.TRef.binary (.of main_v113 : StableHlo.TRef sig ⟨S200000x128, .f32⟩) (.of main_call6_v0 : StableHlo.TRef sig ⟨S200000x128, .f32⟩) (.of main_v114 : StableHlo.TRef sig ⟨S200000x128, .f32⟩) maximumf
  :: [] )

/-- Statements 152 … 180 of the entry function: 29 operations. -/
abbrev pc8 : List (HloOp τ sig (Elt F)) :=
  ( StableHlo.nullary main_cst_34 (constant S_ .f32 0x00000000#32)
  :: StableHlo.unary main_cst_34 main_v115 (broadcastInDim S16x128 ![] bcast_S_S16x128 : (⟨S_, .f32⟩ : BufTy).Contents (Elt F) → (⟨S16x128, .f32⟩ : BufTy).Contents (Elt F))
  :: StableHlo.unary main_arg3 main_v116 (broadcastInDim S200000x1 ![0] bcast_S200000_S200000x1_0 : (⟨S200000, .i32⟩ : BufTy).Contents (Elt F) → (⟨S200000x1, .i32⟩ : BufTy).Contents (Elt F))
  :: StableHlo.ternary main_v115 main_v116 main_v114 main_v117 ((fun x i u => Host.scatterAdd scatter_S16x128_S200000x1_S200000x128_1_0_0_1 x i u) : (⟨S16x128, .f32⟩ : BufTy).Contents (Elt F) → (⟨S200000x1, .i32⟩ : BufTy).Contents (Elt F) → (⟨S200000x128, .f32⟩ : BufTy).Contents (Elt F) → (⟨S16x128, .f32⟩ : BufTy).Contents (Elt F))
  :: StableHlo.nullary main_cst_35 (constant S_ .f32 0x3F800000#32)
  :: StableHlo.unary main_cst_35 main_v118 (broadcastInDim S200000 ![] bcast_S_S200000 : (⟨S_, .f32⟩ : BufTy).Contents (Elt F) → (⟨S200000, .f32⟩ : BufTy).Contents (Elt F))
  :: StableHlo.nullary main_cst_36 (constant S_ .f32 0x00000000#32)
  :: StableHlo.unary main_cst_36 main_v119 (broadcastInDim S16 ![] bcast_S_S16 : (⟨S_, .f32⟩ : BufTy).Contents (Elt F) → (⟨S16, .f32⟩ : BufTy).Contents (Elt F))
  :: StableHlo.unary main_arg3 main_v120 (broadcastInDim S200000x1 ![0] bcast_S200000_S200000x1_0 : (⟨S200000, .i32⟩ : BufTy).Contents (Elt F) → (⟨S200000x1, .i32⟩ : BufTy).Contents (Elt F))
  :: StableHlo.ternary main_v119 main_v120 main_v118 main_v121 ((fun x i u => Host.scatterAdd scatter_S16_S200000x1_S200000_n_0_0_1 x i u) : (⟨S16, .f32⟩ : BufTy).Contents (Elt F) → (⟨S200000x1, .i32⟩ : BufTy).Contents (Elt F) → (⟨S200000, .f32⟩ : BufTy).Contents (Elt F) → (⟨S16, .f32⟩ : BufTy).Contents (Elt F))
  :: StableHlo.nullary main_cst_37 (constant S_ .f32 0x3F800000#32)
  :: StableHlo.unary main_cst_37 main_v122 (broadcastInDim S16 ![] bcast_S_S16 : (⟨S_, .f32⟩ : BufTy).Contents (Elt F) → (⟨S16, .f32⟩ : BufTy).Contents (Elt F))
  :: StableHlo.binary main_v121 main_v122 main_v123 (maximumf : (⟨S16, .f32⟩ : BufTy).Contents (Elt F) → (⟨S16, .f32⟩ : BufTy).Contents (Elt F) → (⟨S16, .f32⟩ : BufTy).Contents (Elt F))
  :: StableHlo.unary main_v123 main_v124 (broadcastInDim S16x1 ![0] bcast_S16_S16x1_0 : (⟨S16, .f32⟩ : BufTy).Contents (Elt F) → (⟨S16x1, .f32⟩ : BufTy).Contents (Elt F))
  :: StableHlo.unary main_v124 main_v125 (broadcastInDim S16x128 ![0, 1] bcast_S16x1_S16x128_0_1 : (⟨S16x1, .f32⟩ : BufTy).Contents (Elt F) → (⟨S16x128, .f32⟩ : BufTy).Contents (Elt F))
  :: StableHlo.binary main_v117 main_v125 main_v126 (Host.divf : (⟨S16x128, .f32⟩ : BufTy).Contents (Elt F) → (⟨S16x128, .f32⟩ : BufTy).Contents (Elt F) → (⟨S16x128, .f32⟩ : BufTy).Contents (Elt F))
  :: StableHlo.binary main_v65 main_v126 main_v127 ((fun a b => concatenate S16x256 1 [⟨S16x128, a⟩, ⟨S16x128, b⟩] concatenates_S16x128_S16x128_S16x256_d1) : (⟨S16x128, .f32⟩ : BufTy).Contents (Elt F) → (⟨S16x128, .f32⟩ : BufTy).Contents (Elt F) → (⟨S16x256, .f32⟩ : BufTy).Contents (Elt F))
  :: StableHlo.binary main_v127 main_arg10 main_v128 ((fun l r => Host.dotGeneral dot_S16x256_S256x128_S16x128_1_0_0_1_n_n none l r) : (⟨S16x256, .f32⟩ : BufTy).Contents (Elt F) → (⟨S256x128, .f32⟩ : BufTy).Contents (Elt F) → (⟨S16x128, .f32⟩ : BufTy).Contents (Elt F))
  :: StableHlo.unary main_arg11 main_v129 (broadcastInDim S1x128 ![1] bcast_S128_S1x128_1 : (⟨S128, .f32⟩ : BufTy).Contents (Elt F) → (⟨S1x128, .f32⟩ : BufTy).Contents (Elt F))
  :: StableHlo.unary main_v129 main_v130 (broadcastInDim S16x128 ![0, 1] bcast_S1x128_S16x128_0_1 : (⟨S1x128, .f32⟩ : BufTy).Contents (Elt F) → (⟨S16x128, .f32⟩ : BufTy).Contents (Elt F))
  :: StableHlo.binary main_v128 main_v130 main_v131 (addf : (⟨S16x128, .f32⟩ : BufTy).Contents (Elt F) → (⟨S16x128, .f32⟩ : BufTy).Contents (Elt F) → (⟨S16x128, .f32⟩ : BufTy).Contents (Elt F))
  :: StableHlo.binary main_v131 main_arg12 main_v132 ((fun l r => Host.dotGeneral dot_S16x128_S128x64_S16x64_1_0_0_1_n_n none l r) : (⟨S16x128, .f32⟩ : BufTy).Contents (Elt F) → (⟨S128x64, .f32⟩ : BufTy).Contents (Elt F) → (⟨S16x64, .f32⟩ : BufTy).Contents (Elt F))
  :: StableHlo.unary main_arg13 main_v133 (broadcastInDim S1x64 ![1] bcast_S64_S1x64_1 : (⟨S64, .f32⟩ : BufTy).Contents (Elt F) → (⟨S1x64, .f32⟩ : BufTy).Contents (Elt F))
  :: StableHlo.unary main_v133 main_v134 (broadcastInDim S16x64 ![0, 1] bcast_S1x64_S16x64_0_1 : (⟨S1x64, .f32⟩ : BufTy).Contents (Elt F) → (⟨S16x64, .f32⟩ : BufTy).Contents (Elt F))
  :: StableHlo.binary main_v132 main_v134 main_v135 (addf : (⟨S16x64, .f32⟩ : BufTy).Contents (Elt F) → (⟨S16x64, .f32⟩ : BufTy).Contents (Elt F) → (⟨S16x64, .f32⟩ : BufTy).Contents (Elt F))
  :: StableHlo.nullary main_cst_38 (constant S_ .f32 0x00000000#32)
  :: StableHlo.binary main_v135 main_cst_38 main_v136 ((fun x v => Host.reduceAdd x v reducesTo_S16x64_S64_d0 h_S_) : (⟨S16x64, .f32⟩ : BufTy).Contents (Elt F) → (⟨S_, .f32⟩ : BufTy).Contents (Elt F) → (⟨S64, .f32⟩ : BufTy).Contents (Elt F))
  :: StableHlo.nullary main_cst_39 (constant S_ .f32 0x41800000#32)
  :: StableHlo.unary main_cst_39 main_v137 (broadcastInDim S64 ![] bcast_S_S64 : (⟨S_, .f32⟩ : BufTy).Contents (Elt F) → (⟨S64, .f32⟩ : BufTy).Contents (Elt F))
  :: [] )

/-- Statements 181 … 229 of the entry function: 95 operations. -/
abbrev pc9 : List (HloOp τ sig (Elt F)) :=
  ( StableHlo.binary main_v136 main_v137 main_v138 (Host.divf : (⟨S64, .f32⟩ : BufTy).Contents (Elt F) → (⟨S64, .f32⟩ : BufTy).Contents (Elt F) → (⟨S64, .f32⟩ : BufTy).Contents (Elt F))
  :: StableHlo.nullary main_c_40 (constantI S_ 32 0#32)
  :: StableHlo.TRef.nullary (.of main_call7_cst : StableHlo.TRef sig ⟨S_, .f32⟩) (constant S_ .f32 0x00000000#32)
  :: StableHlo.TRef.binary (.of main_v135 : StableHlo.TRef sig ⟨S16x64, .f32⟩) (.of main_call7_cst : StableHlo.TRef sig ⟨S_, .f32⟩) (.of main_call7_v0 : StableHlo.TRef sig ⟨S64, .f32⟩) (fun x v => Host.reduceAdd x v reducesTo_S16x64_S64_d0 h_S_)
  :: StableHlo.TRef.unary (.of main_call7_v0 : StableHlo.TRef sig ⟨S64, .f32⟩) (.of main_call7_v1 : StableHlo.TRef sig ⟨S1x64, .f32⟩) (broadcastInDim S1x64 ![1] bcast_S64_S1x64_1)
  :: StableHlo.TRef.nullary (.of main_call7_cst_0 : StableHlo.TRef sig ⟨S_, .f32⟩) (constant S_ .f32 0x41800000#32)
  :: StableHlo.TRef.unary (.of main_call7_cst_0 : StableHlo.TRef sig ⟨S_, .f32⟩) (.of main_call7_v2 : StableHlo.TRef sig ⟨S1x64, .f32⟩) (broadcastInDim S1x64 ![] bcast_S_S1x64)
  :: StableHlo.TRef.binary (.of main_call7_v1 : StableHlo.TRef sig ⟨S1x64, .f32⟩) (.of main_call7_v2 : StableHlo.TRef sig ⟨S1x64, .f32⟩) (.of main_call7_v3 : StableHlo.TRef sig ⟨S1x64, .f32⟩) Host.divf
  :: StableHlo.TRef.unary (.of main_call7_v3 : StableHlo.TRef sig ⟨S1x64, .f32⟩) (.of main_call7_v4 : StableHlo.TRef sig ⟨S16x64, .f32⟩) (broadcastInDim S16x64 ![0, 1] bcast_S1x64_S16x64_0_1)
  :: StableHlo.TRef.binary (.of main_v135 : StableHlo.TRef sig ⟨S16x64, .f32⟩) (.of main_call7_v4 : StableHlo.TRef sig ⟨S16x64, .f32⟩) (.of main_call7_v5 : StableHlo.TRef sig ⟨S16x64, .f32⟩) subf
  :: StableHlo.TRef.binary (.of main_call7_v5 : StableHlo.TRef sig ⟨S16x64, .f32⟩) (.of main_call7_v5 : StableHlo.TRef sig ⟨S16x64, .f32⟩) (.of main_call7_v6 : StableHlo.TRef sig ⟨S16x64, .f32⟩) mulf
  :: StableHlo.TRef.unary (.of main_c_40 : StableHlo.TRef sig ⟨S_, .i32⟩) (.of main_call7_v7 : StableHlo.TRef sig ⟨S_, .f32⟩) (sitofp .f32)
  :: StableHlo.TRef.nullary (.of main_call7_cst_1 : StableHlo.TRef sig ⟨S_, .f32⟩) (constant S_ .f32 0x41800000#32)
  :: StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf
  :: StableHlo.TRef.nullary (.of main_call7_cst_2 : StableHlo.TRef sig ⟨S_, .f32⟩) (constant S_ .f32 0x00000000#32)
  :: StableHlo.TRef.binary (.of main_call7_v6 : StableHlo.TRef sig ⟨S16x64, .f32⟩) (.of main_call7_cst_2 : StableHlo.TRef sig ⟨S_, .f32⟩) (.of main_call7_v9 : StableHlo.TRef sig ⟨S64, .f32⟩) (fun x v => Host.reduceAdd x v reducesTo_S16x64_S64_d0 h_S_)
  :: StableHlo.TRef.unary (.of main_call7_v8 : StableHlo.TRef sig ⟨S_, .f32⟩) (.of main_call7_v10 : StableHlo.TRef sig ⟨S64, .f32⟩) (broadcastInDim S64 ![] bcast_S_S64)
  :: StableHlo.TRef.binary (.of main_call7_v9 : StableHlo.TRef sig ⟨S64, .f32⟩) (.of main_call7_v10 : StableHlo.TRef sig ⟨S64, .f32⟩) (.of main_call7_v11 : StableHlo.TRef sig ⟨S64, .f32⟩) Host.divf
  :: StableHlo.TRef.nullary (.of main_call7_cst_3 : StableHlo.TRef sig ⟨S_, .f32⟩) (constant S_ .f32 0x00000000#32)
  :: StableHlo.TRef.binary (.of main_call7_v8 : StableHlo.TRef sig ⟨S_, .f32⟩) (.of main_call7_cst_3 : StableHlo.TRef sig ⟨S_, .f32⟩) (.of main_call7_v12 : StableHlo.TRef sig ⟨S_, .i1⟩) (cmpf .ogt)
  :: StableHlo.TRef.nullary (.of main_call7_cst_4 : StableHlo.TRef sig ⟨S_, .f32⟩) (constant S_ .f32 0x7FC00000#32)
  :: StableHlo.TRef.unary (.of main_call7_cst_4 : StableHlo.TRef sig ⟨S_, .f32⟩) (.of main_call7_call0_v0 : StableHlo.TRef sig ⟨S_, .f32⟩) id
  :: StableHlo.TRef.unary (.of main_call7_call0_v0 : StableHlo.TRef sig ⟨S_, .f32⟩) (.of main_call7_call0_v1 : StableHlo.TRef sig ⟨S64, .f32⟩) (broadcastInDim S64 ![] bcast_S_S64)
  :: StableHlo.TRef.ternary (.of main_call7_v12 : StableHlo.TRef sig ⟨S_, .i1⟩) (.of main_call7_v11 : StableHlo.TRef sig ⟨S64, .f32⟩) (.of main_call7_call0_v1 : StableHlo.TRef sig ⟨S64, .f32⟩) (.of main_v139 : StableHlo.TRef sig ⟨S64, .f32⟩) (fun p a b => select (broadcastInDim S64 ![] bcast_S_S64 p) a b)
  :: StableHlo.unary main_v138 main_v140 (broadcastInDim S1x64 ![1] bcast_S64_S1x64_1 : (⟨S64, .f32⟩ : BufTy).Contents (Elt F) → (⟨S1x64, .f32⟩ : BufTy).Contents (Elt F))
  :: StableHlo.unary main_v140 main_v141 (broadcastInDim S16x64 ![0, 1] bcast_S1x64_S16x64_0_1 : (⟨S1x64, .f32⟩ : BufTy).Contents (Elt F) → (⟨S16x64, .f32⟩ : BufTy).Contents (Elt F))
  :: StableHlo.binary main_v135 main_v141 main_v142 (subf : (⟨S16x64, .f32⟩ : BufTy).Contents (Elt F) → (⟨S16x64, .f32⟩ : BufTy).Contents (Elt F) → (⟨S16x64, .f32⟩ : BufTy).Contents (Elt F))
  :: StableHlo.unary main_arg14 main_v143 (broadcastInDim S1x64 ![1] bcast_S64_S1x64_1 : (⟨S64, .f32⟩ : BufTy).Contents (Elt F) → (⟨S1x64, .f32⟩ : BufTy).Contents (Elt F))
  :: StableHlo.unary main_v143 main_v144 (broadcastInDim S16x64 ![0, 1] bcast_S1x64_S16x64_0_1 : (⟨S1x64, .f32⟩ : BufTy).Contents (Elt F) → (⟨S16x64, .f32⟩ : BufTy).Contents (Elt F))
  :: StableHlo.binary main_v144 main_v142 main_v145 (mulf : (⟨S16x64, .f32⟩ : BufTy).Contents (Elt F) → (⟨S16x64, .f32⟩ : BufTy).Contents (Elt F) → (⟨S16x64, .f32⟩ : BufTy).Contents (Elt F))
  :: StableHlo.nullary main_cst_41 (constant S_ .f32 0x3727C5AC#32)
  :: StableHlo.unary main_cst_41 main_v146 (broadcastInDim S64 ![] bcast_S_S64 : (⟨S_, .f32⟩ : BufTy).Contents (Elt F) → (⟨S64, .f32⟩ : BufTy).Contents (Elt F))
  :: StableHlo.binary main_v139 main_v146 main_v147 (addf : (⟨S64, .f32⟩ : BufTy).Contents (Elt F) → (⟨S64, .f32⟩ : BufTy).Contents (Elt F) → (⟨S64, .f32⟩ : BufTy).Contents (Elt F))
  :: StableHlo.unary main_v147 main_v148 (Host.sqrt : (⟨S64, .f32⟩ : BufTy).Contents (Elt F) → (⟨S64, .f32⟩ : BufTy).Contents (Elt F))
  :: StableHlo.unary main_v148 main_v149 (broadcastInDim S1x64 ![1] bcast_S64_S1x64_1 : (⟨S64, .f32⟩ : BufTy).Contents (Elt F) → (⟨S1x64, .f32⟩ : BufTy).Contents (Elt F))
  :: StableHlo.unary main_v149 main_v150 (broadcastInDim S16x64 ![0, 1] bcast_S1x64_S16x64_0_1 : (⟨S1x64, .f32⟩ : BufTy).Contents (Elt F) → (⟨S16x64, .f32⟩ : BufTy).Contents (Elt F))
  :: StableHlo.binary main_v145 main_v150 main_v151 (Host.divf : (⟨S16x64, .f32⟩ : BufTy).Contents (Elt F) → (⟨S16x64, .f32⟩ : BufTy).Contents (Elt F) → (⟨S16x64, .f32⟩ : BufTy).Contents (Elt F))
  :: StableHlo.unary main_arg15 main_v152 (broadcastInDim S1x64 ![1] bcast_S64_S1x64_1 : (⟨S64, .f32⟩ : BufTy).Contents (Elt F) → (⟨S1x64, .f32⟩ : BufTy).Contents (Elt F))
  :: StableHlo.unary main_v152 main_v153 (broadcastInDim S16x64 ![0, 1] bcast_S1x64_S16x64_0_1 : (⟨S1x64, .f32⟩ : BufTy).Contents (Elt F) → (⟨S16x64, .f32⟩ : BufTy).Contents (Elt F))
  :: StableHlo.binary main_v151 main_v153 main_v154 (addf : (⟨S16x64, .f32⟩ : BufTy).Contents (Elt F) → (⟨S16x64, .f32⟩ : BufTy).Contents (Elt F) → (⟨S16x64, .f32⟩ : BufTy).Contents (Elt F))
  :: StableHlo.TRef.nullary (.of main_call8_cst : StableHlo.TRef sig ⟨S_, .f32⟩) (constant S_ .f32 0x00000000#32)
  :: StableHlo.TRef.unary (.of main_call8_cst : StableHlo.TRef sig ⟨S_, .f32⟩) (.of main_call8_v0 : StableHlo.TRef sig ⟨S16x64, .f32⟩) (broadcastInDim S16x64 ![] bcast_S_S16x64)
  :: StableHlo.TRef.binary (.of main_v154 : StableHlo.TRef sig ⟨S16x64, .f32⟩) (.of main_call8_v0 : StableHlo.TRef sig ⟨S16x64, .f32⟩) (.of main_v155 : StableHlo.TRef sig ⟨S16x64, .f32⟩) maximumf
  :: StableHlo.binary main_v155 main_arg16 main_v156 ((fun l r => Host.dotGeneral dot_S16x64_S64x32_S16x32_1_0_0_1_n_n none l r) : (⟨S16x64, .f32⟩ : BufTy).Contents (Elt F) → (⟨S64x32, .f32⟩ : BufTy).Contents (Elt F) → (⟨S16x32, .f32⟩ : BufTy).Contents (Elt F))
  :: StableHlo.unary main_arg17 main_v157 (broadcastInDim S1x32 ![1] bcast_S32_S1x32_1 : (⟨S32, .f32⟩ : BufTy).Contents (Elt F) → (⟨S1x32, .f32⟩ : BufTy).Contents (Elt F))
  :: StableHlo.unary main_v157 main_v158 (broadcastInDim S16x32 ![0, 1] bcast_S1x32_S16x32_0_1 : (⟨S1x32, .f32⟩ : BufTy).Contents (Elt F) → (⟨S16x32, .f32⟩ : BufTy).Contents (Elt F))
  :: StableHlo.binary main_v156 main_v158 main_v159 (addf : (⟨S16x32, .f32⟩ : BufTy).Contents (Elt F) → (⟨S16x32, .f32⟩ : BufTy).Contents (Elt F) → (⟨S16x32, .f32⟩ : BufTy).Contents (Elt F))
  :: StableHlo.nullary main_cst_42 (constant S_ .f32 0x00000000#32)
  :: StableHlo.binary main_v159 main_cst_42 main_v160 ((fun x v => Host.reduceAdd x v reducesTo_S16x32_S32_d0 h_S_) : (⟨S16x32, .f32⟩ : BufTy).Contents (Elt F) → (⟨S_, .f32⟩ : BufTy).Contents (Elt F) → (⟨S32, .f32⟩ : BufTy).Contents (Elt F))
  :: StableHlo.nullary main_cst_43 (constant S_ .f32 0x41800000#32)
  :: StableHlo.unary main_cst_43 main_v161 (broadcastInDim S32 ![] bcast_S_S32 : (⟨S_, .f32⟩ : BufTy).Contents (Elt F) → (⟨S32, .f32⟩ : BufTy).Contents (Elt F))
  :: StableHlo.binary main_v160 main_v161 main_v162 (Host.divf : (⟨S32, .f32⟩ : BufTy).Contents (Elt F) → (⟨S32, .f32⟩ : BufTy).Contents (Elt F) → (⟨S32, .f32⟩ : BufTy).Contents (Elt F))
  :: StableHlo.nullary main_c_44 (constantI S_ 32 0#32)
  :: StableHlo.TRef.nullary (.of main_call9_cst : StableHlo.TRef sig ⟨S_, .f32⟩) (constant S_ .f32 0x00000000#32)
  :: StableHlo.TRef.binary (.of main_v159 : StableHlo.TRef sig ⟨S16x32, .f32⟩) (.of main_call9_cst : StableHlo.TRef sig ⟨S_, .f32⟩) (.of main_call9_v0 : StableHlo.TRef sig ⟨S32, .f32⟩) (fun x v => Host.reduceAdd x v reducesTo_S16x32_S32_d0 h_S_)
  :: StableHlo.TRef.unary (.of main_call9_v0 : StableHlo.TRef sig ⟨S32, .f32⟩) (.of main_call9_v1 : StableHlo.TRef sig ⟨S1x32, .f32⟩) (broadcastInDim S1x32 ![1] bcast_S32_S1x32_1)
  :: StableHlo.TRef.nullary (.of main_call9_cst_0 : StableHlo.TRef sig ⟨S_, .f32⟩) (constant S_ .f32 0x41800000#32)
  :: StableHlo.TRef.unary (.of main_call9_cst_0 : StableHlo.TRef sig ⟨S_, .f32⟩) (.of main_call9_v2 : StableHlo.TRef sig ⟨S1x32, .f32⟩) (broadcastInDim S1x32 ![] bcast_S_S1x32)
  :: StableHlo.TRef.binary (.of main_call9_v1 : StableHlo.TRef sig ⟨S1x32, .f32⟩) (.of main_call9_v2 : StableHlo.TRef sig ⟨S1x32, .f32⟩) (.of main_call9_v3 : StableHlo.TRef sig ⟨S1x32, .f32⟩) Host.divf
  :: StableHlo.TRef.unary (.of main_call9_v3 : StableHlo.TRef sig ⟨S1x32, .f32⟩) (.of main_call9_v4 : StableHlo.TRef sig ⟨S16x32, .f32⟩) (broadcastInDim S16x32 ![0, 1] bcast_S1x32_S16x32_0_1)
  :: StableHlo.TRef.binary (.of main_v159 : StableHlo.TRef sig ⟨S16x32, .f32⟩) (.of main_call9_v4 : StableHlo.TRef sig ⟨S16x32, .f32⟩) (.of main_call9_v5 : StableHlo.TRef sig ⟨S16x32, .f32⟩) subf
  :: StableHlo.TRef.binary (.of main_call9_v5 : StableHlo.TRef sig ⟨S16x32, .f32⟩) (.of main_call9_v5 : StableHlo.TRef sig ⟨S16x32, .f32⟩) (.of main_call9_v6 : StableHlo.TRef sig ⟨S16x32, .f32⟩) mulf
  :: StableHlo.TRef.unary (.of main_c_44 : StableHlo.TRef sig ⟨S_, .i32⟩) (.of main_call9_v7 : StableHlo.TRef sig ⟨S_, .f32⟩) (sitofp .f32)
  :: StableHlo.TRef.nullary (.of main_call9_cst_1 : StableHlo.TRef sig ⟨S_, .f32⟩) (constant S_ .f32 0x41800000#32)
  :: StableHlo.TRef.binary (.of main_call9_cst_1 : StableHlo.TRef sig ⟨S_, .f32⟩) (.of main_call9_v7 : StableHlo.TRef sig ⟨S_, .f32⟩) (.of main_call9_v8 : StableHlo.TRef sig ⟨S_, .f32⟩) subf
  :: StableHlo.TRef.nullary (.of main_call9_cst_2 : StableHlo.TRef sig ⟨S_, .f32⟩) (constant S_ .f32 0x00000000#32)
  :: StableHlo.TRef.binary (.of main_call9_v6 : StableHlo.TRef sig ⟨S16x32, .f32⟩) (.of main_call9_cst_2 : StableHlo.TRef sig ⟨S_, .f32⟩) (.of main_call9_v9 : StableHlo.TRef sig ⟨S32, .f32⟩) (fun x v => Host.reduceAdd x v reducesTo_S16x32_S32_d0 h_S_)
  :: StableHlo.TRef.unary (.of main_call9_v8 : StableHlo.TRef sig ⟨S_, .f32⟩) (.of main_call9_v10 : StableHlo.TRef sig ⟨S32, .f32⟩) (broadcastInDim S32 ![] bcast_S_S32)
  :: StableHlo.TRef.binary (.of main_call9_v9 : StableHlo.TRef sig ⟨S32, .f32⟩) (.of main_call9_v10 : StableHlo.TRef sig ⟨S32, .f32⟩) (.of main_call9_v11 : StableHlo.TRef sig ⟨S32, .f32⟩) Host.divf
  :: StableHlo.TRef.nullary (.of main_call9_cst_3 : StableHlo.TRef sig ⟨S_, .f32⟩) (constant S_ .f32 0x00000000#32)
  :: StableHlo.TRef.binary (.of main_call9_v8 : StableHlo.TRef sig ⟨S_, .f32⟩) (.of main_call9_cst_3 : StableHlo.TRef sig ⟨S_, .f32⟩) (.of main_call9_v12 : StableHlo.TRef sig ⟨S_, .i1⟩) (cmpf .ogt)
  :: StableHlo.TRef.nullary (.of main_call9_cst_4 : StableHlo.TRef sig ⟨S_, .f32⟩) (constant S_ .f32 0x7FC00000#32)
  :: StableHlo.TRef.unary (.of main_call9_cst_4 : StableHlo.TRef sig ⟨S_, .f32⟩) (.of main_call9_call0_v0 : StableHlo.TRef sig ⟨S_, .f32⟩) id
  :: StableHlo.TRef.unary (.of main_call9_call0_v0 : StableHlo.TRef sig ⟨S_, .f32⟩) (.of main_call9_call0_v1 : StableHlo.TRef sig ⟨S32, .f32⟩) (broadcastInDim S32 ![] bcast_S_S32)
  :: StableHlo.TRef.ternary (.of main_call9_v12 : StableHlo.TRef sig ⟨S_, .i1⟩) (.of main_call9_v11 : StableHlo.TRef sig ⟨S32, .f32⟩) (.of main_call9_call0_v1 : StableHlo.TRef sig ⟨S32, .f32⟩) (.of main_v163 : StableHlo.TRef sig ⟨S32, .f32⟩) (fun p a b => select (broadcastInDim S32 ![] bcast_S_S32 p) a b)
  :: StableHlo.unary main_v162 main_v164 (broadcastInDim S1x32 ![1] bcast_S32_S1x32_1 : (⟨S32, .f32⟩ : BufTy).Contents (Elt F) → (⟨S1x32, .f32⟩ : BufTy).Contents (Elt F))
  :: StableHlo.unary main_v164 main_v165 (broadcastInDim S16x32 ![0, 1] bcast_S1x32_S16x32_0_1 : (⟨S1x32, .f32⟩ : BufTy).Contents (Elt F) → (⟨S16x32, .f32⟩ : BufTy).Contents (Elt F))
  :: StableHlo.binary main_v159 main_v165 main_v166 (subf : (⟨S16x32, .f32⟩ : BufTy).Contents (Elt F) → (⟨S16x32, .f32⟩ : BufTy).Contents (Elt F) → (⟨S16x32, .f32⟩ : BufTy).Contents (Elt F))
  :: StableHlo.unary main_arg18 main_v167 (broadcastInDim S1x32 ![1] bcast_S32_S1x32_1 : (⟨S32, .f32⟩ : BufTy).Contents (Elt F) → (⟨S1x32, .f32⟩ : BufTy).Contents (Elt F))
  :: StableHlo.unary main_v167 main_v168 (broadcastInDim S16x32 ![0, 1] bcast_S1x32_S16x32_0_1 : (⟨S1x32, .f32⟩ : BufTy).Contents (Elt F) → (⟨S16x32, .f32⟩ : BufTy).Contents (Elt F))
  :: StableHlo.binary main_v168 main_v166 main_v169 (mulf : (⟨S16x32, .f32⟩ : BufTy).Contents (Elt F) → (⟨S16x32, .f32⟩ : BufTy).Contents (Elt F) → (⟨S16x32, .f32⟩ : BufTy).Contents (Elt F))
  :: StableHlo.nullary main_cst_45 (constant S_ .f32 0x3727C5AC#32)
  :: StableHlo.unary main_cst_45 main_v170 (broadcastInDim S32 ![] bcast_S_S32 : (⟨S_, .f32⟩ : BufTy).Contents (Elt F) → (⟨S32, .f32⟩ : BufTy).Contents (Elt F))
  :: StableHlo.binary main_v163 main_v170 main_v171 (addf : (⟨S32, .f32⟩ : BufTy).Contents (Elt F) → (⟨S32, .f32⟩ : BufTy).Contents (Elt F) → (⟨S32, .f32⟩ : BufTy).Contents (Elt F))
  :: StableHlo.unary main_v171 main_v172 (Host.sqrt : (⟨S32, .f32⟩ : BufTy).Contents (Elt F) → (⟨S32, .f32⟩ : BufTy).Contents (Elt F))
  :: StableHlo.unary main_v172 main_v173 (broadcastInDim S1x32 ![1] bcast_S32_S1x32_1 : (⟨S32, .f32⟩ : BufTy).Contents (Elt F) → (⟨S1x32, .f32⟩ : BufTy).Contents (Elt F))
  :: StableHlo.unary main_v173 main_v174 (broadcastInDim S16x32 ![0, 1] bcast_S1x32_S16x32_0_1 : (⟨S1x32, .f32⟩ : BufTy).Contents (Elt F) → (⟨S16x32, .f32⟩ : BufTy).Contents (Elt F))
  :: StableHlo.binary main_v169 main_v174 main_v175 (Host.divf : (⟨S16x32, .f32⟩ : BufTy).Contents (Elt F) → (⟨S16x32, .f32⟩ : BufTy).Contents (Elt F) → (⟨S16x32, .f32⟩ : BufTy).Contents (Elt F))
  :: StableHlo.unary main_arg19 main_v176 (broadcastInDim S1x32 ![1] bcast_S32_S1x32_1 : (⟨S32, .f32⟩ : BufTy).Contents (Elt F) → (⟨S1x32, .f32⟩ : BufTy).Contents (Elt F))
  :: StableHlo.unary main_v176 main_v177 (broadcastInDim S16x32 ![0, 1] bcast_S1x32_S16x32_0_1 : (⟨S1x32, .f32⟩ : BufTy).Contents (Elt F) → (⟨S16x32, .f32⟩ : BufTy).Contents (Elt F))
  :: StableHlo.binary main_v175 main_v177 main_v178 (addf : (⟨S16x32, .f32⟩ : BufTy).Contents (Elt F) → (⟨S16x32, .f32⟩ : BufTy).Contents (Elt F) → (⟨S16x32, .f32⟩ : BufTy).Contents (Elt F))
  :: StableHlo.TRef.nullary (.of main_call10_cst : StableHlo.TRef sig ⟨S_, .f32⟩) (constant S_ .f32 0x00000000#32)
  :: StableHlo.TRef.unary (.of main_call10_cst : StableHlo.TRef sig ⟨S_, .f32⟩) (.of main_call10_v0 : StableHlo.TRef sig ⟨S16x32, .f32⟩) (broadcastInDim S16x32 ![] bcast_S_S16x32)
  :: StableHlo.TRef.binary (.of main_v178 : StableHlo.TRef sig ⟨S16x32, .f32⟩) (.of main_call10_v0 : StableHlo.TRef sig ⟨S16x32, .f32⟩) (.of main_v179 : StableHlo.TRef sig ⟨S16x32, .f32⟩) maximumf
  :: StableHlo.binary main_v179 main_arg20 main_v180 ((fun l r => Host.dotGeneral dot_S16x32_S32x4_S16x4_1_0_0_1_n_n none l r) : (⟨S16x32, .f32⟩ : BufTy).Contents (Elt F) → (⟨S32x4, .f32⟩ : BufTy).Contents (Elt F) → (⟨S16x4, .f32⟩ : BufTy).Contents (Elt F))
  :: [] )

/-- The first layer: product, bias, clamp. -/
abbrev opsA : List (HloOp τ sig (Elt F)) := pc0
/-- The second layer's product. -/
abbrev opsB : List (HloOp τ sig (Elt F)) := pc1
/-- After the second product, up to the first aggregation's clamp. -/
abbrev opsC1 : List (HloOp τ sig (Elt F)) := pc2 ++ (pc3)
/-- The first pooled means. -/
abbrev opsC2 : List (HloOp τ sig (Elt F)) := pc4
/-- The third layer's product. -/
abbrev opsD : List (HloOp τ sig (Elt F)) := pc5
/-- After the third product, up to the second aggregation's clamp. -/
abbrev opsE1 : List (HloOp τ sig (Elt F)) := pc6 ++ (pc7)
/-- The rest: the second pooled means and the small dense tail with its two batch normalisations. -/
abbrev opsE2 : List (HloOp τ sig (Elt F)) := pc8 ++ (pc9)
/-- The whole entry function. -/
abbrev ops : List (HloOp τ sig (Elt F)) := opsA ++ (opsB ++ (opsC1 ++ (opsC2 ++ (opsD ++ (opsE1 ++ opsE2)))))

/-- The operations of the printed program's statement window 0. -/
abbrev win0 : List (HloOp τ sig (Elt F)) := pc0 ++ (pc1 ++ (pc2))
/-- The operations of the printed program's statement window 1. -/
abbrev win1 : List (HloOp τ sig (Elt F)) := pc3 ++ (pc4 ++ (pc5 ++ (pc6)))
/-- The operations of the printed program's statement window 2. -/
abbrev win2 : List (HloOp τ sig (Elt F)) := pc7 ++ (pc8)
/-- The operations of the printed program's statement window 3. -/
abbrev win3 : List (HloOp τ sig (Elt F)) := pc9

end Cert.ReferenceIdeal.RefRun

end
-- ==== Proof.RefRun.lean ====
/-
  The run of the reference program.

  Its entry function is a straight line of 289 host operations (the lists of RefOps.lean): each of the four statement
  windows it is printed in is the sequence of that window's operations, the functions it calls unfolded at their calls,
  and the windows run one after the other are the sequence of the whole list.  Every operation reads and writes
  TensorCore buffers only and determines its results, so every weakly fair execution terminates with each buffer at the
  fold of the operations over what the buffer held at launch.  The 21 argument buffers are the references of index
  below 21 and every operation writes a reference of index 21 or more, so the fold leaves each argument as launched.
-/
import proofs.«144298_j83494164234286_1_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The entry function is the sequence of its operations -/

set_option maxRecDepth 4096 in
/-- Statement window 0 is the sequence of its operations: the called functions unfolded, both sides are one chain of
    steps once sequencing is re-associated. -/
theorem part0_eq (c : Dev nD) : main_part0 (F := F) c = seq win0 := by
  simp only [main_part0, fn_relu.body, fn_where.body, fn_where_0.body, win0, pc0, pc1, pc2,
    List.cons_append, List.nil_append, seq, bind_assoc, pure_bind] <;> rfl

set_option maxRecDepth 4096 in
/-- Statement window 1 is the sequence of its operations: the called functions unfolded, both sides are one chain of
    steps once sequencing is re-associated. -/
theorem part1_eq (c : Dev nD) : main_part1 (F := F) c = seq win1 := by
  simp only [main_part1, fn_relu.body, fn_where.body, fn_where_0.body, win1, pc3, pc4, pc5, pc6,
    List.cons_append, List.nil_append, seq, bind_assoc, pure_bind] <;> rfl

set_option maxRecDepth 4096 in
/-- Statement window 2 is the sequence of its operations: the called functions unfolded, both sides are one chain of
    steps once sequencing is re-associated. -/
theorem part2_eq (c : Dev nD) : main_part2 (F := F) c = seq win2 := by
  simp only [main_part2, fn_relu.body, win2, pc7, pc8,
    List.cons_append, List.nil_append, seq, bind_assoc, pure_bind] <;> rfl

set_option maxRecDepth 4096 in
/-- Statement window 3 is the sequence of its operations: the called functions unfolded, both sides are one chain of
    steps once sequencing is re-associated. -/
theorem part3_eq (c : Dev nD) : main_part3 (F := F) c = seq win3 := by
  simp only [main_part3, fn_var.body, fn_where_1.body, fn_relu_2.body, fn_var_3.body, fn_where_4.body, fn_relu_5.body, win3, pc9,
    List.cons_append, List.nil_append, seq, bind_assoc, pure_bind] <;> rfl

/-- The whole list is the four windows' lists one after the other (both are the ten pieces in order). -/
theorem ops_eq_wins : (ops : List (HloOp τ sig (Elt F))) = win0 ++ (win1 ++ (win2 ++ win3)) := by
  simp only [ops, opsA, opsB, opsC1, opsC2, opsD, opsE1, opsE2, win0, win1, win2, win3, List.append_assoc]

/-- The entry function is the sequence of all its operations. -/
theorem main_eq (c : Dev nD) : main (F := F) c = seq ops := by
  rw [ops_eq_wins, seq_append win0, seq_append win1, seq_append win2, ← part0_eq c, ← part1_eq c, ← part2_eq c, ← part3_eq c]
  rfl

/-! ## What holds of every operation -/

/-- A property of every operation of the ten pieces holds of every operation of the list. -/
theorem ops_forall {p : HloOp τ sig (Elt F) → Prop}
    (h0 : (pc0 : List (HloOp τ sig (Elt F))).Forall p) (h1 : (pc1 : List (HloOp τ sig (Elt F))).Forall p) (h2 : (pc2 : List (HloOp τ sig (Elt F))).Forall p)
    (h3 : (pc3 : List (HloOp τ sig (Elt F))).Forall p) (h4 : (pc4 : List (HloOp τ sig (Elt F))).Forall p) (h5 : (pc5 : List (HloOp τ sig (Elt F))).Forall p)
    (h6 : (pc6 : List (HloOp τ sig (Elt F))).Forall p) (h7 : (pc7 : List (HloOp τ sig (Elt F))).Forall p) (h8 : (pc8 : List (HloOp τ sig (Elt F))).Forall p)
    (h9 : (pc9 : List (HloOp τ sig (Elt F))).Forall p) : (ops : List (HloOp τ sig (Elt F))).Forall p := by
  simp only [ops, opsA, opsB, opsC1, opsC2, opsD, opsE1, opsE2, List.forall_append]
  exact ⟨h0, h1, ⟨h2, h3⟩, h4, h5, ⟨h6, h7⟩, h8, h9⟩

/-- Two references, one of index below 21 and one of index at least 21, differ. -/
theorem ne_of_idx {r y : Ref sig .tc} (hr : r.idx.val < 21) (hy : 21 ≤ y.idx.val) : r ≠ y := by
  intro e; subst e; omega

theorem pc0_sub : (pc0 : List (HloOp τ sig (Elt F))).Forall fun op => op.bufs ⊆ tcRefs τ sig := by
  simp only [pc0, List.Forall, nullary_bufs_sub, unary_bufs_sub, binary_bufs_sub, ternary_bufs_sub, and_self]
theorem pc0_fresh : (pc0 : List (HloOp τ sig (Elt F))).Forall fun op => op.fresh = ∅ := by
  simp only [pc0, List.Forall]
  repeat' apply And.intro
  all_goals rfl
theorem pc0_high {r : Ref sig .tc} (hr : r.idx.val < 21) :
    (pc0 : List (HloOp τ sig (Elt F))).Forall fun op => (Proc.devRef .tc r : DevRef τ sig) ∉ op.writes := by
  simp only [pc0, List.Forall, nullary_writes, unary_writes, binary_writes, ternary_writes, Finset.mem_singleton]
  repeat' apply And.intro
  all_goals exact devRef_ne_of_ne (ne_of_idx hr (by decide))

theorem pc1_sub : (pc1 : List (HloOp τ sig (Elt F))).Forall fun op => op.bufs ⊆ tcRefs τ sig := by
  simp only [pc1, List.Forall, nullary_bufs_sub, unary_bufs_sub, binary_bufs_sub, ternary_bufs_sub, and_self]
theorem pc1_fresh : (pc1 : List (HloOp τ sig (Elt F))).Forall fun op => op.fresh = ∅ := by
  simp only [pc1, List.Forall]
  repeat' apply And.intro
  all_goals rfl
theorem pc1_high {r : Ref sig .tc} (hr : r.idx.val < 21) :
    (pc1 : List (HloOp τ sig (Elt F))).Forall fun op => (Proc.devRef .tc r : DevRef τ sig) ∉ op.writes := by
  simp only [pc1, List.Forall, nullary_writes, unary_writes, binary_writes, ternary_writes, Finset.mem_singleton]
  repeat' apply And.intro
  all_goals exact devRef_ne_of_ne (ne_of_idx hr (by decide))

theorem pc2_sub : (pc2 : List (HloOp τ sig (Elt F))).Forall fun op => op.bufs ⊆ tcRefs τ sig := by
  simp only [pc2, List.Forall, nullary_bufs_sub, unary_bufs_sub, binary_bufs_sub, ternary_bufs_sub, and_self]
theorem pc2_fresh : (pc2 : List (HloOp τ sig (Elt F))).Forall fun op => op.fresh = ∅ := by
  simp only [pc2, List.Forall]
  repeat' apply And.intro
  all_goals rfl
theorem pc2_high {r : Ref sig .tc} (hr : r.idx.val < 21) :
    (pc2 : List (HloOp τ sig (Elt F))).Forall fun op => (Proc.devRef .tc r : DevRef τ sig) ∉ op.writes := by
  simp only [pc2, List.Forall, nullary_writes, unary_writes, binary_writes, ternary_writes, Finset.mem_singleton]
  repeat' apply And.intro
  all_goals exact devRef_ne_of_ne (ne_of_idx hr (by decide))

theorem pc3_sub : (pc3 : List (HloOp τ sig (Elt F))).Forall fun op => op.bufs ⊆ tcRefs τ sig := by
  simp only [pc3, List.Forall, nullary_bufs_sub, unary_bufs_sub, binary_bufs_sub, ternary_bufs_sub, and_self]
theorem pc3_fresh : (pc3 : List (HloOp τ sig (Elt F))).Forall fun op => op.fresh = ∅ := by
  simp only [pc3, List.Forall]
  repeat' apply And.intro
  all_goals rfl
theorem pc3_high {r : Ref sig .tc} (hr : r.idx.val < 21) :
    (pc3 : List (HloOp τ sig (Elt F))).Forall fun op => (Proc.devRef .tc r : DevRef τ sig) ∉ op.writes := by
  simp only [pc3, List.Forall, nullary_writes, unary_writes, binary_writes, ternary_writes, Finset.mem_singleton]
  repeat' apply And.intro
  all_goals exact devRef_ne_of_ne (ne_of_idx hr (by decide))

theorem pc4_sub : (pc4 : List (HloOp τ sig (Elt F))).Forall fun op => op.bufs ⊆ tcRefs τ sig := by
  simp only [pc4, List.Forall, nullary_bufs_sub, unary_bufs_sub, binary_bufs_sub, ternary_bufs_sub, and_self]
theorem pc4_fresh : (pc4 : List (HloOp τ sig (Elt F))).Forall fun op => op.fresh = ∅ := by
  simp only [pc4, List.Forall]
  repeat' apply And.intro
  all_goals rfl
theorem pc4_high {r : Ref sig .tc} (hr : r.idx.val < 21) :
    (pc4 : List (HloOp τ sig (Elt F))).Forall fun op => (Proc.devRef .tc r : DevRef τ sig) ∉ op.writes := by
  simp only [pc4, List.Forall, nullary_writes, unary_writes, binary_writes, ternary_writes, Finset.mem_singleton]
  repeat' apply And.intro
  all_goals exact devRef_ne_of_ne (ne_of_idx hr (by decide))

theorem pc5_sub : (pc5 : List (HloOp τ sig (Elt F))).Forall fun op => op.bufs ⊆ tcRefs τ sig := by
  simp only [pc5, List.Forall, nullary_bufs_sub, unary_bufs_sub, binary_bufs_sub, ternary_bufs_sub, and_self]
theorem pc5_fresh : (pc5 : List (HloOp τ sig (Elt F))).Forall fun op => op.fresh = ∅ := by
  simp only [pc5, List.Forall]
  repeat' apply And.intro
  all_goals rfl
theorem pc5_high {r : Ref sig .tc} (hr : r.idx.val < 21) :
    (pc5 : List (HloOp τ sig (Elt F))).Forall fun op => (Proc.devRef .tc r : DevRef τ sig) ∉ op.writes := by
  simp only [pc5, List.Forall, nullary_writes, unary_writes, binary_writes, ternary_writes, Finset.mem_singleton]
  repeat' apply And.intro
  all_goals exact devRef_ne_of_ne (ne_of_idx hr (by decide))

theorem pc6_sub : (pc6 : List (HloOp τ sig (Elt F))).Forall fun op => op.bufs ⊆ tcRefs τ sig := by
  simp only [pc6, List.Forall, nullary_bufs_sub, unary_bufs_sub, binary_bufs_sub, ternary_bufs_sub, and_self]
theorem pc6_fresh : (pc6 : List (HloOp τ sig (Elt F))).Forall fun op => op.fresh = ∅ := by
  simp only [pc6, List.Forall]
  repeat' apply And.intro
  all_goals rfl
theorem pc6_high {r : Ref sig .tc} (hr : r.idx.val < 21) :
    (pc6 : List (HloOp τ sig (Elt F))).Forall fun op => (Proc.devRef .tc r : DevRef τ sig) ∉ op.writes := by
  simp only [pc6, List.Forall, nullary_writes, unary_writes, binary_writes, ternary_writes, Finset.mem_singleton]
  repeat' apply And.intro
  all_goals exact devRef_ne_of_ne (ne_of_idx hr (by decide))

theorem pc7_sub : (pc7 : List (HloOp τ sig (Elt F))).Forall fun op => op.bufs ⊆ tcRefs τ sig := by
  simp only [pc7, List.Forall, nullary_bufs_sub, unary_bufs_sub, binary_bufs_sub, ternary_bufs_sub, and_self]
theorem pc7_fresh : (pc7 : List (HloOp τ sig (Elt F))).Forall fun op => op.fresh = ∅ := by
  simp only [pc7, List.Forall]
  repeat' apply And.intro
  all_goals rfl
theorem pc7_high {r : Ref sig .tc} (hr : r.idx.val < 21) :
    (pc7 : List (HloOp τ sig (Elt F))).Forall fun op => (Proc.devRef .tc r : DevRef τ sig) ∉ op.writes := by
  simp only [pc7, List.Forall, nullary_writes, unary_writes, binary_writes, ternary_writes, Finset.mem_singleton]
  repeat' apply And.intro
  all_goals exact devRef_ne_of_ne (ne_of_idx hr (by decide))

theorem pc8_sub : (pc8 : List (HloOp τ sig (Elt F))).Forall fun op => op.bufs ⊆ tcRefs τ sig := by
  simp only [pc8, List.Forall, nullary_bufs_sub, unary_bufs_sub, binary_bufs_sub, ternary_bufs_sub, and_self]
theorem pc8_fresh : (pc8 : List (HloOp τ sig (Elt F))).Forall fun op => op.fresh = ∅ := by
  simp only [pc8, List.Forall]
  repeat' apply And.intro
  all_goals rfl
theorem pc8_high {r : Ref sig .tc} (hr : r.idx.val < 21) :
    (pc8 : List (HloOp τ sig (Elt F))).Forall fun op => (Proc.devRef .tc r : DevRef τ sig) ∉ op.writes := by
  simp only [pc8, List.Forall, nullary_writes, unary_writes, binary_writes, ternary_writes, Finset.mem_singleton]
  repeat' apply And.intro
  all_goals exact devRef_ne_of_ne (ne_of_idx hr (by decide))

theorem pc9_sub : (pc9 : List (HloOp τ sig (Elt F))).Forall fun op => op.bufs ⊆ tcRefs τ sig := by
  simp only [pc9, List.Forall, nullary_bufs_sub, unary_bufs_sub, binary_bufs_sub, ternary_bufs_sub, and_self]
theorem pc9_fresh : (pc9 : List (HloOp τ sig (Elt F))).Forall fun op => op.fresh = ∅ := by
  simp only [pc9, List.Forall]
  repeat' apply And.intro
  all_goals rfl
theorem pc9_high {r : Ref sig .tc} (hr : r.idx.val < 21) :
    (pc9 : List (HloOp τ sig (Elt F))).Forall fun op => (Proc.devRef .tc r : DevRef τ sig) ∉ op.writes := by
  simp only [pc9, List.Forall, nullary_writes, unary_writes, binary_writes, ternary_writes, Finset.mem_singleton]
  repeat' apply And.intro
  all_goals exact devRef_ne_of_ne (ne_of_idx hr (by decide))

/-- Every operation touches TensorCore references only. -/
theorem ops_sub : (ops : List (HloOp τ sig (Elt F))).Forall fun op => op.bufs ⊆ tcRefs τ sig :=
  ops_forall pc0_sub pc1_sub pc2_sub pc3_sub pc4_sub pc5_sub pc6_sub pc7_sub pc8_sub pc9_sub

/-- Every operation determines its results. -/
theorem ops_fresh : ∀ op ∈ (ops : List (HloOp τ sig (Elt F))), op.fresh = ∅ :=
  List.forall_iff_forall_mem.mp (ops_forall pc0_fresh pc1_fresh pc2_fresh pc3_fresh pc4_fresh pc5_fresh pc6_fresh pc7_fresh pc8_fresh pc9_fresh)

theorem scopedRefs_eq : (Finset.univ.filter fun b : Ref sig .tc => b.isScoped) = ∅ := by decide
theorem scopedSems_eq : (Finset.univ.filter fun sm : SemLoc sig => sm.isScoped .tc) = ∅ := by decide

/-! ## The run -/

/-- On every device, for any float values, from any memory with zero counters: every weakly fair execution of the entry
    function on the TensorCores terminates, and every final state has each TensorCore buffer at the operations' fold over
    what the device held at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The arguments are kept -/

/-- A buffer whose reference has index below 21 holds after the operations what it held before: none writes it. -/
theorem kept_of_idx {r : Ref sig .tc} (hr : r.idx.val < 21) (V : Valuation τ sig (Elt F)) :
    after ops V (Proc.devRef .tc r) = V (Proc.devRef .tc r) :=
  after_of_forall_not_mem ops V (List.forall_iff_forall_mem.mp (ops_forall (pc0_high hr) (pc1_high hr) (pc2_high hr) (pc3_high hr) (pc4_high hr) (pc5_high hr) (pc6_high hr) (pc7_high hr) (pc8_high hr) (pc9_high hr)))

/-- Each of the 21 arguments holds after the operations what it held before. -/
theorem arg_kept (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig)
    ∧ after ops V (main_arg8 : DevRef τ sig) = V (main_arg8 : DevRef τ sig)
    ∧ after ops V (main_arg9 : DevRef τ sig) = V (main_arg9 : DevRef τ sig)
    ∧ after ops V (main_arg10 : DevRef τ sig) = V (main_arg10 : DevRef τ sig)
    ∧ after ops V (main_arg11 : DevRef τ sig) = V (main_arg11 : DevRef τ sig)
    ∧ after ops V (main_arg12 : DevRef τ sig) = V (main_arg12 : DevRef τ sig)
    ∧ after ops V (main_arg13 : DevRef τ sig) = V (main_arg13 : DevRef τ sig)
    ∧ after ops V (main_arg14 : DevRef τ sig) = V (main_arg14 : DevRef τ sig)
    ∧ after ops V (main_arg15 : DevRef τ sig) = V (main_arg15 : DevRef τ sig)
    ∧ after ops V (main_arg16 : DevRef τ sig) = V (main_arg16 : DevRef τ sig)
    ∧ after ops V (main_arg17 : DevRef τ sig) = V (main_arg17 : DevRef τ sig)
    ∧ after ops V (main_arg18 : DevRef τ sig) = V (main_arg18 : DevRef τ sig)
    ∧ after ops V (main_arg19 : DevRef τ sig) = V (main_arg19 : DevRef τ sig)
    ∧ after ops V (main_arg20 : DevRef τ sig) = V (main_arg20 : DevRef τ sig) :=
  ⟨kept_of_idx (r := main_arg0) (by decide) V,
   kept_of_idx (r := main_arg1) (by decide) V,
   kept_of_idx (r := main_arg2) (by decide) V,
   kept_of_idx (r := main_arg3) (by decide) V,
   kept_of_idx (r := main_arg4) (by decide) V,
   kept_of_idx (r := main_arg5) (by decide) V,
   kept_of_idx (r := main_arg6) (by decide) V,
   kept_of_idx (r := main_arg7) (by decide) V,
   kept_of_idx (r := main_arg8) (by decide) V,
   kept_of_idx (r := main_arg9) (by decide) V,
   kept_of_idx (r := main_arg10) (by decide) V,
   kept_of_idx (r := main_arg11) (by decide) V,
   kept_of_idx (r := main_arg12) (by decide) V,
   kept_of_idx (r := main_arg13) (by decide) V,
   kept_of_idx (r := main_arg14) (by decide) V,
   kept_of_idx (r := main_arg15) (by decide) V,
   kept_of_idx (r := main_arg16) (by decide) V,
   kept_of_idx (r := main_arg17) (by decide) V,
   kept_of_idx (r := main_arg18) (by decide) V,
   kept_of_idx (r := main_arg19) (by decide) V,
   kept_of_idx (r := main_arg20) (by decide) V⟩

end Cert.ReferenceIdeal.RefRun

end
-- ==== Proof.KFacts.lean ====
/-
  Bookkeeping on the kernel program's device: which buffers each stretch of host operations and each dense layer leaves
  untouched.  The contents of the buffers are followed from the launch through the stretches and the three layers
  (`W0` … `W27`); an argument array is written by no operation, and each value computed on the way stays in its buffer until
  the operation that consumes it.
-/
import proofs.«144298_j83494164234286_1_alg».proof.Proof.Gen.KernelIdeal.Frame

noncomputable section

namespace Cert.KernelIdeal.KFacts

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

theorem W2_keep (b : Ref sig .tc) (hb : ∀ w, Pipeline.arrRef spec0 w ≠ b) :
    W2 m ρ c (no_index (Proc.devRef .tc b)) = W1 m ρ c (Proc.devRef .tc b) := W2_of_ne m ρ c b hb
theorem W4_keep (b : Ref sig .tc) (hb : ∀ w, Pipeline.arrRef spec1 w ≠ b) :
    W4 m ρ c (no_index (Proc.devRef .tc b)) = W3 m ρ c (Proc.devRef .tc b) := W4_of_ne m ρ c b hb
theorem W12_keep (b : Ref sig .tc) (hb : ∀ w, Pipeline.arrRef spec2 w ≠ b) :
    W12 m ρ c (no_index (Proc.devRef .tc b)) = W11 m ρ c (Proc.devRef .tc b) := W12_of_ne m ρ c b hb

/-- Follow a buffer back through the layers (which change only their own output arrays) and the host stretches
    (each operation changes only its result buffer). -/
macro "kchase" : tactic =>
  `(tactic| simp (disch := decide) only [W12_keep, W4_keep, W2_keep, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

/-! ## The argument arrays, read where each is consumed, are the launch's -/

set_option maxHeartbeats 4000000 in
theorem W1_arg0 : W1 m ρ c (Proc.devRef .tc main_arg0) = m ((c : Thread nD τ).loc main_arg0) := by kchase
set_option maxHeartbeats 4000000 in
theorem W1_arg4 : W1 m ρ c (Proc.devRef .tc main_arg4) = m ((c : Thread nD τ).loc main_arg4) := by kchase
set_option maxHeartbeats 4000000 in
theorem W1_arg5 : W1 m ρ c (Proc.devRef .tc main_arg5) = m ((c : Thread nD τ).loc main_arg5) := by kchase
set_option maxHeartbeats 4000000 in
theorem W3_arg6 : W3 m ρ c (Proc.devRef .tc main_arg6) = m ((c : Thread nD τ).loc main_arg6) := by kchase
set_option maxHeartbeats 4000000 in
theorem W4_arg1 : W4 m ρ c (Proc.devRef .tc main_arg1) = m ((c : Thread nD τ).loc main_arg1) := by kchase
set_option maxHeartbeats 4000000 in
theorem W4_arg2 : W4 m ρ c (Proc.devRef .tc main_arg2) = m ((c : Thread nD τ).loc main_arg2) := by kchase
set_option maxHeartbeats 4000000 in
theorem W4_arg7 : W4 m ρ c (Proc.devRef .tc main_arg7) = m ((c : Thread nD τ).loc main_arg7) := by kchase
set_option maxHeartbeats 4000000 in
theorem W10_arg3 : W10 m ρ c (Proc.devRef .tc main_arg3) = m ((c : Thread nD τ).loc main_arg3) := by kchase
set_option maxHeartbeats 4000000 in
theorem W11_arg8 : W11 m ρ c (Proc.devRef .tc main_arg8) = m ((c : Thread nD τ).loc main_arg8) := by kchase
set_option maxHeartbeats 4000000 in
theorem W12_arg1 : W12 m ρ c (Proc.devRef .tc main_arg1) = m ((c : Thread nD τ).loc main_arg1) := by kchase
set_option maxHeartbeats 4000000 in
theorem W12_arg2 : W12 m ρ c (Proc.devRef .tc main_arg2) = m ((c : Thread nD τ).loc main_arg2) := by kchase
set_option maxHeartbeats 4000000 in
theorem W12_arg9 : W12 m ρ c (Proc.devRef .tc main_arg9) = m ((c : Thread nD τ).loc main_arg9) := by kchase
set_option maxHeartbeats 4000000 in
theorem W18_arg3 : W18 m ρ c (Proc.devRef .tc main_arg3) = m ((c : Thread nD τ).loc main_arg3) := by kchase
set_option maxHeartbeats 4000000 in
theorem W18_arg10 : W18 m ρ c (Proc.devRef .tc main_arg10) = m ((c : Thread nD τ).loc main_arg10) := by kchase
set_option maxHeartbeats 4000000 in
theorem W18_arg11 : W18 m ρ c (Proc.devRef .tc main_arg11) = m ((c : Thread nD τ).loc main_arg11) := by kchase
set_option maxHeartbeats 4000000 in
theorem W18_arg12 : W18 m ρ c (Proc.devRef .tc main_arg12) = m ((c : Thread nD τ).loc main_arg12) := by kchase
set_option maxHeartbeats 4000000 in
theorem W18_arg13 : W18 m ρ c (Proc.devRef .tc main_arg13) = m ((c : Thread nD τ).loc main_arg13) := by kchase
set_option maxHeartbeats 4000000 in
theorem W18_arg14 : W18 m ρ c (Proc.devRef .tc main_arg14) = m ((c : Thread nD τ).loc main_arg14) := by kchase
set_option maxHeartbeats 4000000 in
theorem W18_arg15 : W18 m ρ c (Proc.devRef .tc main_arg15) = m ((c : Thread nD τ).loc main_arg15) := by kchase
set_option maxHeartbeats 4000000 in
theorem W18_arg16 : W18 m ρ c (Proc.devRef .tc main_arg16) = m ((c : Thread nD τ).loc main_arg16) := by kchase
set_option maxHeartbeats 4000000 in
theorem W18_arg17 : W18 m ρ c (Proc.devRef .tc main_arg17) = m ((c : Thread nD τ).loc main_arg17) := by kchase
set_option maxHeartbeats 4000000 in
theorem W18_arg18 : W18 m ρ c (Proc.devRef .tc main_arg18) = m ((c : Thread nD τ).loc main_arg18) := by kchase
set_option maxHeartbeats 4000000 in
theorem W18_arg19 : W18 m ρ c (Proc.devRef .tc main_arg19) = m ((c : Thread nD τ).loc main_arg19) := by kchase
set_option maxHeartbeats 4000000 in
theorem W18_arg20 : W18 m ρ c (Proc.devRef .tc main_arg20) = m ((c : Thread nD τ).loc main_arg20) := by kchase

/-! ## Values that stay in their buffers until they are consumed -/

/-- The first layer's output is still in its buffer when the second layer reads it. -/
theorem W3_v2 : W3 m ρ c (Proc.devRef .tc main_v2) = W2 m ρ c (Proc.devRef .tc main_v2) := by after_results_simp

/-- The pooling stretch does not write the clamped first aggregation. -/
theorem pool_keeps_v51 (V : Valuation τ sig (Elt F)) : after hostOps2_6 V (Proc.devRef .tc main_v51) = V (Proc.devRef .tc main_v51) := by after_results_simp

/-- The second aggregation's stretch does not write the first pooled means. -/
theorem agg2_keeps_v63 (V : Valuation τ sig (Elt F)) :
    after hostOps3_5 (after hostOps3_4 (after hostOps3_3 (after hostOps3_2 (after hostOps3_1 (after hostOps3 V))))) (Proc.devRef .tc main_v63) = V (Proc.devRef .tc main_v63) := by
  after_results_simp

/-- The third layer does not write the first pooled means. -/
theorem W12_v63 : W12 m ρ c (Proc.devRef .tc main_v63) = W11 m ρ c (Proc.devRef .tc main_v63) := W12_of_ne m ρ c main_v63 (by decide)

/-! ## The bias rows the three layers read -/

/-- The first layer's bias row is the bias argument laid out as one row. -/
theorem W1_v1 : W1 m ρ c (Proc.devRef .tc main_v1) = fun i => shapeCast S1x128 (m ((c : Thread nD τ).loc main_arg5)) shapeCasts_S128_S1x128 i := by
  kchase
  rfl

/-- The second layer's bias row is a row of zeros. -/
theorem W3_v3 : W3 m ρ c (Proc.devRef .tc main_v3) = fun i => shapeCast S1x128 (broadcastInDim S128 ![] bcast_S_S128 (constant (F := F) S_ .f32 0x00000000#32)) shapeCasts_S128_S1x128 i := by
  kchase
  rfl

/-- The third layer's bias row is a row of zeros. -/
theorem W11_v64 : W11 m ρ c (Proc.devRef .tc main_v64) = fun i => shapeCast S1x128 (broadcastInDim S128 ![] bcast_S_S128 (constant (F := F) S_ .f32 0x00000000#32)) shapeCasts_S128_S1x128 i := by
  kchase
  rfl

end Cert.KernelIdeal.KFacts

end
-- ==== Proof.RFacts.lean ====
/-
  Bookkeeping on the reference program's device: the entry function is read in seven consecutive pieces (the first layer;
  the second layer's product; the first aggregation; the first pooling; the third layer's product; the second aggregation;
  the rest).  No operation writes an argument array, and a value computed in one piece stays in its buffer through the
  later pieces that do not write it.
-/
import proofs.«144298_j83494164234286_1_alg».proof.Proof.RefOps
import Idealize.ShloMosaic.Lib.Pipeline.Frame

noncomputable section

namespace Cert.ReferenceIdeal.RFacts

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F] (V : Valuation τ sig (Elt F))

/-- The contents after the first `k` pieces. -/
abbrev RA : Valuation τ sig (Elt F) := after (opsA (F := F)) (V)
abbrev RB : Valuation τ sig (Elt F) := after (opsB (F := F)) (RA V)
abbrev RC1 : Valuation τ sig (Elt F) := after (opsC1 (F := F)) (RB V)
abbrev RC2 : Valuation τ sig (Elt F) := after (opsC2 (F := F)) (RC1 V)
abbrev RD : Valuation τ sig (Elt F) := after (opsD (F := F)) (RC2 V)
abbrev RE1 : Valuation τ sig (Elt F) := after (opsE1 (F := F)) (RD V)
abbrev RE2 : Valuation τ sig (Elt F) := after (opsE2 (F := F)) (RE1 V)

/-- The whole entry function is the seven pieces one after the other. -/
theorem after_ops : after (ops (F := F)) V = RE2 V := by
  simp only [ops, RA, RB, RC1, RC2, RD, RE1, RE2, StableHlo.after_append]

/-! ## The argument arrays, read where each is consumed, are as at the start -/

set_option maxHeartbeats 4000000 in
theorem RA_arg6 : RA V (Proc.devRef .tc main_arg6) = V (Proc.devRef .tc main_arg6) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RB_arg1 : RB V (Proc.devRef .tc main_arg1) = V (Proc.devRef .tc main_arg1) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RB_arg2 : RB V (Proc.devRef .tc main_arg2) = V (Proc.devRef .tc main_arg2) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RB_arg7 : RB V (Proc.devRef .tc main_arg7) = V (Proc.devRef .tc main_arg7) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RC1_arg3 : RC1 V (Proc.devRef .tc main_arg3) = V (Proc.devRef .tc main_arg3) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RC2_arg8 : RC2 V (Proc.devRef .tc main_arg8) = V (Proc.devRef .tc main_arg8) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RD_arg1 : RD V (Proc.devRef .tc main_arg1) = V (Proc.devRef .tc main_arg1) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RD_arg2 : RD V (Proc.devRef .tc main_arg2) = V (Proc.devRef .tc main_arg2) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RD_arg9 : RD V (Proc.devRef .tc main_arg9) = V (Proc.devRef .tc main_arg9) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RE1_arg3 : RE1 V (Proc.devRef .tc main_arg3) = V (Proc.devRef .tc main_arg3) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RE1_arg10 : RE1 V (Proc.devRef .tc main_arg10) = V (Proc.devRef .tc main_arg10) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RE1_arg11 : RE1 V (Proc.devRef .tc main_arg11) = V (Proc.devRef .tc main_arg11) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RE1_arg12 : RE1 V (Proc.devRef .tc main_arg12) = V (Proc.devRef .tc main_arg12) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RE1_arg13 : RE1 V (Proc.devRef .tc main_arg13) = V (Proc.devRef .tc main_arg13) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RE1_arg14 : RE1 V (Proc.devRef .tc main_arg14) = V (Proc.devRef .tc main_arg14) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RE1_arg15 : RE1 V (Proc.devRef .tc main_arg15) = V (Proc.devRef .tc main_arg15) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RE1_arg16 : RE1 V (Proc.devRef .tc main_arg16) = V (Proc.devRef .tc main_arg16) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RE1_arg17 : RE1 V (Proc.devRef .tc main_arg17) = V (Proc.devRef .tc main_arg17) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RE1_arg18 : RE1 V (Proc.devRef .tc main_arg18) = V (Proc.devRef .tc main_arg18) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RE1_arg19 : RE1 V (Proc.devRef .tc main_arg19) = V (Proc.devRef .tc main_arg19) := by
  simp only [RA, RB, RC1, RC2, RD, RE1, opsA, opsB, opsC1, opsC2, opsD, opsE1, pc0, pc1, pc2, pc3, pc4, pc5, pc6, pc7, List.cons_append, List.nil_append]
  after_results_simp
set_option maxHeartbeats 4000000 in
theorem RE1_arg20 : RE1 V (Proc.devRef .tc main_arg20) = V (Proc.devRef .tc main_arg20) := by
  simp only [RA, RB, RC1, RC2, RD, RE1, opsA, opsB, opsC1, opsC2, opsD, opsE1, pc0, pc1, pc2, pc3, pc4, pc5, pc6, pc7, List.cons_append, List.nil_append]
  after_results_simp

/-! ## Values that stay in their buffers until they are consumed -/

/-- The pooling piece does not write the clamped first aggregation. -/
theorem C2_keeps_v53 (W : Valuation τ sig (Elt F)) : after (opsC2 (F := F)) W (Proc.devRef .tc main_v53) = W (Proc.devRef .tc main_v53) := by
  simp only [opsC2, pc4, List.cons_append, List.nil_append]
  after_results_simp

/-- The third product does not write the first pooled means. -/
theorem D_keeps_v65 (W : Valuation τ sig (Elt F)) : after (opsD (F := F)) W (Proc.devRef .tc main_v65) = W (Proc.devRef .tc main_v65) := by
  simp only [opsD, pc5, List.cons_append, List.nil_append]
  after_results_simp

set_option maxHeartbeats 4000000 in
/-- The second aggregation does not write the first pooled means. -/
theorem E1_keeps_v65 (W : Valuation τ sig (Elt F)) : after (opsE1 (F := F)) W (Proc.devRef .tc main_v65) = W (Proc.devRef .tc main_v65) := by
  simp only [opsE1, pc6, pc7, List.cons_append, List.nil_append]
  after_results_simp

/-! ## The three products -/

/-- The second layer's product, of the first layer's output and the second weight matrix. -/
theorem B_v5 (W : Valuation τ sig (Elt F)) : after (opsB (F := F)) W (Proc.devRef .tc main_v5)
    = Host.dotGeneral dot_S200000x128_S128x128_S200000x128_1_0_0_1_n_n none (W (Proc.devRef .tc main_v4)) (W (Proc.devRef .tc main_arg6)) := by
  simp only [opsB, pc1, List.cons_append, List.nil_append]
  after_results_simp

/-- The third layer's product, of the clamped first aggregation and the third weight matrix. -/
theorem D_v66 (W : Valuation τ sig (Elt F)) : after (opsD (F := F)) W (Proc.devRef .tc main_v66)
    = Host.dotGeneral dot_S200000x128_S128x128_S200000x128_1_0_0_1_n_n none (W (Proc.devRef .tc main_v53)) (W (Proc.devRef .tc main_arg8)) := by
  simp only [opsD, pc5, List.cons_append, List.nil_append]
  after_results_simp

/-- The first layer: product, bias over the rows, clamp at zero. -/
theorem A_v4 (W : Valuation τ sig (Elt F)) : after (opsA (F := F)) W (Proc.devRef .tc main_v4)
    = maximumf (addf (Host.dotGeneral dot_S200000x64_S64x128_S200000x128_1_0_0_1_n_n none (W (Proc.devRef .tc main_arg0)) (W (Proc.devRef .tc main_arg4)))
                     (broadcastInDim S200000x128 ![0, 1] bcast_S1x128_S200000x128_0_1 (broadcastInDim S1x128 ![1] bcast_S128_S1x128_1 (W (Proc.devRef .tc main_arg5)))))
               (broadcastInDim S200000x128 ![] bcast_S_S200000x128 (constant (F := F) S_ .f32 0x00000000#32)) := by
  simp only [opsA, pc0, List.cons_append, List.nil_append]
  after_results_simp
  rfl

end Cert.ReferenceIdeal.RFacts

end
-- ==== Proof.LinSpec.lean ====
/-
  The dense layers of this network as whole-array functions over the extended reals, index by index.
  A layer maps a row-major array `x` of 200000 rows and `K` columns, a weight matrix `w` of `K` rows and 128 columns
  and a bias row `b` (kept as a 1 × 128 array) to the array whose entry (r, q) is  ∑ₖ x(r,k) · w(k,q) + b(0,q);
  the first layer then clamps every entry below at zero.  Both programs are compared against these functions.
-/
import Idealize.ShloMosaic.PureOps.Ideal
import Idealize.ShloMosaic.Lib.ValueIdx

noncomputable section

namespace Cert.LinSpec

open Idealize.ShloMosaic Idealize.ShloMosaic.ValueIdx

/-- Entry (r, q) of `x · w + b` for 64 input features. -/
def affine64 (x : FVec Ideal ⟨2, ![200000, 64]⟩ .f32) (w : FVec Ideal ⟨2, ![64, 128]⟩ .f32) (b : FVec Ideal ⟨2, ![1, 128]⟩ .f32) :
    FVec Ideal ⟨2, ![200000, 128]⟩ .f32 :=
  fun i => (∑ k : Fin 64, x (ix2 (i 0) k) * w (ix2 k (i 1))) + b (ix2 (0 : Fin 1) (i 1))

/-- Entry (r, q) of `x · w + b` for 128 input features. -/
def affine128 (x : FVec Ideal ⟨2, ![200000, 128]⟩ .f32) (w : FVec Ideal ⟨2, ![128, 128]⟩ .f32) (b : FVec Ideal ⟨2, ![1, 128]⟩ .f32) :
    FVec Ideal ⟨2, ![200000, 128]⟩ .f32 :=
  fun i => (∑ k : Fin 128, x (ix2 (i 0) k) * w (ix2 k (i 1))) + b (ix2 (0 : Fin 1) (i 1))

/-- The first layer: the affine map followed by the clamp at zero from below. -/
def reluAffine64 (x : FVec Ideal ⟨2, ![200000, 64]⟩ .f32) (w : FVec Ideal ⟨2, ![64, 128]⟩ .f32) (b : FVec Ideal ⟨2, ![1, 128]⟩ .f32) :
    FVec Ideal ⟨2, ![200000, 128]⟩ .f32 :=
  fun i => max (affine64 x w b i) 0

end Cert.LinSpec

end
-- ==== Proof.RefRead.lean ====
/-
  The reference network's dense layers, read entry by entry over the extended reals.
  A matrix product of an m × k array by a k × n array, taken with no accumulator, has at entry (a, b) the sum over the
  contracted coordinate c of the products x(a,c) · w(c,b).  Adding a bias row broadcast down the rows adds b(q) at
  column q, and the clamp against a broadcast zero is the maximum with 0.  So each layer of the reference is one of the
  whole-array functions of the shared specification, for every input, the infinite values included.
-/
import proofs.«144298_j83494164234286_1_alg».proof.Proof.Gen.ReferenceIdeal
import Idealize.ShloMosaic.PureOps.Ideal.Laws
import Idealize.ShloMosaic.Lib.ValueIdx
import Idealize.ShloMosaic.Lib.Pipeline.Value
import Idealize.ShloMosaic.Lib.ValueLayout
import proofs.«144298_j83494164234286_1_alg».proof.Proof.LinSpec

noncomputable section

namespace Cert.ReferenceIdeal.RefRead

open Cert.ReferenceIdeal Cert.ReferenceIdeal.Gen Idealize.ShloMosaic Idealize.ShloMosaic.ValueIdx

/-- The product of an m × k by a k × n array contracting the left operand's columns against the right operand's rows,
    read at entry (a, b): the sum over the contracted coordinate of the products of the entries.  `wf` is the
    well-formedness of the dimension numbers, which a program states. -/
theorem dot_rows_cols_apply {m k n : Nat} {φ₁ φ₂ : FTy}
    (wf : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (⟨[1], [0], [0], [1], [], [], wf⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], wf⟩ : DotDims _ _ _) k rfl rfl).symm]
  refine Finset.sum_congr rfl fun c _ => ?_
  have c2 := contrEquiv1_symm_val
    (⟨[1], [0], [0], [1], [], [], wf⟩ : DotDims ⟨2, ![m, k]⟩ ⟨2, ![k, n]⟩ ⟨2, ![m, n]⟩) k rfl rfl c
  have l2 : (⟨[1], [0], [0], [1], [], [], wf⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], wf⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The second and third dense layers of the reference: a product with no bias, which is the affine map with a zero
    bias row (adding zero changes no extended real). -/
theorem layer1 (x : FVec Ideal S200000x128 .f32) (w : FVec Ideal S128x128 .f32)
    (b1 : FVec Ideal ⟨2, ![1, 128]⟩ .f32) (hb : ∀ q : Fin 128, b1 (ix2 (0 : Fin 1) q) = 0) :
    Host.dotGeneral (F := Ideal) dot_S200000x128_S128x128_S200000x128_1_0_0_1_n_n none x w
      = Cert.LinSpec.affine128 x w b1 := by
  funext i
  obtain ⟨r, q, rfl⟩ : ∃ (r : Fin 200000) (q : Fin 128), i = ix2 r q := ⟨i 0, i 1, eq_ix2 i⟩
  refine (dot_rows_cols_apply _ none x w r q).trans ?_
  show _ = (∑ k : Fin 128, x (ix2 r k) * w (ix2 k q)) + b1 (ix2 (0 : Fin 1) q)
  rw [hb q, add_zero]

/-- A bias vector of 128 entries kept as a 1 × 128 array: entry (0, q) of the array is entry q of the vector (the
    row-major position of (0, q) in one row of 128 is q). -/
theorem row_of_reshape (b : FVec Ideal ⟨1, ![128]⟩ .f32) (h : (⟨1, ![128]⟩ : Shape).ShapeCasts ⟨2, ![1, 128]⟩) (q : Fin 128) :
    shapeCast ⟨2, ![1, 128]⟩ b h (ix2 (0 : Fin 1) q) = b (ix1 q) :=
  shapeCast_a_1a_apply b h (0 : Fin 1) q

/-- The zero scalar broadcast to 128 entries and kept as a 1 × 128 array is zero at every entry: the word of all zero
    bits denotes the real number 0. -/
theorem zero_row (hc : (⟨0, ![]⟩ : Shape).BroadcastsInDim ⟨1, ![128]⟩ ![])
    (h : (⟨1, ![128]⟩ : Shape).ShapeCasts ⟨2, ![1, 128]⟩) (q : Fin 128) :
    shapeCast ⟨2, ![1, 128]⟩
        (broadcastInDim ⟨1, ![128]⟩ ![] hc (constant (F := Ideal) ⟨0, ![]⟩ .f32 0x00000000#32)) h (ix2 (0 : Fin 1) q)
      = 0 := by
  rw [shapeCast_a_1a_apply]
  show Ideal.ofBits .f32 0x00000000#32 = 0
  exact Ideal.ofBits_zero_f32

/-- A bias vector broadcast first to one row and then down all the rows reads, at entry (r, q), entry q of the vector. -/
theorem bias_rows_apply (b : FVec Ideal S128 .f32) (r : Fin 200000) (q : Fin 128) :
    broadcastInDim S200000x128 ![0, 1] bcast_S1x128_S200000x128_0_1 (broadcastInDim S1x128 ![1] bcast_S128_S1x128_1 b) (ix2 r q)
      = b (ix1 q) := by
  rw [broadcastInDim_apply ![0, 1] bcast_S1x128_S200000x128_0_1 _ (ix2 r q) (ix2 (0 : Fin 1) q)
        (fun a => by match a with | ⟨0, _⟩ => rfl | ⟨1, _⟩ => rfl),
      broadcastInDim_apply ![1] bcast_S128_S1x128_1 b (ix2 (0 : Fin 1) q) (ix1 q)
        (fun a => by match a with | ⟨0, _⟩ => rfl)]

/-- The first dense layer of the reference: product, bias row added down the rows, clamp at zero from below. -/
theorem layer0 (x : FVec Ideal S200000x64 .f32) (w : FVec Ideal S64x128 .f32) (b : FVec Ideal S128 .f32)
    (b1 : FVec Ideal ⟨2, ![1, 128]⟩ .f32) (hb : ∀ q : Fin 128, b1 (ix2 (0 : Fin 1) q) = b (ix1 q)) :
    maximumf (addf (Host.dotGeneral (F := Ideal) dot_S200000x64_S64x128_S200000x128_1_0_0_1_n_n none x w)
                   (broadcastInDim S200000x128 ![0, 1] bcast_S1x128_S200000x128_0_1
                      (broadcastInDim S1x128 ![1] bcast_S128_S1x128_1 b)))
             (broadcastInDim S200000x128 ![] bcast_S_S200000x128 (constant (F := Ideal) S_ .f32 0x00000000#32))
      = Cert.LinSpec.reluAffine64 x w b1 := by
  funext i
  obtain ⟨r, q, rfl⟩ : ∃ (r : Fin 200000) (q : Fin 128), i = ix2 r q := ⟨i 0, i 1, eq_ix2 i⟩
  show max (Host.dotGeneral (F := Ideal) dot_S200000x64_S64x128_S200000x128_1_0_0_1_n_n none x w (ix2 r q)
            + broadcastInDim S200000x128 ![0, 1] bcast_S1x128_S200000x128_0_1
                (broadcastInDim S1x128 ![1] bcast_S128_S1x128_1 b) (ix2 r q))
           (Ideal.ofBits .f32 0x00000000#32)
      = max ((∑ k : Fin 64, x (ix2 r k) * w (ix2 k q)) + b1 (ix2 (0 : Fin 1) q)) 0
  rw [bias_rows_apply, Ideal.ofBits_zero_f32, hb q]
  exact congrArg (fun s => max (s + b (ix1 q)) 0) (dot_rows_cols_apply _ none x w r q)

end Cert.ReferenceIdeal.RefRead

end
-- ==== Proof.RegionPay0.lean ====
/-
  One grid point of each dense layer, read entry by entry over the extended reals.  A point holds a block of 4000 rows of
  the input; its result block is the block times the weight matrix (for each entry a finite sum over the input features)
  plus the bias row laid along every row; the first layer then clamps every entry below at zero.  The casts to the
  narrower float format are the identity on extended reals, and the matrix unit accumulates into zero.
-/
import proofs.«144298_j83494164234286_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx

/-! ## The contraction of a block of rows with a weight matrix, 64 input features -/

theorem lhs64_row (i : S4000x128.Idx) (k : dot_S4000x64_S64x128_S4000x128_1_0_0_1_n_n.contr.Idx) :
    (dot_S4000x64_S64x128_S4000x128_1_0_0_1_n_n.lhsIdx i k 0).val = (i 0).val := by
  unfold DotDims.lhsIdx
  rw [dif_neg (show ¬(0 : Fin S4000x64.rank) ∈ dot_S4000x64_S64x128_S4000x128_1_0_0_1_n_n.lhsBatch by decide),
    dif_pos (show (0 : Fin S4000x64.rank) ∈ dot_S4000x64_S64x128_S4000x128_1_0_0_1_n_n.lhsNonContracting by decide)]
  rfl

theorem lhs64_feat (i : S4000x128.Idx) (k : dot_S4000x64_S64x128_S4000x128_1_0_0_1_n_n.contr.Idx) :
    (dot_S4000x64_S64x128_S4000x128_1_0_0_1_n_n.lhsIdx i k 1).val = (k ⟨0, by decide⟩).val :=
  dot_S4000x64_S64x128_S4000x128_1_0_0_1_n_n.lhsIdx_val_of_single rfl i k

theorem rhs64_feat (i : S4000x128.Idx) (k : dot_S4000x64_S64x128_S4000x128_1_0_0_1_n_n.contr.Idx) :
    (dot_S4000x64_S64x128_S4000x128_1_0_0_1_n_n.rhsIdx i k 0).val = (k ⟨0, by decide⟩).val :=
  dot_S4000x64_S64x128_S4000x128_1_0_0_1_n_n.rhsIdx_val_of_single rfl i k

theorem rhs64_col (i : S4000x128.Idx) (k : dot_S4000x64_S64x128_S4000x128_1_0_0_1_n_n.contr.Idx) :
    (dot_S4000x64_S64x128_S4000x128_1_0_0_1_n_n.rhsIdx i k 1).val = (i 1).val := by
  unfold DotDims.rhsIdx
  rw [dif_neg (show ¬(1 : Fin S64x128.rank) ∈ dot_S4000x64_S64x128_S4000x128_1_0_0_1_n_n.rhsBatch by decide),
    dif_pos (show (1 : Fin S64x128.rank) ∈ dot_S4000x64_S64x128_S4000x128_1_0_0_1_n_n.rhsNonContracting by decide)]
  rfl

/-- Entry (p, q) of a 4000 × 64 block times a 64 × 128 matrix, accumulated into zero: the sum over the 64 features. -/
theorem matmul64_apply (a : FVec Ideal S4000x64 .bf16) (b : FVec Ideal S64x128 .bf16) (p : Fin 4000) (q : Fin 128) :
    matmul dot_S4000x64_S64x128_S4000x128_1_0_0_1_n_n none a b (constant (F := Ideal) S4000x128 .f32 0x00000000#32) (ix2 p q)
      = ∑ k : Fin 64, a (ix2 p k) * b (ix2 k q) := by
  simp only [matmul]
  rw [Ideal.matmul_constant_zero_apply, ← Equiv.sum_comp (contrEquiv1 dot_S4000x64_S64x128_S4000x128_1_0_0_1_n_n 64 rfl rfl).symm]
  refine Finset.sum_congr rfl fun k _ => ?_
  have hk := contrEquiv1_symm_val dot_S4000x64_S64x128_S4000x128_1_0_0_1_n_n 64 rfl rfl k
  have el : dot_S4000x64_S64x128_S4000x128_1_0_0_1_n_n.lhsIdx (ix2 p q) ((contrEquiv1 dot_S4000x64_S64x128_S4000x128_1_0_0_1_n_n 64 rfl rfl).symm k) = ix2 p k :=
    funext fun ax => Fin.ext (by
      match ax with
      | ⟨0, _⟩ => exact lhs64_row _ _
      | ⟨1, _⟩ => exact (lhs64_feat _ _).trans hk)
  have er : dot_S4000x64_S64x128_S4000x128_1_0_0_1_n_n.rhsIdx (ix2 p q) ((contrEquiv1 dot_S4000x64_S64x128_S4000x128_1_0_0_1_n_n 64 rfl rfl).symm k) = ix2 k q :=
    funext fun ax => Fin.ext (by
      match ax with
      | ⟨0, _⟩ => exact (rhs64_feat _ _).trans hk
      | ⟨1, _⟩ => exact rhs64_col _ _)
  rw [el, er]

/-- The first layer's point: entry (p, q) is the clamp at zero of the features' sum plus the bias. -/
theorem pay0_apply (x0 : Vec Ideal S4000x64 .f32) (x1 : Vec Ideal S64x128 .f32) (x2 : Vec Ideal S1x128 .f32) (p : Fin 4000) (q : Fin 128) :
    k0_pay1 x0 x1 x2 (ix2 p q) = max ((∑ k : Fin 64, x0 (ix2 p k) * x1 (ix2 k q)) + x2 (ix2 (0 : Fin 1) q)) 0 := by
  unfold k0_pay1
  rw [maximumf_apply, addf_apply, broadcast_apply]
  refine congrArg₂ max (congrArg₂ (· + ·) ?_ ?_) Ideal.ofBits_zero_f32
  · exact matmul64_apply _ _ p q
  · rw [shapeCast_self]
    exact broadcastTo_1b_ab_apply x2 _ p q

end Cert.KernelIdeal.RegionValue

end
-- ==== Proof.RegionValue0.lean ====
/-
  The first dense layer's region, as one function of the arrays the region finds.  The grid has 50 points; point t
  holds rows 4000 t … 4000 t + 3999 of the 200000 × 64 input, the whole 64 × 128 weight matrix and the whole bias row,
  and writes back rows 4000 t … 4000 t + 3999 of the 200000 × 128 result.  Entry (p, q) of a point's block is
  max(∑ₖ x(4000 t + p, k) · w(k, q) + b(0, q), 0), which is entry (4000 t + p, q) of the layer's whole-array function;
  row r belongs to point r / 4000, so the 50 blocks fill the array and it ends holding that function.
-/
import proofs.«144298_j83494164234286_1_alg».proof.Proof.Gen.KernelIdeal.Frame
import proofs.«144298_j83494164234286_1_alg».proof.Proof.LinSpec
import proofs.«144298_j83494164234286_1_alg».proof.Proof.RegionPay0
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem Idealize.ShloMosaic.Pipeline
open Idealize.ShloMosaic.ValueIdx

variable (V : (c : Dev nD) → (b : Ref sig .tc) → Buf (Elt Ideal) ((c : Thread nD τ).loc b))

theorem zeroOffsets : (![0, 0] : Fin 2 → Nat) = fun _ => 0 := funext fun a => by fin_cases a <;> rfl

/-- The block index maps of the first layer over its 50 points: the input rows and the result rows move with the point,
    the weight matrix and the bias row stay. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input window's block at point t holds rows 4000 t … 4000 t + 3999 of the input. -/
theorem inRows0 (c : Dev nD) (t : Fin cfg0.N) (p : Fin 4000) (k : Fin 64) (r : Fin 200000) (hr : r.val = 4000 * t.val + p.val) :
    (iblk0 V c 0 t : Vec Ideal S4000x64 .f32) (ix2 p k) = (V c main_arg0 : S200000x64.Idx → EReal) (ix2 r k) := by
  obtain ⟨e0, e1, -⟩ := blockIdx0 t
  unfold iblk0
  rw [View.read_apply]
  show V c main_arg0 _ = V c main_arg0 _
  congr 1
  funext a
  apply Fin.ext
  match a with
  | ⟨0, _⟩ => show win0_0.index t (0 : Fin 2) * 4000 + 1 * p.val = r.val; rw [e0, hr]; omega
  | ⟨1, _⟩ => show win0_0.index t (1 : Fin 2) * 64 + 1 * k.val = k.val; rw [e1]; omega

/-- The weight window's block at every point is the whole 64 × 128 weight matrix. -/
theorem weights0 (c : Dev nD) (t : Fin cfg0.N) : (iblk0 V c 1 t : Vec Ideal S64x128 .f32) = V c main_arg4 := by
  obtain ⟨-, -, e0, e1, -⟩ := blockIdx0 t
  funext j
  unfold iblk0
  rw [View.read_apply]
  show V c main_arg4 _ = V c main_arg4 _
  congr 1
  funext a
  apply Fin.ext
  match a with
  | ⟨0, _⟩ => show win0_1.index t (0 : Fin 2) * 64 + 1 * (j 0).val = (j 0).val; rw [e0]; omega
  | ⟨1, _⟩ => show win0_1.index t (1 : Fin 2) * 128 + 1 * (j 1).val = (j 1).val; rw [e1]; omega

/-- The bias window's block at every point is the whole bias row. -/
theorem bias0 (c : Dev nD) (t : Fin cfg0.N) : (iblk0 V c 2 t : Vec Ideal S1x128 .f32) = V c main_v1 := by
  obtain ⟨-, -, -, -, e0, e1, -⟩ := blockIdx0 t
  funext j
  unfold iblk0
  rw [View.read_apply]
  show V c main_v1 _ = V c main_v1 _
  congr 1
  funext a
  apply Fin.ext
  match a with
  | ⟨0, _⟩ => show win0_2.index t (0 : Fin 2) * 1 + 1 * (j 0).val = (j 0).val; rw [e0]; omega
  | ⟨1, _⟩ => show win0_2.index t (1 : Fin 2) * 128 + 1 * (j 1).val = (j 1).val; rw [e1]; omega

/-- What point t writes back: rows 4000 t … 4000 t + 3999 of the layer's whole-array function. -/
theorem flushed0 (c : Dev nD) (t : Fin cfg0.N) :
    (dat0 (F := Ideal) V c).flushed 3 t
      = ((cfg0.win 3).blk t).view.read (Elt Ideal) (Cert.LinSpec.reluAffine64 (V c main_arg0) (V c main_arg4) (V c main_v1)) := by
  show (cfg0.win 3).cut (grid0.coords t) ((dat0 V c).after 3 t) = _
  rw [after0_3]
  unfold out0_3
  rw [View.canon_unit_zero zeroOffsets]
  simp only [View.ld_unit_zero (S := S4000x64) zeroOffsets, View.ld_unit_zero (S := S64x128) zeroOffsets,
    View.ld_unit_zero (S := S1x128) zeroOffsets]
  rw [weights0, bias0]
  obtain ⟨-, -, -, -, -, -, e0, e1⟩ := blockIdx0 t
  have ht : t.val < 50 := by have h := t.isLt; have hN : cfg0.N = 50 := N_0; omega
  funext j
  obtain ⟨p, q, rfl⟩ : ∃ (p : Fin 4000) (q : Fin 128), j = ix2 p q := ⟨j 0, j 1, eq_ix2 j⟩
  have hr : 4000 * t.val + p.val < 200000 := by have := p.isLt; omega
  show k0_pay1 (iblk0 V c 0 t) (V c main_arg4) (V c main_v1) (ix2 p q)
    = Cert.LinSpec.reluAffine64 (V c main_arg0) (V c main_arg4) (V c main_v1) (((cfg0.win 3).blk t).view.emb (ix2 p q))
  have hemb : ((cfg0.win 3).blk t).view.emb (ix2 p q) = ix2 (⟨4000 * t.val + p.val, hr⟩ : Fin 200000) q := by
    funext a; apply Fin.ext
    match a with
    | ⟨0, _⟩ => show win0_3.index t (0 : Fin 2) * 4000 + 1 * p.val = 4000 * t.val + p.val; rw [e0]; omega
    | ⟨1, _⟩ => show win0_3.index t (1 : Fin 2) * 128 + 1 * q.val = q.val; rw [e1]; omega
  rw [hemb, pay0_apply]
  refine congrArg₂ max (congrArg₂ (· + ·) (Finset.sum_congr rfl fun k _ => ?_) rfl) rfl
  rw [inRows0 V c t p k ⟨_, hr⟩ rfl]

/-- An entry of the result array lies in point t's block exactly when each coordinate lies in the block's range. -/
theorem mem_block0 (t : Fin cfg0.N) (i : S200000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v2).slice (win0_3.rect t)).set ↔ _
  rw [View.set_slice_whole, Rect.mem_set_unit]
  exact Iff.rfl

/-- Row r of the result is written back by point r / 4000: the 50 blocks of 4000 rows fill the 200000 rows. -/
theorem cover0 (i : S200000x128.Idx) : ∃ t : Fin cfg0.N, (cfg0.win 3).flush t = true ∧ i ∈ ((cfg0.win 3).blk t).view.set := by
  have hi0 : (i 0).val < 200000 := (i 0).isLt
  have hi1 : (i 1).val < 128 := (i 1).isLt
  have hN : cfg0.N = 50 := N_0
  have ht : (i 0).val / 4000 < cfg0.N := by rw [hN]; omega
  obtain ⟨-, -, -, -, -, -, e0, e1⟩ := blockIdx0 ⟨(i 0).val / 4000, ht⟩
  refine ⟨⟨(i 0).val / 4000, ht⟩, flush0_3 _, ?_⟩
  rw [mem_block0]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_3.index ⟨(i 0).val / 4000, ht⟩ (1 : Fin 2) * 128 ≤ (i 1).val
      ∧ (i 1).val < win0_3.index ⟨(i 0).val / 4000, ht⟩ (1 : Fin 2) * 128 + 128
    rw [e1]; omega

/-- The first layer's region: the result array ends holding the layer's whole-array function of the region's inputs. -/
theorem region0 (c : Dev nD) :
    (dat0 (F := Ideal) V c).arrAt 3 cfg0.N = Cert.LinSpec.reluAffine64 (V c main_arg0) (V c main_arg4) (V c main_v1) :=
  (dat0 (F := Ideal) V c).arrAt_eq_of_cover 3 _ (fun t _ => flushed0 V c t) cover0

end Cert.KernelIdeal.RegionValue

end
-- ==== Proof.RegionLemmas.lean ====
/-
  Two facts about one dense layer's arithmetic over the extended reals, for any sizes.
  A matrix product of an m × k array by a k × n array accumulated onto the all-zero array has, at entry (a, b), the sum
  over the contracted coordinate c of the products x(a,c) · w(c,b): adding the zero accumulator changes nothing, and the
  contraction's index set, which has one axis of extent k, is re-indexed by that axis's coordinate.
-/
import Idealize.ShloMosaic.PureOps.Ideal.Laws
import Idealize.ShloMosaic.Lib.ValueIdx

noncomputable section

namespace Cert.KernelIdeal.RegionLemmas

open Idealize.ShloMosaic Idealize.ShloMosaic.ValueIdx

/-- The contraction of the left operand's columns against the right operand's rows, as a sum over the one contracted
    coordinate: at output entry (a, b) and contracted coordinate c the operands are read at (a, c) and (c, b). -/
theorem sum_rows_cols {m k n : Nat} {φ₁ φ₂ : FTy}
    (wf : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    (∑ κ : (⟨[1], [0], [0], [1], [], [], wf⟩ : DotDims ⟨2, ![m, k]⟩ ⟨2, ![k, n]⟩ ⟨2, ![m, n]⟩).contr.Idx,
        A ((⟨[1], [0], [0], [1], [], [], wf⟩ : DotDims ⟨2, ![m, k]⟩ ⟨2, ![k, n]⟩ ⟨2, ![m, n]⟩).lhsIdx (ix2 a b) κ)
          * B ((⟨[1], [0], [0], [1], [], [], wf⟩ : DotDims ⟨2, ![m, k]⟩ ⟨2, ![k, n]⟩ ⟨2, ![m, n]⟩).rhsIdx (ix2 a b) κ))
      = ∑ c : Fin k, A (ix2 a c) * B (ix2 c b) := by
  rw [← Equiv.sum_comp (contrEquiv1 (⟨[1], [0], [0], [1], [], [], wf⟩ : DotDims _ _ _) k rfl rfl).symm]
  refine Finset.sum_congr rfl fun c _ => ?_
  have c2 := contrEquiv1_symm_val
    (⟨[1], [0], [0], [1], [], [], wf⟩ : DotDims ⟨2, ![m, k]⟩ ⟨2, ![k, n]⟩ ⟨2, ![m, n]⟩) k rfl rfl c
  have l2 : (⟨[1], [0], [0], [1], [], [], wf⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], wf⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The product accumulated onto the all-zero array, read at entry (a, b). -/
theorem matmul_zero_rows_cols_apply {m k n : Nat} {φ₁ φ₂ : FTy}
    (wf : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], wf⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply]
  exact sum_rows_cols wf A B a b

end Cert.KernelIdeal.RegionLemmas

end
-- ==== Proof.RegionPay12.lean ====
/-
  One grid point of the second and of the third dense layer, read entry by entry over the extended reals.  A point holds
  a block of 4000 rows of the layer's input; its result block is the block times the 128 × 128 weight matrix (for each
  entry a finite sum over the 128 input features) plus the bias row laid along every row.  The casts to the narrower
  float format are the identity on extended reals, and the matrix unit accumulates into zero.
-/
import proofs.«144298_j83494164234286_1_alg».proof.Proof.Gen.KernelIdeal.Skeleton
import proofs.«144298_j83494164234286_1_alg».proof.Proof.RegionLemmas
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.ValueIdx

/-- The pair of zero offsets, as the constant-zero function. -/
theorem zeroOffsets12 : (![0, 0] : Fin 2 → Nat) = fun _ => 0 := funext fun a => by fin_cases a <;> rfl

/-- Region 1's point: entry (p, q) of the result block is the sum over the 128 input features of the block's row p
    against the weight matrix's column q, plus the bias row's entry q.  The cast of a block to its own shape and the
    casts to the narrower float format change nothing. -/
theorem pay1_apply (x0 : Vec Ideal S4000x128 .f32) (x1 : Vec Ideal S128x128 .f32) (x2 : Vec Ideal S1x128 .f32)
    (p : Fin 4000) (q : Fin 128) :
    k1_pay1 x0 x1 x2 (ix2 p q) = (∑ k : Fin 128, x0 (ix2 p k) * x1 (ix2 k q)) + x2 (ix2 (0 : Fin 1) q) := by
  unfold k1_pay1
  simp only [shapeCast_self]
  show FloatOps.matmul dot_S4000x128_S128x128_S4000x128_1_0_0_1_n_n none (truncf .bf16 x0 bitsLt_bf16_f32)
        (truncf .bf16 x1 bitsLt_bf16_f32) (constant (F := Ideal) S4000x128 .f32 0x00000000#32) (ix2 p q)
      + broadcastTo S4000x128 x2 broadcasts_S1x128_S4000x128 (ix2 p q) = _
  rw [broadcastTo_1b_ab_apply]
  exact congrArg (· + x2 (ix2 (0 : Fin 1) q))
    (RegionLemmas.matmul_zero_rows_cols_apply _ none (truncf .bf16 x0 bitsLt_bf16_f32) (truncf .bf16 x1 bitsLt_bf16_f32) p q)

/-- Region 2's point: entry (p, q) of the result block is the sum over the 128 input features of the block's row p
    against the weight matrix's column q, plus the bias row's entry q.  The cast of a block to its own shape and the
    casts to the narrower float format change nothing. -/
theorem pay2_apply (x0 : Vec Ideal S4000x128 .f32) (x1 : Vec Ideal S128x128 .f32) (x2 : Vec Ideal S1x128 .f32)
    (p : Fin 4000) (q : Fin 128) :
    k2_pay1 x0 x1 x2 (ix2 p q) = (∑ k : Fin 128, x0 (ix2 p k) * x1 (ix2 k q)) + x2 (ix2 (0 : Fin 1) q) := by
  unfold k2_pay1
  simp only [shapeCast_self]
  show FloatOps.matmul dot_S4000x128_S128x128_S4000x128_1_0_0_1_n_n none (truncf .bf16 x0 bitsLt_bf16_f32)
        (truncf .bf16 x1 bitsLt_bf16_f32) (constant (F := Ideal) S4000x128 .f32 0x00000000#32) (ix2 p q)
      + broadcastTo S4000x128 x2 broadcasts_S1x128_S4000x128 (ix2 p q) = _
  rw [broadcastTo_1b_ab_apply]
  exact congrArg (· + x2 (ix2 (0 : Fin 1) q))
    (RegionLemmas.matmul_zero_rows_cols_apply _ none (truncf .bf16 x0 bitsLt_bf16_f32) (truncf .bf16 x1 bitsLt_bf16_f32) p q)

end Cert.KernelIdeal.RegionValue

end
-- ==== Proof.RegionValue1.lean ====
/-
  The second dense layer's region, as one function of the arrays the region finds.  The grid has 50 points; point t
  holds rows 4000 t … 4000 t + 3999 of the 200000 × 128 input, the whole 128 × 128 weight matrix and the whole bias row,
  and writes back rows 4000 t … 4000 t + 3999 of the 200000 × 128 result.  Entry (p, q) of a point's block is
  ∑ₖ x(4000 t + p, k) · w(k, q) + b(0, q), which is entry (4000 t + p, q) of the layer's whole-array function;
  row r belongs to point r / 4000, so the 50 blocks fill the array and it ends holding that function.
-/
import proofs.«144298_j83494164234286_1_alg».proof.Proof.Gen.KernelIdeal.Frame
import proofs.«144298_j83494164234286_1_alg».proof.Proof.LinSpec
import proofs.«144298_j83494164234286_1_alg».proof.Proof.RegionPay12
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem Idealize.ShloMosaic.Pipeline
open Idealize.ShloMosaic.ValueIdx

variable (V : (c : Dev nD) → (b : Ref sig .tc) → Buf (Elt Ideal) ((c : Thread nD τ).loc b))

/-- The block index maps of the second layer over its 50 points: the input rows and the result rows move with the point,
    the weight matrix and the bias row stay. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input window's block at point t holds rows 4000 t … 4000 t + 3999 of the input. -/
theorem inRows1 (c : Dev nD) (t : Fin cfg1.N) (p : Fin 4000) (k : Fin 128) (r : Fin 200000) (hr : r.val = 4000 * t.val + p.val) :
    (iblk1 V c 0 t : Vec Ideal S4000x128 .f32) (ix2 p k) = (V c main_v2 : S200000x128.Idx → EReal) (ix2 r k) := by
  obtain ⟨e0, e1, -⟩ := blockIdx1 t
  unfold iblk1
  rw [View.read_apply]
  show V c main_v2 _ = V c main_v2 _
  congr 1
  funext a
  apply Fin.ext
  match a with
  | ⟨0, _⟩ => show win1_0.index t (0 : Fin 2) * 4000 + 1 * p.val = r.val; rw [e0, hr]; omega
  | ⟨1, _⟩ => show win1_0.index t (1 : Fin 2) * 128 + 1 * k.val = k.val; rw [e1]; omega

/-- The weight window's block at every point is the whole 128 × 128 weight matrix. -/
theorem weights1 (c : Dev nD) (t : Fin cfg1.N) : (iblk1 V c 1 t : Vec Ideal S128x128 .f32) = V c main_arg6 := by
  obtain ⟨-, -, e0, e1, -⟩ := blockIdx1 t
  funext j
  unfold iblk1
  rw [View.read_apply]
  show V c main_arg6 _ = V c main_arg6 _
  congr 1
  funext a
  apply Fin.ext
  match a with
  | ⟨0, _⟩ => show win1_1.index t (0 : Fin 2) * 128 + 1 * (j 0).val = (j 0).val; rw [e0]; omega
  | ⟨1, _⟩ => show win1_1.index t (1 : Fin 2) * 128 + 1 * (j 1).val = (j 1).val; rw [e1]; omega

/-- The bias window's block at every point is the whole bias row. -/
theorem bias1 (c : Dev nD) (t : Fin cfg1.N) : (iblk1 V c 2 t : Vec Ideal S1x128 .f32) = V c main_v3 := by
  obtain ⟨-, -, -, -, e0, e1, -⟩ := blockIdx1 t
  funext j
  unfold iblk1
  rw [View.read_apply]
  show V c main_v3 _ = V c main_v3 _
  congr 1
  funext a
  apply Fin.ext
  match a with
  | ⟨0, _⟩ => show win1_2.index t (0 : Fin 2) * 1 + 1 * (j 0).val = (j 0).val; rw [e0]; omega
  | ⟨1, _⟩ => show win1_2.index t (1 : Fin 2) * 128 + 1 * (j 1).val = (j 1).val; rw [e1]; omega

/-- What point t writes back: rows 4000 t … 4000 t + 3999 of the layer's whole-array function. -/
theorem flushed1 (c : Dev nD) (t : Fin cfg1.N) :
    (dat1 (F := Ideal) V c).flushed 3 t
      = ((cfg1.win 3).blk t).view.read (Elt Ideal) (Cert.LinSpec.affine128 (V c main_v2) (V c main_arg6) (V c main_v3)) := by
  show (cfg1.win 3).cut (grid1.coords t) ((dat1 V c).after 3 t) = _
  rw [after1_3]
  unfold out1_3
  rw [View.canon_unit_zero zeroOffsets12]
  simp only [View.ld_unit_zero (S := S4000x128) zeroOffsets12, View.ld_unit_zero (S := S128x128) zeroOffsets12,
    View.ld_unit_zero (S := S1x128) zeroOffsets12]
  rw [weights1, bias1]
  obtain ⟨-, -, -, -, -, -, e0, e1⟩ := blockIdx1 t
  have ht : t.val < 50 := by have h := t.isLt; have hN : cfg1.N = 50 := N_1; omega
  funext j
  obtain ⟨p, q, rfl⟩ : ∃ (p : Fin 4000) (q : Fin 128), j = ix2 p q := ⟨j 0, j 1, eq_ix2 j⟩
  have hr : 4000 * t.val + p.val < 200000 := by have := p.isLt; omega
  show k1_pay1 (iblk1 V c 0 t) (V c main_arg6) (V c main_v3) (ix2 p q)
    = Cert.LinSpec.affine128 (V c main_v2) (V c main_arg6) (V c main_v3) (((cfg1.win 3).blk t).view.emb (ix2 p q))
  have hemb : ((cfg1.win 3).blk t).view.emb (ix2 p q) = ix2 (⟨4000 * t.val + p.val, hr⟩ : Fin 200000) q := by
    funext a; apply Fin.ext
    match a with
    | ⟨0, _⟩ => show win1_3.index t (0 : Fin 2) * 4000 + 1 * p.val = 4000 * t.val + p.val; rw [e0]; omega
    | ⟨1, _⟩ => show win1_3.index t (1 : Fin 2) * 128 + 1 * q.val = q.val; rw [e1]; omega
  rw [hemb, pay1_apply]
  refine congrArg₂ (· + ·) (Finset.sum_congr rfl fun k _ => ?_) rfl
  rw [inRows1 V c t p k ⟨_, hr⟩ rfl]

/-- An entry of the result array lies in point t's block exactly when each coordinate lies in the block's range. -/
theorem mem_block1 (t : Fin cfg1.N) (i : S200000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v4).slice (win1_3.rect t)).set ↔ _
  rw [View.set_slice_whole, Rect.mem_set_unit]
  exact Iff.rfl

/-- Row r of the result is written back by point r / 4000: the 50 blocks of 4000 rows fill the 200000 rows. -/
theorem cover1 (i : S200000x128.Idx) : ∃ t : Fin cfg1.N, (cfg1.win 3).flush t = true ∧ i ∈ ((cfg1.win 3).blk t).view.set := by
  have hi0 : (i 0).val < 200000 := (i 0).isLt
  have hi1 : (i 1).val < 128 := (i 1).isLt
  have hN : cfg1.N = 50 := N_1
  have ht : (i 0).val / 4000 < cfg1.N := by rw [hN]; omega
  obtain ⟨-, -, -, -, -, -, e0, e1⟩ := blockIdx1 ⟨(i 0).val / 4000, ht⟩
  refine ⟨⟨(i 0).val / 4000, ht⟩, flush1_3 _, ?_⟩
  rw [mem_block1]
  intro a
  match a with
  | ⟨0, _⟩ =>
    show win1_3.index ⟨(i 0).val / 4000, ht⟩ (0 : Fin 2) * 4000 ≤ (i 0).val
      ∧ (i 0).val < win1_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_3.index ⟨(i 0).val / 4000, ht⟩ (1 : Fin 2) * 128 ≤ (i 1).val
      ∧ (i 1).val < win1_3.index ⟨(i 0).val / 4000, ht⟩ (1 : Fin 2) * 128 + 128
    rw [e1]; omega

/-- The second layer's region: the result array ends holding the layer's whole-array function of the region's inputs. -/
theorem region1 (c : Dev nD) :
    (dat1 (F := Ideal) V c).arrAt 3 cfg1.N = Cert.LinSpec.affine128 (V c main_v2) (V c main_arg6) (V c main_v3) :=
  (dat1 (F := Ideal) V c).arrAt_eq_of_cover 3 _ (fun t _ => flushed1 V c t) cover1

end Cert.KernelIdeal.RegionValue

end
-- ==== Proof.RegionValue2.lean ====
/-
  The third dense layer's region, as one function of the arrays the region finds.  The grid has 50 points; point t
  holds rows 4000 t … 4000 t + 3999 of the 200000 × 128 input, the whole 128 × 128 weight matrix and the whole bias row,
  and writes back rows 4000 t … 4000 t + 3999 of the 200000 × 128 result.  Entry (p, q) of a point's block is
  ∑ₖ x(4000 t + p, k) · w(k, q) + b(0, q), which is entry (4000 t + p, q) of the layer's whole-array function;
  row r belongs to point r / 4000, so the 50 blocks fill the array and it ends holding that function.
-/
import proofs.«144298_j83494164234286_1_alg».proof.Proof.Gen.KernelIdeal.Frame
import proofs.«144298_j83494164234286_1_alg».proof.Proof.LinSpec
import proofs.«144298_j83494164234286_1_alg».proof.Proof.RegionPay12
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem Idealize.ShloMosaic.Pipeline
open Idealize.ShloMosaic.ValueIdx

variable (V : (c : Dev nD) → (b : Ref sig .tc) → Buf (Elt Ideal) ((c : Thread nD τ).loc b))

/-- The block index maps of the third layer over its 50 points: the input rows and the result rows move with the point,
    the weight matrix and the bias row stay. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input window's block at point t holds rows 4000 t … 4000 t + 3999 of the input. -/
theorem inRows2 (c : Dev nD) (t : Fin cfg2.N) (p : Fin 4000) (k : Fin 128) (r : Fin 200000) (hr : r.val = 4000 * t.val + p.val) :
    (iblk2 V c 0 t : Vec Ideal S4000x128 .f32) (ix2 p k) = (V c main_v51 : S200000x128.Idx → EReal) (ix2 r k) := by
  obtain ⟨e0, e1, -⟩ := blockIdx2 t
  unfold iblk2
  rw [View.read_apply]
  show V c main_v51 _ = V c main_v51 _
  congr 1
  funext a
  apply Fin.ext
  match a with
  | ⟨0, _⟩ => show win2_0.index t (0 : Fin 2) * 4000 + 1 * p.val = r.val; rw [e0, hr]; omega
  | ⟨1, _⟩ => show win2_0.index t (1 : Fin 2) * 128 + 1 * k.val = k.val; rw [e1]; omega

/-- The weight window's block at every point is the whole 128 × 128 weight matrix. -/
theorem weights2 (c : Dev nD) (t : Fin cfg2.N) : (iblk2 V c 1 t : Vec Ideal S128x128 .f32) = V c main_arg8 := by
  obtain ⟨-, -, e0, e1, -⟩ := blockIdx2 t
  funext j
  unfold iblk2
  rw [View.read_apply]
  show V c main_arg8 _ = V c main_arg8 _
  congr 1
  funext a
  apply Fin.ext
  match a with
  | ⟨0, _⟩ => show win2_1.index t (0 : Fin 2) * 128 + 1 * (j 0).val = (j 0).val; rw [e0]; omega
  | ⟨1, _⟩ => show win2_1.index t (1 : Fin 2) * 128 + 1 * (j 1).val = (j 1).val; rw [e1]; omega

/-- The bias window's block at every point is the whole bias row. -/
theorem bias2 (c : Dev nD) (t : Fin cfg2.N) : (iblk2 V c 2 t : Vec Ideal S1x128 .f32) = V c main_v64 := by
  obtain ⟨-, -, -, -, e0, e1, -⟩ := blockIdx2 t
  funext j
  unfold iblk2
  rw [View.read_apply]
  show V c main_v64 _ = V c main_v64 _
  congr 1
  funext a
  apply Fin.ext
  match a with
  | ⟨0, _⟩ => show win2_2.index t (0 : Fin 2) * 1 + 1 * (j 0).val = (j 0).val; rw [e0]; omega
  | ⟨1, _⟩ => show win2_2.index t (1 : Fin 2) * 128 + 1 * (j 1).val = (j 1).val; rw [e1]; omega

/-- What point t writes back: rows 4000 t … 4000 t + 3999 of the layer's whole-array function. -/
theorem flushed2 (c : Dev nD) (t : Fin cfg2.N) :
    (dat2 (F := Ideal) V c).flushed 3 t
      = ((cfg2.win 3).blk t).view.read (Elt Ideal) (Cert.LinSpec.affine128 (V c main_v51) (V c main_arg8) (V c main_v64)) := by
  show (cfg2.win 3).cut (grid2.coords t) ((dat2 V c).after 3 t) = _
  rw [after2_3]
  unfold out2_3
  rw [View.canon_unit_zero zeroOffsets12]
  simp only [View.ld_unit_zero (S := S4000x128) zeroOffsets12, View.ld_unit_zero (S := S128x128) zeroOffsets12,
    View.ld_unit_zero (S := S1x128) zeroOffsets12]
  rw [weights2, bias2]
  obtain ⟨-, -, -, -, -, -, e0, e1⟩ := blockIdx2 t
  have ht : t.val < 50 := by have h := t.isLt; have hN : cfg2.N = 50 := N_2; omega
  funext j
  obtain ⟨p, q, rfl⟩ : ∃ (p : Fin 4000) (q : Fin 128), j = ix2 p q := ⟨j 0, j 1, eq_ix2 j⟩
  have hr : 4000 * t.val + p.val < 200000 := by have := p.isLt; omega
  show k2_pay1 (iblk2 V c 0 t) (V c main_arg8) (V c main_v64) (ix2 p q)
    = Cert.LinSpec.affine128 (V c main_v51) (V c main_arg8) (V c main_v64) (((cfg2.win 3).blk t).view.emb (ix2 p q))
  have hemb : ((cfg2.win 3).blk t).view.emb (ix2 p q) = ix2 (⟨4000 * t.val + p.val, hr⟩ : Fin 200000) q := by
    funext a; apply Fin.ext
    match a with
    | ⟨0, _⟩ => show win2_3.index t (0 : Fin 2) * 4000 + 1 * p.val = 4000 * t.val + p.val; rw [e0]; omega
    | ⟨1, _⟩ => show win2_3.index t (1 : Fin 2) * 128 + 1 * q.val = q.val; rw [e1]; omega
  rw [hemb, pay2_apply]
  refine congrArg₂ (· + ·) (Finset.sum_congr rfl fun k _ => ?_) rfl
  rw [inRows2 V c t p k ⟨_, hr⟩ rfl]

/-- An entry of the result array lies in point t's block exactly when each coordinate lies in the block's range. -/
theorem mem_block2 (t : Fin cfg2.N) (i : S200000x128.Idx) :
    i ∈ ((cfg2.win 3).blk t).view.set ↔ ∀ a : Fin 2, win2_3.index t a * S4000x128.size a ≤ (i a).val
      ∧ (i a).val < win2_3.index t a * S4000x128.size a + S4000x128.size a := by
  show i ∈ ((View.whole main_v65).slice (win2_3.rect t)).set ↔ _
  rw [View.set_slice_whole, Rect.mem_set_unit]
  exact Iff.rfl

/-- Row r of the result is written back by point r / 4000: the 50 blocks of 4000 rows fill the 200000 rows. -/
theorem cover2 (i : S200000x128.Idx) : ∃ t : Fin cfg2.N, (cfg2.win 3).flush t = true ∧ i ∈ ((cfg2.win 3).blk t).view.set := by
  have hi0 : (i 0).val < 200000 := (i 0).isLt
  have hi1 : (i 1).val < 128 := (i 1).isLt
  have hN : cfg2.N = 50 := N_2
  have ht : (i 0).val / 4000 < cfg2.N := by rw [hN]; omega
  obtain ⟨-, -, -, -, -, -, e0, e1⟩ := blockIdx2 ⟨(i 0).val / 4000, ht⟩
  refine ⟨⟨(i 0).val / 4000, ht⟩, flush2_3 _, ?_⟩
  rw [mem_block2]
  intro a
  match a with
  | ⟨0, _⟩ =>
    show win2_3.index ⟨(i 0).val / 4000, ht⟩ (0 : Fin 2) * 4000 ≤ (i 0).val
      ∧ (i 0).val < win2_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_3.index ⟨(i 0).val / 4000, ht⟩ (1 : Fin 2) * 128 ≤ (i 1).val
      ∧ (i 1).val < win2_3.index ⟨(i 0).val / 4000, ht⟩ (1 : Fin 2) * 128 + 128
    rw [e1]; omega

/-- The third layer's region: the result array ends holding the layer's whole-array function of the region's inputs. -/
theorem region2 (c : Dev nD) :
    (dat2 (F := Ideal) V c).arrAt 3 cfg2.N = Cert.LinSpec.affine128 (V c main_v51) (V c main_arg8) (V c main_v64) :=
  (dat2 (F := Ideal) V c).arrAt_eq_of_cover 3 _ (fun t _ => flushed2 V c t) cover2

end Cert.KernelIdeal.RegionValue

end
-- ==== Proof.BridgeTypes.lean ====
/-
  Names for the two devices' buffer contents.
-/
import proofs.«144298_j83494164234286_1_alg».proof.Proof.Gen.KernelIdeal.Launch
import proofs.«144298_j83494164234286_1_alg».proof.Proof.RefOps
import Idealize.ShloMosaic.Lib.StableHlo.Run

noncomputable section

namespace Cert.Bridge

open Idealize.ShloMosaic Idealize.ShloMosaic.TcCoe Idealize.SL.Sem Idealize.ShloMosaic.StableHlo

/-- Buffer contents of the kernel program's device. -/
abbrev ValK (F : FTy → Type) [FloatOps F] := Valuation Cert.KernelIdeal.τ Cert.KernelIdeal.sig (Elt F)
/-- Buffer contents of the reference program's device. -/
abbrev ValR (F : FTy → Type) [FloatOps F] := Valuation Cert.ReferenceIdeal.τ Cert.ReferenceIdeal.sig (Elt F)

end Cert.Bridge

end
-- ==== Proof.SimAgg1.lean ====
/-
  Between the second and the third dense layer both programs apply the SAME host operations to the second layer's output:
  the degree counts of the incidence lists, their guarded reciprocals, the gather of the rows along the node list, the
  scatter-sum into the hyperedge bins, the scaling, the gather back along the hyperedge list, the scatter-sum into the node
  bins, the scaling, the bias and the clamp at zero.  Read as a function of the layer output, the two index lists and the
  bias, the kernel program's chain and the reference's chain are one and the same term; nothing inside is opened.
-/
import proofs.«144298_j83494164234286_1_alg».proof.Proof.Gen.KernelIdeal.Launch
import proofs.«144298_j83494164234286_1_alg».proof.Proof.RefOps
import proofs.«144298_j83494164234286_1_alg».proof.Proof.BridgeTypes
import Idealize.ShloMosaic.Lib.StableHlo.Run

noncomputable section

namespace Cert.Bridge

open Idealize.ShloMosaic Idealize.ShloMosaic.TcCoe Idealize.SL.Sem Idealize.ShloMosaic.StableHlo
open Cert.ReferenceIdeal.RefRun (pc0 pc1 pc2 pc3 pc4 pc5 pc6 pc7 pc8 pc9 opsA opsB opsC1 opsC2 opsD opsE1 opsE2)

variable {F : FTy → Type} [FloatOps F]

/-- The kernel program's operations from the second layer's output to the clamped first aggregation. -/
abbrev aggK1 (V : ValK F) : ValK F := after Cert.KernelIdeal.Gen.hostOps2_5 (after Cert.KernelIdeal.Gen.hostOps2_4 (after Cert.KernelIdeal.Gen.hostOps2_3 (after Cert.KernelIdeal.Gen.hostOps2_2 (after Cert.KernelIdeal.Gen.hostOps2_1 (after Cert.KernelIdeal.Gen.hostOps2 (V))))))

set_option maxHeartbeats 8000000 in
/-- Same layer output, same incidence lists, same bias: the same clamped aggregation. -/
theorem agg1_eq (VK : ValK F) (VR : ValR F)
    (hx : VK (Proc.devRef .tc Cert.KernelIdeal.main_v4) = VR (Proc.devRef .tc Cert.ReferenceIdeal.main_v5))
    (h1 : VK (Proc.devRef .tc Cert.KernelIdeal.main_arg1) = VR (Proc.devRef .tc Cert.ReferenceIdeal.main_arg1))
    (h2 : VK (Proc.devRef .tc Cert.KernelIdeal.main_arg2) = VR (Proc.devRef .tc Cert.ReferenceIdeal.main_arg2))
    (h7 : VK (Proc.devRef .tc Cert.KernelIdeal.main_arg7) = VR (Proc.devRef .tc Cert.ReferenceIdeal.main_arg7)) :
    aggK1 VK (Proc.devRef .tc Cert.KernelIdeal.main_v51) = after (opsC1 (F := F)) VR (Proc.devRef .tc Cert.ReferenceIdeal.main_v53) := by
  simp only [opsC1, pc2, pc3, List.cons_append, List.nil_append]
  after_results_simp
  simp only [hx, h1, h2, h7]
  rfl

end Cert.Bridge

end
-- ==== Proof.SimPool1.lean ====
/-
  After the first aggregation both programs pool its rows into the sixteen graphs of the batch: the scatter-sum of the rows
  along the batch list, the count of rows per graph clamped below at one, and the quotient.  The same operations on the same
  rows and the same batch list: one term.
-/
import proofs.«144298_j83494164234286_1_alg».proof.Proof.Gen.KernelIdeal.Launch
import proofs.«144298_j83494164234286_1_alg».proof.Proof.RefOps
import proofs.«144298_j83494164234286_1_alg».proof.Proof.BridgeTypes
import Idealize.ShloMosaic.Lib.StableHlo.Run

noncomputable section

namespace Cert.Bridge

open Idealize.ShloMosaic Idealize.ShloMosaic.TcCoe Idealize.SL.Sem Idealize.ShloMosaic.StableHlo
open Cert.ReferenceIdeal.RefRun (pc0 pc1 pc2 pc3 pc4 pc5 pc6 pc7 pc8 pc9 opsA opsB opsC1 opsC2 opsD opsE1 opsE2)

variable {F : FTy → Type} [FloatOps F]

set_option maxHeartbeats 8000000 in
/-- Same rows, same batch list: the same pooled means. -/
theorem pool1_eq (VK : ValK F) (VR : ValR F)
    (hh : VK (Proc.devRef .tc Cert.KernelIdeal.main_v51) = VR (Proc.devRef .tc Cert.ReferenceIdeal.main_v53))
    (h3 : VK (Proc.devRef .tc Cert.KernelIdeal.main_arg3) = VR (Proc.devRef .tc Cert.ReferenceIdeal.main_arg3)) :
    after Cert.KernelIdeal.Gen.hostOps2_6 VK (Proc.devRef .tc Cert.KernelIdeal.main_v63) = after (opsC2 (F := F)) VR (Proc.devRef .tc Cert.ReferenceIdeal.main_v65) := by
  simp only [opsC2, pc4, List.cons_append, List.nil_append]
  after_results_simp
  simp only [hh, h3]
  rfl

end Cert.Bridge

end
-- ==== Proof.SimAgg2.lean ====
/-
  After the third dense layer both programs repeat, on its output, the aggregation over the incidence lists with the second
  bias and the clamp at zero.  (The kernel program broadcasts the constant one once and uses it for both degree counts,
  the reference broadcasts it twice: the same value.)  One term of the layer output, the two index lists and the bias.
-/
import proofs.«144298_j83494164234286_1_alg».proof.Proof.Gen.KernelIdeal.Launch
import proofs.«144298_j83494164234286_1_alg».proof.Proof.RefOps
import proofs.«144298_j83494164234286_1_alg».proof.Proof.BridgeTypes
import Idealize.ShloMosaic.Lib.StableHlo.Run

noncomputable section

namespace Cert.Bridge

open Idealize.ShloMosaic Idealize.ShloMosaic.TcCoe Idealize.SL.Sem Idealize.ShloMosaic.StableHlo
open Cert.ReferenceIdeal.RefRun (pc0 pc1 pc2 pc3 pc4 pc5 pc6 pc7 pc8 pc9 opsA opsB opsC1 opsC2 opsD opsE1 opsE2)

variable {F : FTy → Type} [FloatOps F]

/-- The kernel program's operations from the third layer's output to the clamped second aggregation. -/
abbrev aggK2 (V : ValK F) : ValK F := after Cert.KernelIdeal.Gen.hostOps3_5 (after Cert.KernelIdeal.Gen.hostOps3_4 (after Cert.KernelIdeal.Gen.hostOps3_3 (after Cert.KernelIdeal.Gen.hostOps3_2 (after Cert.KernelIdeal.Gen.hostOps3_1 (after Cert.KernelIdeal.Gen.hostOps3 (V))))))

set_option maxHeartbeats 8000000 in
/-- Same layer output, same incidence lists, same bias: the same clamped aggregation. -/
theorem agg2_eq (VK : ValK F) (VR : ValR F)
    (hx : VK (Proc.devRef .tc Cert.KernelIdeal.main_v65) = VR (Proc.devRef .tc Cert.ReferenceIdeal.main_v66))
    (h1 : VK (Proc.devRef .tc Cert.KernelIdeal.main_arg1) = VR (Proc.devRef .tc Cert.ReferenceIdeal.main_arg1))
    (h2 : VK (Proc.devRef .tc Cert.KernelIdeal.main_arg2) = VR (Proc.devRef .tc Cert.ReferenceIdeal.main_arg2))
    (h9 : VK (Proc.devRef .tc Cert.KernelIdeal.main_arg9) = VR (Proc.devRef .tc Cert.ReferenceIdeal.main_arg9)) :
    aggK2 VK (Proc.devRef .tc Cert.KernelIdeal.main_v112) = after (opsE1 (F := F)) VR (Proc.devRef .tc Cert.ReferenceIdeal.main_v114) := by
  simp only [opsE1, pc6, pc7, List.cons_append, List.nil_append]
  after_results_simp
  simp only [hx, h1, h2, h9]
  rfl

end Cert.Bridge

end
-- ==== Proof.RefOpsTail.lean ====
/- The last list of the reference program's host operations once more, cut after each of the two small clamps at zero:
   the same operations in the same order. -/
import proofs.«144298_j83494164234286_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Part 1 of 3 of the last list: 43 operations. -/
abbrev pc9a : List (HloOp τ sig (Elt F)) :=
  ( StableHlo.binary main_v136 main_v137 main_v138 (Host.divf : (⟨S64, .f32⟩ : BufTy).Contents (Elt F) → (⟨S64, .f32⟩ : BufTy).Contents (Elt F) → (⟨S64, .f32⟩ : BufTy).Contents (Elt F))
  :: StableHlo.nullary main_c_40 (constantI S_ 32 0#32)
  :: StableHlo.TRef.nullary (.of main_call7_cst : StableHlo.TRef sig ⟨S_, .f32⟩) (constant S_ .f32 0x00000000#32)
  :: StableHlo.TRef.binary (.of main_v135 : StableHlo.TRef sig ⟨S16x64, .f32⟩) (.of main_call7_cst : StableHlo.TRef sig ⟨S_, .f32⟩) (.of main_call7_v0 : StableHlo.TRef sig ⟨S64, .f32⟩) (fun x v => Host.reduceAdd x v reducesTo_S16x64_S64_d0 h_S_)
  :: StableHlo.TRef.unary (.of main_call7_v0 : StableHlo.TRef sig ⟨S64, .f32⟩) (.of main_call7_v1 : StableHlo.TRef sig ⟨S1x64, .f32⟩) (broadcastInDim S1x64 ![1] bcast_S64_S1x64_1)
  :: StableHlo.TRef.nullary (.of main_call7_cst_0 : StableHlo.TRef sig ⟨S_, .f32⟩) (constant S_ .f32 0x41800000#32)
  :: StableHlo.TRef.unary (.of main_call7_cst_0 : StableHlo.TRef sig ⟨S_, .f32⟩) (.of main_call7_v2 : StableHlo.TRef sig ⟨S1x64, .f32⟩) (broadcastInDim S1x64 ![] bcast_S_S1x64)
  :: StableHlo.TRef.binary (.of main_call7_v1 : StableHlo.TRef sig ⟨S1x64, .f32⟩) (.of main_call7_v2 : StableHlo.TRef sig ⟨S1x64, .f32⟩) (.of main_call7_v3 : StableHlo.TRef sig ⟨S1x64, .f32⟩) Host.divf
  :: StableHlo.TRef.unary (.of main_call7_v3 : StableHlo.TRef sig ⟨S1x64, .f32⟩) (.of main_call7_v4 : StableHlo.TRef sig ⟨S16x64, .f32⟩) (broadcastInDim S16x64 ![0, 1] bcast_S1x64_S16x64_0_1)
  :: StableHlo.TRef.binary (.of main_v135 : StableHlo.TRef sig ⟨S16x64, .f32⟩) (.of main_call7_v4 : StableHlo.TRef sig ⟨S16x64, .f32⟩) (.of main_call7_v5 : StableHlo.TRef sig ⟨S16x64, .f32⟩) subf
  :: StableHlo.TRef.binary (.of main_call7_v5 : StableHlo.TRef sig ⟨S16x64, .f32⟩) (.of main_call7_v5 : StableHlo.TRef sig ⟨S16x64, .f32⟩) (.of main_call7_v6 : StableHlo.TRef sig ⟨S16x64, .f32⟩) mulf
  :: StableHlo.TRef.unary (.of main_c_40 : StableHlo.TRef sig ⟨S_, .i32⟩) (.of main_call7_v7 : StableHlo.TRef sig ⟨S_, .f32⟩) (sitofp .f32)
  :: StableHlo.TRef.nullary (.of main_call7_cst_1 : StableHlo.TRef sig ⟨S_, .f32⟩) (constant S_ .f32 0x41800000#32)
  :: StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf
  :: StableHlo.TRef.nullary (.of main_call7_cst_2 : StableHlo.TRef sig ⟨S_, .f32⟩) (constant S_ .f32 0x00000000#32)
  :: StableHlo.TRef.binary (.of main_call7_v6 : StableHlo.TRef sig ⟨S16x64, .f32⟩) (.of main_call7_cst_2 : StableHlo.TRef sig ⟨S_, .f32⟩) (.of main_call7_v9 : StableHlo.TRef sig ⟨S64, .f32⟩) (fun x v => Host.reduceAdd x v reducesTo_S16x64_S64_d0 h_S_)
  :: StableHlo.TRef.unary (.of main_call7_v8 : StableHlo.TRef sig ⟨S_, .f32⟩) (.of main_call7_v10 : StableHlo.TRef sig ⟨S64, .f32⟩) (broadcastInDim S64 ![] bcast_S_S64)
  :: StableHlo.TRef.binary (.of main_call7_v9 : StableHlo.TRef sig ⟨S64, .f32⟩) (.of main_call7_v10 : StableHlo.TRef sig ⟨S64, .f32⟩) (.of main_call7_v11 : StableHlo.TRef sig ⟨S64, .f32⟩) Host.divf
  :: StableHlo.TRef.nullary (.of main_call7_cst_3 : StableHlo.TRef sig ⟨S_, .f32⟩) (constant S_ .f32 0x00000000#32)
  :: StableHlo.TRef.binary (.of main_call7_v8 : StableHlo.TRef sig ⟨S_, .f32⟩) (.of main_call7_cst_3 : StableHlo.TRef sig ⟨S_, .f32⟩) (.of main_call7_v12 : StableHlo.TRef sig ⟨S_, .i1⟩) (cmpf .ogt)
  :: StableHlo.TRef.nullary (.of main_call7_cst_4 : StableHlo.TRef sig ⟨S_, .f32⟩) (constant S_ .f32 0x7FC00000#32)
  :: StableHlo.TRef.unary (.of main_call7_cst_4 : StableHlo.TRef sig ⟨S_, .f32⟩) (.of main_call7_call0_v0 : StableHlo.TRef sig ⟨S_, .f32⟩) id
  :: StableHlo.TRef.unary (.of main_call7_call0_v0 : StableHlo.TRef sig ⟨S_, .f32⟩) (.of main_call7_call0_v1 : StableHlo.TRef sig ⟨S64, .f32⟩) (broadcastInDim S64 ![] bcast_S_S64)
  :: StableHlo.TRef.ternary (.of main_call7_v12 : StableHlo.TRef sig ⟨S_, .i1⟩) (.of main_call7_v11 : StableHlo.TRef sig ⟨S64, .f32⟩) (.of main_call7_call0_v1 : StableHlo.TRef sig ⟨S64, .f32⟩) (.of main_v139 : StableHlo.TRef sig ⟨S64, .f32⟩) (fun p a b => select (broadcastInDim S64 ![] bcast_S_S64 p) a b)
  :: StableHlo.unary main_v138 main_v140 (broadcastInDim S1x64 ![1] bcast_S64_S1x64_1 : (⟨S64, .f32⟩ : BufTy).Contents (Elt F) → (⟨S1x64, .f32⟩ : BufTy).Contents (Elt F))
  :: StableHlo.unary main_v140 main_v141 (broadcastInDim S16x64 ![0, 1] bcast_S1x64_S16x64_0_1 : (⟨S1x64, .f32⟩ : BufTy).Contents (Elt F) → (⟨S16x64, .f32⟩ : BufTy).Contents (Elt F))
  :: StableHlo.binary main_v135 main_v141 main_v142 (subf : (⟨S16x64, .f32⟩ : BufTy).Contents (Elt F) → (⟨S16x64, .f32⟩ : BufTy).Contents (Elt F) → (⟨S16x64, .f32⟩ : BufTy).Contents (Elt F))
  :: StableHlo.unary main_arg14 main_v143 (broadcastInDim S1x64 ![1] bcast_S64_S1x64_1 : (⟨S64, .f32⟩ : BufTy).Contents (Elt F) → (⟨S1x64, .f32⟩ : BufTy).Contents (Elt F))
  :: StableHlo.unary main_v143 main_v144 (broadcastInDim S16x64 ![0, 1] bcast_S1x64_S16x64_0_1 : (⟨S1x64, .f32⟩ : BufTy).Contents (Elt F) → (⟨S16x64, .f32⟩ : BufTy).Contents (Elt F))
  :: StableHlo.binary main_v144 main_v142 main_v145 (mulf : (⟨S16x64, .f32⟩ : BufTy).Contents (Elt F) → (⟨S16x64, .f32⟩ : BufTy).Contents (Elt F) → (⟨S16x64, .f32⟩ : BufTy).Contents (Elt F))
  :: StableHlo.nullary main_cst_41 (constant S_ .f32 0x3727C5AC#32)
  :: StableHlo.unary main_cst_41 main_v146 (broadcastInDim S64 ![] bcast_S_S64 : (⟨S_, .f32⟩ : BufTy).Contents (Elt F) → (⟨S64, .f32⟩ : BufTy).Contents (Elt F))
  :: StableHlo.binary main_v139 main_v146 main_v147 (addf : (⟨S64, .f32⟩ : BufTy).Contents (Elt F) → (⟨S64, .f32⟩ : BufTy).Contents (Elt F) → (⟨S64, .f32⟩ : BufTy).Contents (Elt F))
  :: StableHlo.unary main_v147 main_v148 (Host.sqrt : (⟨S64, .f32⟩ : BufTy).Contents (Elt F) → (⟨S64, .f32⟩ : BufTy).Contents (Elt F))
  :: StableHlo.unary main_v148 main_v149 (broadcastInDim S1x64 ![1] bcast_S64_S1x64_1 : (⟨S64, .f32⟩ : BufTy).Contents (Elt F) → (⟨S1x64, .f32⟩ : BufTy).Contents (Elt F))
  :: StableHlo.unary main_v149 main_v150 (broadcastInDim S16x64 ![0, 1] bcast_S1x64_S16x64_0_1 : (⟨S1x64, .f32⟩ : BufTy).Contents (Elt F) → (⟨S16x64, .f32⟩ : BufTy).Contents (Elt F))
  :: StableHlo.binary main_v145 main_v150 main_v151 (Host.divf : (⟨S16x64, .f32⟩ : BufTy).Contents (Elt F) → (⟨S16x64, .f32⟩ : BufTy).Contents (Elt F) → (⟨S16x64, .f32⟩ : BufTy).Contents (Elt F))
  :: StableHlo.unary main_arg15 main_v152 (broadcastInDim S1x64 ![1] bcast_S64_S1x64_1 : (⟨S64, .f32⟩ : BufTy).Contents (Elt F) → (⟨S1x64, .f32⟩ : BufTy).Contents (Elt F))
  :: StableHlo.unary main_v152 main_v153 (broadcastInDim S16x64 ![0, 1] bcast_S1x64_S16x64_0_1 : (⟨S1x64, .f32⟩ : BufTy).Contents (Elt F) → (⟨S16x64, .f32⟩ : BufTy).Contents (Elt F))
  :: StableHlo.binary main_v151 main_v153 main_v154 (addf : (⟨S16x64, .f32⟩ : BufTy).Contents (Elt F) → (⟨S16x64, .f32⟩ : BufTy).Contents (Elt F) → (⟨S16x64, .f32⟩ : BufTy).Contents (Elt F))
  :: StableHlo.TRef.nullary (.of main_call8_cst : StableHlo.TRef sig ⟨S_, .f32⟩) (constant S_ .f32 0x00000000#32)
  :: StableHlo.TRef.unary (.of main_call8_cst : StableHlo.TRef sig ⟨S_, .f32⟩) (.of main_call8_v0 : StableHlo.TRef sig ⟨S16x64, .f32⟩) (broadcastInDim S16x64 ![] bcast_S_S16x64)
  :: StableHlo.TRef.binary (.of main_v154 : StableHlo.TRef sig ⟨S16x64, .f32⟩) (.of main_call8_v0 : StableHlo.TRef sig ⟨S16x64, .f32⟩) (.of main_v155 : StableHlo.TRef sig ⟨S16x64, .f32⟩) maximumf
  :: [] )

/-- Part 2 of 3 of the last list: 51 operations. -/
abbrev pc9b : List (HloOp τ sig (Elt F)) :=
  ( StableHlo.binary main_v155 main_arg16 main_v156 ((fun l r => Host.dotGeneral dot_S16x64_S64x32_S16x32_1_0_0_1_n_n none l r) : (⟨S16x64, .f32⟩ : BufTy).Contents (Elt F) → (⟨S64x32, .f32⟩ : BufTy).Contents (Elt F) → (⟨S16x32, .f32⟩ : BufTy).Contents (Elt F))
  :: StableHlo.unary main_arg17 main_v157 (broadcastInDim S1x32 ![1] bcast_S32_S1x32_1 : (⟨S32, .f32⟩ : BufTy).Contents (Elt F) → (⟨S1x32, .f32⟩ : BufTy).Contents (Elt F))
  :: StableHlo.unary main_v157 main_v158 (broadcastInDim S16x32 ![0, 1] bcast_S1x32_S16x32_0_1 : (⟨S1x32, .f32⟩ : BufTy).Contents (Elt F) → (⟨S16x32, .f32⟩ : BufTy).Contents (Elt F))
  :: StableHlo.binary main_v156 main_v158 main_v159 (addf : (⟨S16x32, .f32⟩ : BufTy).Contents (Elt F) → (⟨S16x32, .f32⟩ : BufTy).Contents (Elt F) → (⟨S16x32, .f32⟩ : BufTy).Contents (Elt F))
  :: StableHlo.nullary main_cst_42 (constant S_ .f32 0x00000000#32)
  :: StableHlo.binary main_v159 main_cst_42 main_v160 ((fun x v => Host.reduceAdd x v reducesTo_S16x32_S32_d0 h_S_) : (⟨S16x32, .f32⟩ : BufTy).Contents (Elt F) → (⟨S_, .f32⟩ : BufTy).Contents (Elt F) → (⟨S32, .f32⟩ : BufTy).Contents (Elt F))
  :: StableHlo.nullary main_cst_43 (constant S_ .f32 0x41800000#32)
  :: StableHlo.unary main_cst_43 main_v161 (broadcastInDim S32 ![] bcast_S_S32 : (⟨S_, .f32⟩ : BufTy).Contents (Elt F) → (⟨S32, .f32⟩ : BufTy).Contents (Elt F))
  :: StableHlo.binary main_v160 main_v161 main_v162 (Host.divf : (⟨S32, .f32⟩ : BufTy).Contents (Elt F) → (⟨S32, .f32⟩ : BufTy).Contents (Elt F) → (⟨S32, .f32⟩ : BufTy).Contents (Elt F))
  :: StableHlo.nullary main_c_44 (constantI S_ 32 0#32)
  :: StableHlo.TRef.nullary (.of main_call9_cst : StableHlo.TRef sig ⟨S_, .f32⟩) (constant S_ .f32 0x00000000#32)
  :: StableHlo.TRef.binary (.of main_v159 : StableHlo.TRef sig ⟨S16x32, .f32⟩) (.of main_call9_cst : StableHlo.TRef sig ⟨S_, .f32⟩) (.of main_call9_v0 : StableHlo.TRef sig ⟨S32, .f32⟩) (fun x v => Host.reduceAdd x v reducesTo_S16x32_S32_d0 h_S_)
  :: StableHlo.TRef.unary (.of main_call9_v0 : StableHlo.TRef sig ⟨S32, .f32⟩) (.of main_call9_v1 : StableHlo.TRef sig ⟨S1x32, .f32⟩) (broadcastInDim S1x32 ![1] bcast_S32_S1x32_1)
  :: StableHlo.TRef.nullary (.of main_call9_cst_0 : StableHlo.TRef sig ⟨S_, .f32⟩) (constant S_ .f32 0x41800000#32)
  :: StableHlo.TRef.unary (.of main_call9_cst_0 : StableHlo.TRef sig ⟨S_, .f32⟩) (.of main_call9_v2 : StableHlo.TRef sig ⟨S1x32, .f32⟩) (broadcastInDim S1x32 ![] bcast_S_S1x32)
  :: StableHlo.TRef.binary (.of main_call9_v1 : StableHlo.TRef sig ⟨S1x32, .f32⟩) (.of main_call9_v2 : StableHlo.TRef sig ⟨S1x32, .f32⟩) (.of main_call9_v3 : StableHlo.TRef sig ⟨S1x32, .f32⟩) Host.divf
  :: StableHlo.TRef.unary (.of main_call9_v3 : StableHlo.TRef sig ⟨S1x32, .f32⟩) (.of main_call9_v4 : StableHlo.TRef sig ⟨S16x32, .f32⟩) (broadcastInDim S16x32 ![0, 1] bcast_S1x32_S16x32_0_1)
  :: StableHlo.TRef.binary (.of main_v159 : StableHlo.TRef sig ⟨S16x32, .f32⟩) (.of main_call9_v4 : StableHlo.TRef sig ⟨S16x32, .f32⟩) (.of main_call9_v5 : StableHlo.TRef sig ⟨S16x32, .f32⟩) subf
  :: StableHlo.TRef.binary (.of main_call9_v5 : StableHlo.TRef sig ⟨S16x32, .f32⟩) (.of main_call9_v5 : StableHlo.TRef sig ⟨S16x32, .f32⟩) (.of main_call9_v6 : StableHlo.TRef sig ⟨S16x32, .f32⟩) mulf
  :: StableHlo.TRef.unary (.of main_c_44 : StableHlo.TRef sig ⟨S_, .i32⟩) (.of main_call9_v7 : StableHlo.TRef sig ⟨S_, .f32⟩) (sitofp .f32)
  :: StableHlo.TRef.nullary (.of main_call9_cst_1 : StableHlo.TRef sig ⟨S_, .f32⟩) (constant S_ .f32 0x41800000#32)
  :: StableHlo.TRef.binary (.of main_call9_cst_1 : StableHlo.TRef sig ⟨S_, .f32⟩) (.of main_call9_v7 : StableHlo.TRef sig ⟨S_, .f32⟩) (.of main_call9_v8 : StableHlo.TRef sig ⟨S_, .f32⟩) subf
  :: StableHlo.TRef.nullary (.of main_call9_cst_2 : StableHlo.TRef sig ⟨S_, .f32⟩) (constant S_ .f32 0x00000000#32)
  :: StableHlo.TRef.binary (.of main_call9_v6 : StableHlo.TRef sig ⟨S16x32, .f32⟩) (.of main_call9_cst_2 : StableHlo.TRef sig ⟨S_, .f32⟩) (.of main_call9_v9 : StableHlo.TRef sig ⟨S32, .f32⟩) (fun x v => Host.reduceAdd x v reducesTo_S16x32_S32_d0 h_S_)
  :: StableHlo.TRef.unary (.of main_call9_v8 : StableHlo.TRef sig ⟨S_, .f32⟩) (.of main_call9_v10 : StableHlo.TRef sig ⟨S32, .f32⟩) (broadcastInDim S32 ![] bcast_S_S32)
  :: StableHlo.TRef.binary (.of main_call9_v9 : StableHlo.TRef sig ⟨S32, .f32⟩) (.of main_call9_v10 : StableHlo.TRef sig ⟨S32, .f32⟩) (.of main_call9_v11 : StableHlo.TRef sig ⟨S32, .f32⟩) Host.divf
  :: StableHlo.TRef.nullary (.of main_call9_cst_3 : StableHlo.TRef sig ⟨S_, .f32⟩) (constant S_ .f32 0x00000000#32)
  :: StableHlo.TRef.binary (.of main_call9_v8 : StableHlo.TRef sig ⟨S_, .f32⟩) (.of main_call9_cst_3 : StableHlo.TRef sig ⟨S_, .f32⟩) (.of main_call9_v12 : StableHlo.TRef sig ⟨S_, .i1⟩) (cmpf .ogt)
  :: StableHlo.TRef.nullary (.of main_call9_cst_4 : StableHlo.TRef sig ⟨S_, .f32⟩) (constant S_ .f32 0x7FC00000#32)
  :: StableHlo.TRef.unary (.of main_call9_cst_4 : StableHlo.TRef sig ⟨S_, .f32⟩) (.of main_call9_call0_v0 : StableHlo.TRef sig ⟨S_, .f32⟩) id
  :: StableHlo.TRef.unary (.of main_call9_call0_v0 : StableHlo.TRef sig ⟨S_, .f32⟩) (.of main_call9_call0_v1 : StableHlo.TRef sig ⟨S32, .f32⟩) (broadcastInDim S32 ![] bcast_S_S32)
  :: StableHlo.TRef.ternary (.of main_call9_v12 : StableHlo.TRef sig ⟨S_, .i1⟩) (.of main_call9_v11 : StableHlo.TRef sig ⟨S32, .f32⟩) (.of main_call9_call0_v1 : StableHlo.TRef sig ⟨S32, .f32⟩) (.of main_v163 : StableHlo.TRef sig ⟨S32, .f32⟩) (fun p a b => select (broadcastInDim S32 ![] bcast_S_S32 p) a b)
  :: StableHlo.unary main_v162 main_v164 (broadcastInDim S1x32 ![1] bcast_S32_S1x32_1 : (⟨S32, .f32⟩ : BufTy).Contents (Elt F) → (⟨S1x32, .f32⟩ : BufTy).Contents (Elt F))
  :: StableHlo.unary main_v164 main_v165 (broadcastInDim S16x32 ![0, 1] bcast_S1x32_S16x32_0_1 : (⟨S1x32, .f32⟩ : BufTy).Contents (Elt F) → (⟨S16x32, .f32⟩ : BufTy).Contents (Elt F))
  :: StableHlo.binary main_v159 main_v165 main_v166 (subf : (⟨S16x32, .f32⟩ : BufTy).Contents (Elt F) → (⟨S16x32, .f32⟩ : BufTy).Contents (Elt F) → (⟨S16x32, .f32⟩ : BufTy).Contents (Elt F))
  :: StableHlo.unary main_arg18 main_v167 (broadcastInDim S1x32 ![1] bcast_S32_S1x32_1 : (⟨S32, .f32⟩ : BufTy).Contents (Elt F) → (⟨S1x32, .f32⟩ : BufTy).Contents (Elt F))
  :: StableHlo.unary main_v167 main_v168 (broadcastInDim S16x32 ![0, 1] bcast_S1x32_S16x32_0_1 : (⟨S1x32, .f32⟩ : BufTy).Contents (Elt F) → (⟨S16x32, .f32⟩ : BufTy).Contents (Elt F))
  :: StableHlo.binary main_v168 main_v166 main_v169 (mulf : (⟨S16x32, .f32⟩ : BufTy).Contents (Elt F) → (⟨S16x32, .f32⟩ : BufTy).Contents (Elt F) → (⟨S16x32, .f32⟩ : BufTy).Contents (Elt F))
  :: StableHlo.nullary main_cst_45 (constant S_ .f32 0x3727C5AC#32)
  :: StableHlo.unary main_cst_45 main_v170 (broadcastInDim S32 ![] bcast_S_S32 : (⟨S_, .f32⟩ : BufTy).Contents (Elt F) → (⟨S32, .f32⟩ : BufTy).Contents (Elt F))
  :: StableHlo.binary main_v163 main_v170 main_v171 (addf : (⟨S32, .f32⟩ : BufTy).Contents (Elt F) → (⟨S32, .f32⟩ : BufTy).Contents (Elt F) → (⟨S32, .f32⟩ : BufTy).Contents (Elt F))
  :: StableHlo.unary main_v171 main_v172 (Host.sqrt : (⟨S32, .f32⟩ : BufTy).Contents (Elt F) → (⟨S32, .f32⟩ : BufTy).Contents (Elt F))
  :: StableHlo.unary main_v172 main_v173 (broadcastInDim S1x32 ![1] bcast_S32_S1x32_1 : (⟨S32, .f32⟩ : BufTy).Contents (Elt F) → (⟨S1x32, .f32⟩ : BufTy).Contents (Elt F))
  :: StableHlo.unary main_v173 main_v174 (broadcastInDim S16x32 ![0, 1] bcast_S1x32_S16x32_0_1 : (⟨S1x32, .f32⟩ : BufTy).Contents (Elt F) → (⟨S16x32, .f32⟩ : BufTy).Contents (Elt F))
  :: StableHlo.binary main_v169 main_v174 main_v175 (Host.divf : (⟨S16x32, .f32⟩ : BufTy).Contents (Elt F) → (⟨S16x32, .f32⟩ : BufTy).Contents (Elt F) → (⟨S16x32, .f32⟩ : BufTy).Contents (Elt F))
  :: StableHlo.unary main_arg19 main_v176 (broadcastInDim S1x32 ![1] bcast_S32_S1x32_1 : (⟨S32, .f32⟩ : BufTy).Contents (Elt F) → (⟨S1x32, .f32⟩ : BufTy).Contents (Elt F))
  :: StableHlo.unary main_v176 main_v177 (broadcastInDim S16x32 ![0, 1] bcast_S1x32_S16x32_0_1 : (⟨S1x32, .f32⟩ : BufTy).Contents (Elt F) → (⟨S16x32, .f32⟩ : BufTy).Contents (Elt F))
  :: StableHlo.binary main_v175 main_v177 main_v178 (addf : (⟨S16x32, .f32⟩ : BufTy).Contents (Elt F) → (⟨S16x32, .f32⟩ : BufTy).Contents (Elt F) → (⟨S16x32, .f32⟩ : BufTy).Contents (Elt F))
  :: StableHlo.TRef.nullary (.of main_call10_cst : StableHlo.TRef sig ⟨S_, .f32⟩) (constant S_ .f32 0x00000000#32)
  :: StableHlo.TRef.unary (.of main_call10_cst : StableHlo.TRef sig ⟨S_, .f32⟩) (.of main_call10_v0 : StableHlo.TRef sig ⟨S16x32, .f32⟩) (broadcastInDim S16x32 ![] bcast_S_S16x32)
  :: StableHlo.TRef.binary (.of main_v178 : StableHlo.TRef sig ⟨S16x32, .f32⟩) (.of main_call10_v0 : StableHlo.TRef sig ⟨S16x32, .f32⟩) (.of main_v179 : StableHlo.TRef sig ⟨S16x32, .f32⟩) maximumf
  :: [] )

/-- Part 3 of 3 of the last list: 1 operations. -/
abbrev pc9c : List (HloOp τ sig (Elt F)) :=
  ( StableHlo.binary main_v179 main_arg20 main_v180 ((fun l r => Host.dotGeneral dot_S16x32_S32x4_S16x4_1_0_0_1_n_n none l r) : (⟨S16x32, .f32⟩ : BufTy).Contents (Elt F) → (⟨S32x4, .f32⟩ : BufTy).Contents (Elt F) → (⟨S16x4, .f32⟩ : BufTy).Contents (Elt F))
  :: [] )

/-- The three parts make the last list. -/
theorem pc9_split : (pc9 : List (HloOp τ sig (Elt F))) = pc9a ++ (pc9b ++ pc9c) := rfl

end Cert.ReferenceIdeal.RefRun

end
-- ==== Proof.RefOpsPool.lean ====
/- The list before the last of the reference program's host operations once more, cut before and after the one operation that puts
   the two pooled blocks side by side: the same operations in the same order. -/
import proofs.«144298_j83494164234286_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Part 1 of 3: 16 operations. -/
abbrev pc8a : List (HloOp τ sig (Elt F)) :=
  ( StableHlo.nullary main_cst_34 (constant S_ .f32 0x00000000#32)
  :: StableHlo.unary main_cst_34 main_v115 (broadcastInDim S16x128 ![] bcast_S_S16x128 : (⟨S_, .f32⟩ : BufTy).Contents (Elt F) → (⟨S16x128, .f32⟩ : BufTy).Contents (Elt F))
  :: StableHlo.unary main_arg3 main_v116 (broadcastInDim S200000x1 ![0] bcast_S200000_S200000x1_0 : (⟨S200000, .i32⟩ : BufTy).Contents (Elt F) → (⟨S200000x1, .i32⟩ : BufTy).Contents (Elt F))
  :: StableHlo.ternary main_v115 main_v116 main_v114 main_v117 ((fun x i u => Host.scatterAdd scatter_S16x128_S200000x1_S200000x128_1_0_0_1 x i u) : (⟨S16x128, .f32⟩ : BufTy).Contents (Elt F) → (⟨S200000x1, .i32⟩ : BufTy).Contents (Elt F) → (⟨S200000x128, .f32⟩ : BufTy).Contents (Elt F) → (⟨S16x128, .f32⟩ : BufTy).Contents (Elt F))
  :: StableHlo.nullary main_cst_35 (constant S_ .f32 0x3F800000#32)
  :: StableHlo.unary main_cst_35 main_v118 (broadcastInDim S200000 ![] bcast_S_S200000 : (⟨S_, .f32⟩ : BufTy).Contents (Elt F) → (⟨S200000, .f32⟩ : BufTy).Contents (Elt F))
  :: StableHlo.nullary main_cst_36 (constant S_ .f32 0x00000000#32)
  :: StableHlo.unary main_cst_36 main_v119 (broadcastInDim S16 ![] bcast_S_S16 : (⟨S_, .f32⟩ : BufTy).Contents (Elt F) → (⟨S16, .f32⟩ : BufTy).Contents (Elt F))
  :: StableHlo.unary main_arg3 main_v120 (broadcastInDim S200000x1 ![0] bcast_S200000_S200000x1_0 : (⟨S200000, .i32⟩ : BufTy).Contents (Elt F) → (⟨S200000x1, .i32⟩ : BufTy).Contents (Elt F))
  :: StableHlo.ternary main_v119 main_v120 main_v118 main_v121 ((fun x i u => Host.scatterAdd scatter_S16_S200000x1_S200000_n_0_0_1 x i u) : (⟨S16, .f32⟩ : BufTy).Contents (Elt F) → (⟨S200000x1, .i32⟩ : BufTy).Contents (Elt F) → (⟨S200000, .f32⟩ : BufTy).Contents (Elt F) → (⟨S16, .f32⟩ : BufTy).Contents (Elt F))
  :: StableHlo.nullary main_cst_37 (constant S_ .f32 0x3F800000#32)
  :: StableHlo.unary main_cst_37 main_v122 (broadcastInDim S16 ![] bcast_S_S16 : (⟨S_, .f32⟩ : BufTy).Contents (Elt F) → (⟨S16, .f32⟩ : BufTy).Contents (Elt F))
  :: StableHlo.binary main_v121 main_v122 main_v123 (maximumf : (⟨S16, .f32⟩ : BufTy).Contents (Elt F) → (⟨S16, .f32⟩ : BufTy).Contents (Elt F) → (⟨S16, .f32⟩ : BufTy).Contents (Elt F))
  :: StableHlo.unary main_v123 main_v124 (broadcastInDim S16x1 ![0] bcast_S16_S16x1_0 : (⟨S16, .f32⟩ : BufTy).Contents (Elt F) → (⟨S16x1, .f32⟩ : BufTy).Contents (Elt F))
  :: StableHlo.unary main_v124 main_v125 (broadcastInDim S16x128 ![0, 1] bcast_S16x1_S16x128_0_1 : (⟨S16x1, .f32⟩ : BufTy).Contents (Elt F) → (⟨S16x128, .f32⟩ : BufTy).Contents (Elt F))
  :: StableHlo.binary main_v117 main_v125 main_v126 (Host.divf : (⟨S16x128, .f32⟩ : BufTy).Contents (Elt F) → (⟨S16x128, .f32⟩ : BufTy).Contents (Elt F) → (⟨S16x128, .f32⟩ : BufTy).Contents (Elt F))
  :: [] )

/-- Part 2 of 3: 1 operations. -/
abbrev pc8b : List (HloOp τ sig (Elt F)) :=
  ( StableHlo.binary main_v65 main_v126 main_v127 ((fun a b => concatenate S16x256 1 [⟨S16x128, a⟩, ⟨S16x128, b⟩] concatenates_S16x128_S16x128_S16x256_d1) : (⟨S16x128, .f32⟩ : BufTy).Contents (Elt F) → (⟨S16x128, .f32⟩ : BufTy).Contents (Elt F) → (⟨S16x256, .f32⟩ : BufTy).Contents (Elt F))
  :: [] )

/-- Part 3 of 3: 12 operations. -/
abbrev pc8c : List (HloOp τ sig (Elt F)) :=
  ( StableHlo.binary main_v127 main_arg10 main_v128 ((fun l r => Host.dotGeneral dot_S16x256_S256x128_S16x128_1_0_0_1_n_n none l r) : (⟨S16x256, .f32⟩ : BufTy).Contents (Elt F) → (⟨S256x128, .f32⟩ : BufTy).Contents (Elt F) → (⟨S16x128, .f32⟩ : BufTy).Contents (Elt F))
  :: StableHlo.unary main_arg11 main_v129 (broadcastInDim S1x128 ![1] bcast_S128_S1x128_1 : (⟨S128, .f32⟩ : BufTy).Contents (Elt F) → (⟨S1x128, .f32⟩ : BufTy).Contents (Elt F))
  :: StableHlo.unary main_v129 main_v130 (broadcastInDim S16x128 ![0, 1] bcast_S1x128_S16x128_0_1 : (⟨S1x128, .f32⟩ : BufTy).Contents (Elt F) → (⟨S16x128, .f32⟩ : BufTy).Contents (Elt F))
  :: StableHlo.binary main_v128 main_v130 main_v131 (addf : (⟨S16x128, .f32⟩ : BufTy).Contents (Elt F) → (⟨S16x128, .f32⟩ : BufTy).Contents (Elt F) → (⟨S16x128, .f32⟩ : BufTy).Contents (Elt F))
  :: StableHlo.binary main_v131 main_arg12 main_v132 ((fun l r => Host.dotGeneral dot_S16x128_S128x64_S16x64_1_0_0_1_n_n none l r) : (⟨S16x128, .f32⟩ : BufTy).Contents (Elt F) → (⟨S128x64, .f32⟩ : BufTy).Contents (Elt F) → (⟨S16x64, .f32⟩ : BufTy).Contents (Elt F))
  :: StableHlo.unary main_arg13 main_v133 (broadcastInDim S1x64 ![1] bcast_S64_S1x64_1 : (⟨S64, .f32⟩ : BufTy).Contents (Elt F) → (⟨S1x64, .f32⟩ : BufTy).Contents (Elt F))
  :: StableHlo.unary main_v133 main_v134 (broadcastInDim S16x64 ![0, 1] bcast_S1x64_S16x64_0_1 : (⟨S1x64, .f32⟩ : BufTy).Contents (Elt F) → (⟨S16x64, .f32⟩ : BufTy).Contents (Elt F))
  :: StableHlo.binary main_v132 main_v134 main_v135 (addf : (⟨S16x64, .f32⟩ : BufTy).Contents (Elt F) → (⟨S16x64, .f32⟩ : BufTy).Contents (Elt F) → (⟨S16x64, .f32⟩ : BufTy).Contents (Elt F))
  :: StableHlo.nullary main_cst_38 (constant S_ .f32 0x00000000#32)
  :: StableHlo.binary main_v135 main_cst_38 main_v136 ((fun x v => Host.reduceAdd x v reducesTo_S16x64_S64_d0 h_S_) : (⟨S16x64, .f32⟩ : BufTy).Contents (Elt F) → (⟨S_, .f32⟩ : BufTy).Contents (Elt F) → (⟨S64, .f32⟩ : BufTy).Contents (Elt F))
  :: StableHlo.nullary main_cst_39 (constant S_ .f32 0x41800000#32)
  :: StableHlo.unary main_cst_39 main_v137 (broadcastInDim S64 ![] bcast_S_S64 : (⟨S_, .f32⟩ : BufTy).Contents (Elt F) → (⟨S64, .f32⟩ : BufTy).Contents (Elt F))
  :: [] )

/-- The three parts make the list. -/
theorem pc8_split : (pc8 : List (HloOp τ sig (Elt F))) = pc8a ++ (pc8b ++ pc8c) := rfl

end Cert.ReferenceIdeal.RefRun

end
-- ==== Proof.KOpsPool.lean ====
/- One stretch of the kernel program's host operations (the second pooled means, the two pooled blocks side by side, the first small
   dense maps) once more, cut before and after the one operation that puts the two pooled blocks side by side. -/
import proofs.«144298_j83494164234286_1_alg».proof.Proof.Gen.KernelIdeal.Launch

noncomputable section

namespace Cert.KernelIdeal.KOps

open Cert.KernelIdeal Cert.KernelIdeal.Gen Idealize.ShloMosaic Idealize.ShloMosaic.TcCoe Idealize.SL.Sem Idealize.ShloMosaic.StableHlo

variable {F : FTy → Type} [FloatOps F]

/-- Part 1 of 3: 16 operations. -/
abbrev k36a : List (HloOp τ sig (Elt F)) :=
  ( StableHlo.nullary main_cst_33 (constant S_ .f32 0x00000000#32)
  :: StableHlo.unary main_cst_33 main_v113 (broadcastInDim S16x128 ![] bcast_S_S16x128 : (⟨S_, .f32⟩ : BufTy).Contents (Elt F) → (⟨S16x128, .f32⟩ : BufTy).Contents (Elt F))
  :: StableHlo.unary main_arg3 main_v114 (broadcastInDim S200000x1 ![0] bcast_S200000_S200000x1_0 : (⟨S200000, .i32⟩ : BufTy).Contents (Elt F) → (⟨S200000x1, .i32⟩ : BufTy).Contents (Elt F))
  :: StableHlo.ternary main_v113 main_v114 main_v112 main_v115 ((fun x i u => Host.scatterAdd scatter_S16x128_S200000x1_S200000x128_1_0_0_1 x i u) : (⟨S16x128, .f32⟩ : BufTy).Contents (Elt F) → (⟨S200000x1, .i32⟩ : BufTy).Contents (Elt F) → (⟨S200000x128, .f32⟩ : BufTy).Contents (Elt F) → (⟨S16x128, .f32⟩ : BufTy).Contents (Elt F))
  :: StableHlo.nullary main_cst_34 (constant S_ .f32 0x3F800000#32)
  :: StableHlo.unary main_cst_34 main_v116 (broadcastInDim S200000 ![] bcast_S_S200000 : (⟨S_, .f32⟩ : BufTy).Contents (Elt F) → (⟨S200000, .f32⟩ : BufTy).Contents (Elt F))
  :: StableHlo.nullary main_cst_35 (constant S_ .f32 0x00000000#32)
  :: StableHlo.unary main_cst_35 main_v117 (broadcastInDim S16 ![] bcast_S_S16 : (⟨S_, .f32⟩ : BufTy).Contents (Elt F) → (⟨S16, .f32⟩ : BufTy).Contents (Elt F))
  :: StableHlo.unary main_arg3 main_v118 (broadcastInDim S200000x1 ![0] bcast_S200000_S200000x1_0 : (⟨S200000, .i32⟩ : BufTy).Contents (Elt F) → (⟨S200000x1, .i32⟩ : BufTy).Contents (Elt F))
  :: StableHlo.ternary main_v117 main_v118 main_v116 main_v119 ((fun x i u => Host.scatterAdd scatter_S16_S200000x1_S200000_n_0_0_1 x i u) : (⟨S16, .f32⟩ : BufTy).Contents (Elt F) → (⟨S200000x1, .i32⟩ : BufTy).Contents (Elt F) → (⟨S200000, .f32⟩ : BufTy).Contents (Elt F) → (⟨S16, .f32⟩ : BufTy).Contents (Elt F))
  :: StableHlo.nullary main_cst_36 (constant S_ .f32 0x3F800000#32)
  :: StableHlo.unary main_cst_36 main_v120 (broadcastInDim S16 ![] bcast_S_S16 : (⟨S_, .f32⟩ : BufTy).Contents (Elt F) → (⟨S16, .f32⟩ : BufTy).Contents (Elt F))
  :: StableHlo.binary main_v119 main_v120 main_v121 (maximumf : (⟨S16, .f32⟩ : BufTy).Contents (Elt F) → (⟨S16, .f32⟩ : BufTy).Contents (Elt F) → (⟨S16, .f32⟩ : BufTy).Contents (Elt F))
  :: StableHlo.unary main_v121 main_v122 (broadcastInDim S16x1 ![0] bcast_S16_S16x1_0 : (⟨S16, .f32⟩ : BufTy).Contents (Elt F) → (⟨S16x1, .f32⟩ : BufTy).Contents (Elt F))
  :: StableHlo.unary main_v122 main_v123 (broadcastInDim S16x128 ![0, 1] bcast_S16x1_S16x128_0_1 : (⟨S16x1, .f32⟩ : BufTy).Contents (Elt F) → (⟨S16x128, .f32⟩ : BufTy).Contents (Elt F))
  :: StableHlo.binary main_v115 main_v123 main_v124 (Host.divf : (⟨S16x128, .f32⟩ : BufTy).Contents (Elt F) → (⟨S16x128, .f32⟩ : BufTy).Contents (Elt F) → (⟨S16x128, .f32⟩ : BufTy).Contents (Elt F))
  :: [] )

/-- Part 2 of 3: 1 operations. -/
abbrev k36b : List (HloOp τ sig (Elt F)) :=
  ( StableHlo.binary main_v63 main_v124 main_v125 ((fun a b => concatenate S16x256 1 [⟨S16x128, a⟩, ⟨S16x128, b⟩] concatenates_S16x128_S16x128_S16x256_d1) : (⟨S16x128, .f32⟩ : BufTy).Contents (Elt F) → (⟨S16x128, .f32⟩ : BufTy).Contents (Elt F) → (⟨S16x256, .f32⟩ : BufTy).Contents (Elt F))
  :: [] )

/-- Part 3 of 3: 14 operations. -/
abbrev k36c : List (HloOp τ sig (Elt F)) :=
  ( StableHlo.binary main_v125 main_arg10 main_v126 ((fun l r => Host.dotGeneral dot_S16x256_S256x128_S16x128_1_0_0_1_n_n none l r) : (⟨S16x256, .f32⟩ : BufTy).Contents (Elt F) → (⟨S256x128, .f32⟩ : BufTy).Contents (Elt F) → (⟨S16x128, .f32⟩ : BufTy).Contents (Elt F))
  :: StableHlo.unary main_arg11 main_v127 (broadcastInDim S1x128 ![1] bcast_S128_S1x128_1 : (⟨S128, .f32⟩ : BufTy).Contents (Elt F) → (⟨S1x128, .f32⟩ : BufTy).Contents (Elt F))
  :: StableHlo.unary main_v127 main_v128 (broadcastInDim S16x128 ![0, 1] bcast_S1x128_S16x128_0_1 : (⟨S1x128, .f32⟩ : BufTy).Contents (Elt F) → (⟨S16x128, .f32⟩ : BufTy).Contents (Elt F))
  :: StableHlo.binary main_v126 main_v128 main_v129 (addf : (⟨S16x128, .f32⟩ : BufTy).Contents (Elt F) → (⟨S16x128, .f32⟩ : BufTy).Contents (Elt F) → (⟨S16x128, .f32⟩ : BufTy).Contents (Elt F))
  :: StableHlo.binary main_v129 main_arg12 main_v130 ((fun l r => Host.dotGeneral dot_S16x128_S128x64_S16x64_1_0_0_1_n_n none l r) : (⟨S16x128, .f32⟩ : BufTy).Contents (Elt F) → (⟨S128x64, .f32⟩ : BufTy).Contents (Elt F) → (⟨S16x64, .f32⟩ : BufTy).Contents (Elt F))
  :: StableHlo.unary main_arg13 main_v131 (broadcastInDim S1x64 ![1] bcast_S64_S1x64_1 : (⟨S64, .f32⟩ : BufTy).Contents (Elt F) → (⟨S1x64, .f32⟩ : BufTy).Contents (Elt F))
  :: StableHlo.unary main_v131 main_v132 (broadcastInDim S16x64 ![0, 1] bcast_S1x64_S16x64_0_1 : (⟨S1x64, .f32⟩ : BufTy).Contents (Elt F) → (⟨S16x64, .f32⟩ : BufTy).Contents (Elt F))
  :: StableHlo.binary main_v130 main_v132 main_v133 (addf : (⟨S16x64, .f32⟩ : BufTy).Contents (Elt F) → (⟨S16x64, .f32⟩ : BufTy).Contents (Elt F) → (⟨S16x64, .f32⟩ : BufTy).Contents (Elt F))
  :: StableHlo.nullary main_cst_37 (constant S_ .f32 0x00000000#32)
  :: StableHlo.binary main_v133 main_cst_37 main_v134 ((fun x v => Host.reduceAdd x v reducesTo_S16x64_S64_d0 h_S_) : (⟨S16x64, .f32⟩ : BufTy).Contents (Elt F) → (⟨S_, .f32⟩ : BufTy).Contents (Elt F) → (⟨S64, .f32⟩ : BufTy).Contents (Elt F))
  :: StableHlo.nullary main_cst_38 (constant S_ .f32 0x41800000#32)
  :: StableHlo.unary main_cst_38 main_v135 (broadcastInDim S64 ![] bcast_S_S64 : (⟨S_, .f32⟩ : BufTy).Contents (Elt F) → (⟨S64, .f32⟩ : BufTy).Contents (Elt F))
  :: StableHlo.binary main_v134 main_v135 main_v136 (Host.divf : (⟨S64, .f32⟩ : BufTy).Contents (Elt F) → (⟨S64, .f32⟩ : BufTy).Contents (Elt F) → (⟨S64, .f32⟩ : BufTy).Contents (Elt F))
  :: StableHlo.nullary main_c_39 (constantI S_ 32 0#32)
  :: [] )

/-- The three parts make the stretch. -/
theorem hostOps3_6_split : (hostOps3_6 : List (HloOp τ sig (Elt F))) = k36a ++ (k36b ++ k36c) := rfl

end Cert.KernelIdeal.KOps

end
-- ==== Proof.SimTail1a.lean ====
/-
  The second pooled means: the scatter-sum of the clamped second aggregation's rows along the batch list, the row count
  per graph clamped below at one, the quotient.  The same operations on the same operands in both programs.
-/
import proofs.«144298_j83494164234286_1_alg».proof.Proof.Gen.KernelIdeal.Launch
import proofs.«144298_j83494164234286_1_alg».proof.Proof.RefOps
import proofs.«144298_j83494164234286_1_alg».proof.Proof.BridgeTypes
import proofs.«144298_j83494164234286_1_alg».proof.Proof.RefOpsTail
import proofs.«144298_j83494164234286_1_alg».proof.Proof.RefOpsPool
import proofs.«144298_j83494164234286_1_alg».proof.Proof.KOpsPool
import Idealize.ShloMosaic.Lib.StableHlo.Run

noncomputable section

namespace Cert.Bridge

open Idealize.ShloMosaic Idealize.ShloMosaic.TcCoe Idealize.SL.Sem Idealize.ShloMosaic.StableHlo
open Cert.ReferenceIdeal.RefRun (pc0 pc1 pc2 pc3 pc4 pc5 pc6 pc7 pc8 pc9 opsA opsB opsC1 opsC2 opsD opsE1 opsE2 pc9a pc9b pc9c pc8a pc8b pc8c)
open Cert.KernelIdeal.KOps (k36a k36b k36c)

variable {F : FTy → Type} [FloatOps F]

set_option maxHeartbeats 8000000 in
/-- Same rows, same batch list: the same pooled means. -/
theorem tail1a_eq (VK : ValK F) (VR : ValR F)
    (hh : VK (Proc.devRef .tc Cert.KernelIdeal.main_v112) = VR (Proc.devRef .tc Cert.ReferenceIdeal.main_v114))
    (h3 : VK (Proc.devRef .tc Cert.KernelIdeal.main_arg3) = VR (Proc.devRef .tc Cert.ReferenceIdeal.main_arg3)) :
    after (k36a (F := F)) VK (Proc.devRef .tc Cert.KernelIdeal.main_v124) = after (pc8a : List (HloOp Cert.ReferenceIdeal.τ Cert.ReferenceIdeal.sig (Elt F))) VR (Proc.devRef .tc Cert.ReferenceIdeal.main_v126) := by
  simp only [pc8a, k36a, List.cons_append, List.nil_append]
  after_results_simp
  simp only [hh, h3]
  rfl

end Cert.Bridge

end
-- ==== Proof.SimTail1b.lean ====
/-
  The two pooled blocks side by side: one operation, which both programs apply to equal blocks.
-/
import proofs.«144298_j83494164234286_1_alg».proof.Proof.RefOpsPool
import proofs.«144298_j83494164234286_1_alg».proof.Proof.KOpsPool
import Idealize.ShloMosaic.Lib.StableHlo.Run

noncomputable section

namespace Cert.KernelIdeal.KOps
open Cert.KernelIdeal Cert.KernelIdeal.Gen Idealize.ShloMosaic Idealize.ShloMosaic.TcCoe Idealize.SL.Sem Idealize.ShloMosaic.StableHlo
variable {F : FTy → Type} [FloatOps F]
/-- Two 16 × 128 blocks side by side, as the kernel program writes it. -/
def sideBySide (a b : FVec F S16x128 .f32) : FVec F S16x256 .f32 :=
  concatenate S16x256 1 [⟨S16x128, a⟩, ⟨S16x128, b⟩] concatenates_S16x128_S16x128_S16x256_d1
theorem side_read (V : Valuation τ sig (Elt F)) :
    after (k36b (F := F)) V (Proc.devRef .tc main_v125) = sideBySide (V (Proc.devRef .tc main_v63)) (V (Proc.devRef .tc main_v124)) := by
  simp only [k36b]
  after_results_simp
  rfl
end Cert.KernelIdeal.KOps

namespace Cert.ReferenceIdeal.RefRun
open Cert.ReferenceIdeal Cert.ReferenceIdeal.Gen Idealize.ShloMosaic Idealize.ShloMosaic.TcCoe Idealize.SL.Sem Idealize.ShloMosaic.StableHlo
variable {F : FTy → Type} [FloatOps F]
/-- Two 16 × 128 blocks side by side, as the reference writes it. -/
def sideBySide (a b : FVec F S16x128 .f32) : FVec F S16x256 .f32 :=
  concatenate S16x256 1 [⟨S16x128, a⟩, ⟨S16x128, b⟩] concatenates_S16x128_S16x128_S16x256_d1
theorem side_read (V : Valuation τ sig (Elt F)) :
    after (pc8b (F := F)) V (Proc.devRef .tc main_v127) = sideBySide (V (Proc.devRef .tc main_v65)) (V (Proc.devRef .tc main_v126)) := by
  simp only [pc8b]
  after_results_simp
  rfl
end Cert.ReferenceIdeal.RefRun

namespace Cert.Bridge
open Idealize.ShloMosaic Idealize.ShloMosaic.TcCoe Idealize.SL.Sem Idealize.ShloMosaic.StableHlo
variable {F : FTy → Type} [FloatOps F]

/-- The two spellings are one function. -/
theorem side_eq (a b : FVec F ⟨2, ![16, 128]⟩ .f32) :
    Cert.KernelIdeal.KOps.sideBySide a b = Cert.ReferenceIdeal.RefRun.sideBySide a b := rfl

/-- Equal blocks side by side are equal. -/
theorem tail1b_eq (VK : Valuation Cert.KernelIdeal.τ Cert.KernelIdeal.sig (Elt F)) (VR : Valuation Cert.ReferenceIdeal.τ Cert.ReferenceIdeal.sig (Elt F))
    (hp : VK (Proc.devRef .tc Cert.KernelIdeal.main_v63) = VR (Proc.devRef .tc Cert.ReferenceIdeal.main_v65))
    (hq : VK (Proc.devRef .tc Cert.KernelIdeal.main_v124) = VR (Proc.devRef .tc Cert.ReferenceIdeal.main_v126)) :
    after (Cert.KernelIdeal.KOps.k36b (F := F)) VK (Proc.devRef .tc Cert.KernelIdeal.main_v125) = after (Cert.ReferenceIdeal.RefRun.pc8b (F := F)) VR (Proc.devRef .tc Cert.ReferenceIdeal.main_v127) := by
  rw [Cert.KernelIdeal.KOps.side_read, Cert.ReferenceIdeal.RefRun.side_read, hp, hq]
  exact side_eq _ _

end Cert.Bridge

end
-- ==== Proof.SimTail1c.lean ====
/-
  From the two pooled blocks side by side: the dense map to 128 features, the dense map to 64 features, and the first
  batch normalisation (mean and biased variance over the sixteen rows, scale, shift) with its clamp at zero.  The same
  operations on the same operands in both programs.
-/
import proofs.«144298_j83494164234286_1_alg».proof.Proof.Gen.KernelIdeal.Launch
import proofs.«144298_j83494164234286_1_alg».proof.Proof.RefOps
import proofs.«144298_j83494164234286_1_alg».proof.Proof.BridgeTypes
import proofs.«144298_j83494164234286_1_alg».proof.Proof.RefOpsTail
import proofs.«144298_j83494164234286_1_alg».proof.Proof.RefOpsPool
import proofs.«144298_j83494164234286_1_alg».proof.Proof.KOpsPool
import Idealize.ShloMosaic.Lib.StableHlo.Run

noncomputable section

namespace Cert.Bridge

open Idealize.ShloMosaic Idealize.ShloMosaic.TcCoe Idealize.SL.Sem Idealize.ShloMosaic.StableHlo
open Cert.ReferenceIdeal.RefRun (pc0 pc1 pc2 pc3 pc4 pc5 pc6 pc7 pc8 pc9 opsA opsB opsC1 opsC2 opsD opsE1 opsE2 pc9a pc9b pc9c pc8a pc8b pc8c)
open Cert.KernelIdeal.KOps (k36a k36b k36c)

variable {F : FTy → Type} [FloatOps F]

/-- The kernel program's operations from the joined pooled blocks to the first normalised block. -/
abbrev tailK1c (V : ValK F) : ValK F := after Cert.KernelIdeal.Gen.hostOps3_9 (after Cert.KernelIdeal.Gen.hostOps3_8 (after Cert.KernelIdeal.Gen.hostOps3_7 (after (k36c (F := F)) V)))

set_option maxHeartbeats 16000000 in
/-- Same joined blocks, same parameters: the same first normalised block. -/
theorem tail1c_eq (VK : ValK F) (VR : ValR F)
    (hc : VK (Proc.devRef .tc Cert.KernelIdeal.main_v125) = VR (Proc.devRef .tc Cert.ReferenceIdeal.main_v127))
    (h10 : VK (Proc.devRef .tc Cert.KernelIdeal.main_arg10) = VR (Proc.devRef .tc Cert.ReferenceIdeal.main_arg10))
    (h11 : VK (Proc.devRef .tc Cert.KernelIdeal.main_arg11) = VR (Proc.devRef .tc Cert.ReferenceIdeal.main_arg11))
    (h12 : VK (Proc.devRef .tc Cert.KernelIdeal.main_arg12) = VR (Proc.devRef .tc Cert.ReferenceIdeal.main_arg12))
    (h13 : VK (Proc.devRef .tc Cert.KernelIdeal.main_arg13) = VR (Proc.devRef .tc Cert.ReferenceIdeal.main_arg13))
    (h14 : VK (Proc.devRef .tc Cert.KernelIdeal.main_arg14) = VR (Proc.devRef .tc Cert.ReferenceIdeal.main_arg14))
    (h15 : VK (Proc.devRef .tc Cert.KernelIdeal.main_arg15) = VR (Proc.devRef .tc Cert.ReferenceIdeal.main_arg15)) :
    tailK1c VK (Proc.devRef .tc Cert.KernelIdeal.main_v153) = after (pc8c ++ pc9a : List (HloOp Cert.ReferenceIdeal.τ Cert.ReferenceIdeal.sig (Elt F))) VR (Proc.devRef .tc Cert.ReferenceIdeal.main_v155) := by
  simp only [pc8c, pc9a, k36c, List.cons_append, List.nil_append]
  after_results_simp
  simp only [hc, h10, h11, h12, h13, h14, h15]
  rfl

end Cert.Bridge

end
-- ==== Proof.KFacts2.lean ====
/-
  More bookkeeping on the kernel program's device, for the end of the program: the small parameter arrays are still as
  launched where the last dense maps and the two batch normalisations read them, and the first pooled means are not
  written while the second are computed.  The stretch that joins the two pooled blocks is read in three parts, before, at
  and after the joining operation.
-/
import proofs.«144298_j83494164234286_1_alg».proof.Proof.KFacts
import proofs.«144298_j83494164234286_1_alg».proof.Proof.KOpsPool
import Idealize.ShloMosaic.Lib.Pipeline.Frame

noncomputable section

namespace Cert.KernelIdeal.KFacts

open Cert.KernelIdeal Cert.KernelIdeal.Gen Cert.KernelIdeal.KOps
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- Computing the second pooled means does not write the first. -/
theorem k36a_keeps_v63 (V : Valuation τ sig (Elt F)) : after (k36a (F := F)) V (Proc.devRef .tc main_v63) = V (Proc.devRef .tc main_v63) := by
  simp only [k36a]
  after_results_simp

/-- The last contents are those after the three parts and the remaining stretches. -/
theorem W27_parts : W27 m ρ c = after hostOps3_14 (after hostOps3_13 (after hostOps3_12 (after hostOps3_11 (after hostOps3_10 (after hostOps3_9 (after hostOps3_8 (after hostOps3_7 (after (k36c (F := F)) (after (k36b (F := F)) (after (k36a (F := F)) (W18 m ρ c))))))))))) := by
  show after hostOps3_14 (after hostOps3_13 (after hostOps3_12 (after hostOps3_11 (after hostOps3_10 (after hostOps3_9 (after hostOps3_8 (after hostOps3_7 (after hostOps3_6 (W18 m ρ c))))))))) = _
  rw [hostOps3_6_split, StableHlo.after_append, StableHlo.after_append]

set_option maxHeartbeats 4000000 in
theorem X2_arg10 : after (k36b (F := F)) (after (k36a (F := F)) (W18 m ρ c)) (Proc.devRef .tc main_arg10) = m ((c : Thread nD τ).loc main_arg10) := by
  simp only [k36a, k36b]
  kchase
set_option maxHeartbeats 4000000 in
theorem X2_arg11 : after (k36b (F := F)) (after (k36a (F := F)) (W18 m ρ c)) (Proc.devRef .tc main_arg11) = m ((c : Thread nD τ).loc main_arg11) := by
  simp only [k36a, k36b]
  kchase
set_option maxHeartbeats 4000000 in
theorem X2_arg12 : after (k36b (F := F)) (after (k36a (F := F)) (W18 m ρ c)) (Proc.devRef .tc main_arg12) = m ((c : Thread nD τ).loc main_arg12) := by
  simp only [k36a, k36b]
  kchase
set_option maxHeartbeats 4000000 in
theorem X2_arg13 : after (k36b (F := F)) (after (k36a (F := F)) (W18 m ρ c)) (Proc.devRef .tc main_arg13) = m ((c : Thread nD τ).loc main_arg13) := by
  simp only [k36a, k36b]
  kchase
set_option maxHeartbeats 4000000 in
theorem X2_arg14 : after (k36b (F := F)) (after (k36a (F := F)) (W18 m ρ c)) (Proc.devRef .tc main_arg14) = m ((c : Thread nD τ).loc main_arg14) := by
  simp only [k36a, k36b]
  kchase
set_option maxHeartbeats 4000000 in
theorem X2_arg15 : after (k36b (F := F)) (after (k36a (F := F)) (W18 m ρ c)) (Proc.devRef .tc main_arg15) = m ((c : Thread nD τ).loc main_arg15) := by
  simp only [k36a, k36b]
  kchase
set_option maxHeartbeats 4000000 in
theorem X3_arg16 : after hostOps3_9 (after hostOps3_8 (after hostOps3_7 (after (k36c (F := F)) (after (k36b (F := F)) (after (k36a (F := F)) (W18 m ρ c)))))) (Proc.devRef .tc main_arg16) = m ((c : Thread nD τ).loc main_arg16) := by
  simp only [k36a, k36b, k36c]
  kchase
set_option maxHeartbeats 4000000 in
theorem X3_arg17 : after hostOps3_9 (after hostOps3_8 (after hostOps3_7 (after (k36c (F := F)) (after (k36b (F := F)) (after (k36a (F := F)) (W18 m ρ c)))))) (Proc.devRef .tc main_arg17) = m ((c : Thread nD τ).loc main_arg17) := by
  simp only [k36a, k36b, k36c]
  kchase
set_option maxHeartbeats 4000000 in
theorem X3_arg18 : after hostOps3_9 (after hostOps3_8 (after hostOps3_7 (after (k36c (F := F)) (after (k36b (F := F)) (after (k36a (F := F)) (W18 m ρ c)))))) (Proc.devRef .tc main_arg18) = m ((c : Thread nD τ).loc main_arg18) := by
  simp only [k36a, k36b, k36c]
  kchase
set_option maxHeartbeats 4000000 in
theorem X3_arg19 : after hostOps3_9 (after hostOps3_8 (after hostOps3_7 (after (k36c (F := F)) (after (k36b (F := F)) (after (k36a (F := F)) (W18 m ρ c)))))) (Proc.devRef .tc main_arg19) = m ((c : Thread nD τ).loc main_arg19) := by
  simp only [k36a, k36b, k36c]
  kchase
set_option maxHeartbeats 4000000 in
theorem X4_arg20 : after hostOps3_13 (after hostOps3_12 (after hostOps3_11 (after hostOps3_10 (after hostOps3_9 (after hostOps3_8 (after hostOps3_7 (after (k36c (F := F)) (after (k36b (F := F)) (after (k36a (F := F)) (W18 m ρ c)))))))))) (Proc.devRef .tc main_arg20) = m ((c : Thread nD τ).loc main_arg20) := by
  simp only [k36a, k36b, k36c]
  kchase

end Cert.KernelIdeal.KFacts

end
-- ==== Proof.RFacts2.lean ====
/-
  More bookkeeping on the reference program's device, for the end of the entry function: its last piece is read in five
  parts (the second pooled means; the joining of the two pooled blocks; up to the first normalised block; up to the second;
  the last product).  The small parameter arrays are as at the start where each part reads them, and the first pooled means
  are not written while the second are computed.
-/
import proofs.«144298_j83494164234286_1_alg».proof.Proof.RFacts
import proofs.«144298_j83494164234286_1_alg».proof.Proof.RefOpsTail
import proofs.«144298_j83494164234286_1_alg».proof.Proof.RefOpsPool

noncomputable section

namespace Cert.ReferenceIdeal.RFacts

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F] (V : Valuation τ sig (Elt F))

/-- Computing the second pooled means does not write the first. -/
theorem pc8a_keeps_v65 (W : Valuation τ sig (Elt F)) : after (pc8a (F := F)) W (Proc.devRef .tc main_v65) = W (Proc.devRef .tc main_v65) := by
  simp only [pc8a]
  after_results_simp

/-- The contents at the end are those after the five parts of the last piece. -/
theorem RE2_parts : RE2 V = after (pc9c (F := F)) (after (pc9b (F := F)) (after (pc8c ++ pc9a : List (HloOp τ sig (Elt F))) (after (pc8b (F := F)) (after (pc8a (F := F)) (RE1 V))))) := by
  show after (opsE2 (F := F)) (RE1 V) = _
  simp only [opsE2, pc8_split, pc9_split, StableHlo.after_append]

set_option maxHeartbeats 8000000 in
theorem Y2_arg10 : after (pc8b (F := F)) (after (pc8a (F := F)) (RE1 V)) (Proc.devRef .tc main_arg10) = V (Proc.devRef .tc main_arg10) := by
  simp only [RA, RB, RC1, RC2, RD, RE1, opsA, opsB, opsC1, opsC2, opsD, opsE1, pc0, pc1, pc2, pc3, pc4, pc5, pc6, pc7, pc8a, pc8b, pc8c, pc9a, pc9b, List.cons_append, List.nil_append]
  after_results_simp
set_option maxHeartbeats 8000000 in
theorem Y2_arg11 : after (pc8b (F := F)) (after (pc8a (F := F)) (RE1 V)) (Proc.devRef .tc main_arg11) = V (Proc.devRef .tc main_arg11) := by
  simp only [RA, RB, RC1, RC2, RD, RE1, opsA, opsB, opsC1, opsC2, opsD, opsE1, pc0, pc1, pc2, pc3, pc4, pc5, pc6, pc7, pc8a, pc8b, pc8c, pc9a, pc9b, List.cons_append, List.nil_append]
  after_results_simp
set_option maxHeartbeats 8000000 in
theorem Y2_arg12 : after (pc8b (F := F)) (after (pc8a (F := F)) (RE1 V)) (Proc.devRef .tc main_arg12) = V (Proc.devRef .tc main_arg12) := by
  simp only [RA, RB, RC1, RC2, RD, RE1, opsA, opsB, opsC1, opsC2, opsD, opsE1, pc0, pc1, pc2, pc3, pc4, pc5, pc6, pc7, pc8a, pc8b, pc8c, pc9a, pc9b, List.cons_append, List.nil_append]
  after_results_simp
set_option maxHeartbeats 8000000 in
theorem Y2_arg13 : after (pc8b (F := F)) (after (pc8a (F := F)) (RE1 V)) (Proc.devRef .tc main_arg13) = V (Proc.devRef .tc main_arg13) := by
  simp only [RA, RB, RC1, RC2, RD, RE1, opsA, opsB, opsC1, opsC2, opsD, opsE1, pc0, pc1, pc2, pc3, pc4, pc5, pc6, pc7, pc8a, pc8b, pc8c, pc9a, pc9b, List.cons_append, List.nil_append]
  after_results_simp
set_option maxHeartbeats 8000000 in
theorem Y2_arg14 : after (pc8b (F := F)) (after (pc8a (F := F)) (RE1 V)) (Proc.devRef .tc main_arg14) = V (Proc.devRef .tc main_arg14) := by
  simp only [RA, RB, RC1, RC2, RD, RE1, opsA, opsB, opsC1, opsC2, opsD, opsE1, pc0, pc1, pc2, pc3, pc4, pc5, pc6, pc7, pc8a, pc8b, pc8c, pc9a, pc9b, List.cons_append, List.nil_append]
  after_results_simp
set_option maxHeartbeats 8000000 in
theorem Y2_arg15 : after (pc8b (F := F)) (after (pc8a (F := F)) (RE1 V)) (Proc.devRef .tc main_arg15) = V (Proc.devRef .tc main_arg15) := by
  simp only [RA, RB, RC1, RC2, RD, RE1, opsA, opsB, opsC1, opsC2, opsD, opsE1, pc0, pc1, pc2, pc3, pc4, pc5, pc6, pc7, pc8a, pc8b, pc8c, pc9a, pc9b, List.cons_append, List.nil_append]
  after_results_simp
set_option maxHeartbeats 8000000 in
theorem Y3_arg16 : after (pc8c ++ pc9a : List (HloOp τ sig (Elt F))) (after (pc8b (F := F)) (after (pc8a (F := F)) (RE1 V))) (Proc.devRef .tc main_arg16) = V (Proc.devRef .tc main_arg16) := by
  simp only [RA, RB, RC1, RC2, RD, RE1, opsA, opsB, opsC1, opsC2, opsD, opsE1, pc0, pc1, pc2, pc3, pc4, pc5, pc6, pc7, pc8a, pc8b, pc8c, pc9a, pc9b, List.cons_append, List.nil_append]
  after_results_simp
set_option maxHeartbeats 8000000 in
theorem Y3_arg17 : after (pc8c ++ pc9a : List (HloOp τ sig (Elt F))) (after (pc8b (F := F)) (after (pc8a (F := F)) (RE1 V))) (Proc.devRef .tc main_arg17) = V (Proc.devRef .tc main_arg17) := by
  simp only [RA, RB, RC1, RC2, RD, RE1, opsA, opsB, opsC1, opsC2, opsD, opsE1, pc0, pc1, pc2, pc3, pc4, pc5, pc6, pc7, pc8a, pc8b, pc8c, pc9a, pc9b, List.cons_append, List.nil_append]
  after_results_simp
set_option maxHeartbeats 8000000 in
theorem Y3_arg18 : after (pc8c ++ pc9a : List (HloOp τ sig (Elt F))) (after (pc8b (F := F)) (after (pc8a (F := F)) (RE1 V))) (Proc.devRef .tc main_arg18) = V (Proc.devRef .tc main_arg18) := by
  simp only [RA, RB, RC1, RC2, RD, RE1, opsA, opsB, opsC1, opsC2, opsD, opsE1, pc0, pc1, pc2, pc3, pc4, pc5, pc6, pc7, pc8a, pc8b, pc8c, pc9a, pc9b, List.cons_append, List.nil_append]
  after_results_simp
set_option maxHeartbeats 8000000 in
theorem Y3_arg19 : after (pc8c ++ pc9a : List (HloOp τ sig (Elt F))) (after (pc8b (F := F)) (after (pc8a (F := F)) (RE1 V))) (Proc.devRef .tc main_arg19) = V (Proc.devRef .tc main_arg19) := by
  simp only [RA, RB, RC1, RC2, RD, RE1, opsA, opsB, opsC1, opsC2, opsD, opsE1, pc0, pc1, pc2, pc3, pc4, pc5, pc6, pc7, pc8a, pc8b, pc8c, pc9a, pc9b, List.cons_append, List.nil_append]
  after_results_simp
set_option maxHeartbeats 8000000 in
theorem Y4_arg20 : after (pc9b (F := F)) (after (pc8c ++ pc9a : List (HloOp τ sig (Elt F))) (after (pc8b (F := F)) (after (pc8a (F := F)) (RE1 V)))) (Proc.devRef .tc main_arg20) = V (Proc.devRef .tc main_arg20) := by
  simp only [RA, RB, RC1, RC2, RD, RE1, opsA, opsB, opsC1, opsC2, opsD, opsE1, pc0, pc1, pc2, pc3, pc4, pc5, pc6, pc7, pc8a, pc8b, pc8c, pc9a, pc9b, List.cons_append, List.nil_append]
  after_results_simp

end Cert.ReferenceIdeal.RFacts

end
-- ==== Proof.SimTail2.lean ====
/-
  The dense map to 32 features and the second batch normalisation with its clamp at zero: the same operations on the
  same operands in both programs.
-/
import proofs.«144298_j83494164234286_1_alg».proof.Proof.Gen.KernelIdeal.Launch
import proofs.«144298_j83494164234286_1_alg».proof.Proof.RefOps
import proofs.«144298_j83494164234286_1_alg».proof.Proof.BridgeTypes
import proofs.«144298_j83494164234286_1_alg».proof.Proof.RefOpsTail
import Idealize.ShloMosaic.Lib.StableHlo.Run

noncomputable section

namespace Cert.Bridge

open Idealize.ShloMosaic Idealize.ShloMosaic.TcCoe Idealize.SL.Sem Idealize.ShloMosaic.StableHlo
open Cert.ReferenceIdeal.RefRun (pc0 pc1 pc2 pc3 pc4 pc5 pc6 pc7 pc8 pc9 opsA opsB opsC1 opsC2 opsD opsE1 opsE2 pc9a pc9b pc9c)

variable {F : FTy → Type} [FloatOps F]

/-- The kernel program's operations from the first normalised block to the second. -/
abbrev tailK2 (V : ValK F) : ValK F := after Cert.KernelIdeal.Gen.hostOps3_13 (after Cert.KernelIdeal.Gen.hostOps3_12 (after Cert.KernelIdeal.Gen.hostOps3_11 (after Cert.KernelIdeal.Gen.hostOps3_10 (V))))

set_option maxHeartbeats 16000000 in
/-- Same first normalised block, same parameters: the same second normalised block. -/
theorem tail2_eq (VK : ValK F) (VR : ValR F)
    (hz : VK (Proc.devRef .tc Cert.KernelIdeal.main_v153) = VR (Proc.devRef .tc Cert.ReferenceIdeal.main_v155))
    (h16 : VK (Proc.devRef .tc Cert.KernelIdeal.main_arg16) = VR (Proc.devRef .tc Cert.ReferenceIdeal.main_arg16))
    (h17 : VK (Proc.devRef .tc Cert.KernelIdeal.main_arg17) = VR (Proc.devRef .tc Cert.ReferenceIdeal.main_arg17))
    (h18 : VK (Proc.devRef .tc Cert.KernelIdeal.main_arg18) = VR (Proc.devRef .tc Cert.ReferenceIdeal.main_arg18))
    (h19 : VK (Proc.devRef .tc Cert.KernelIdeal.main_arg19) = VR (Proc.devRef .tc Cert.ReferenceIdeal.main_arg19)) :
    tailK2 VK (Proc.devRef .tc Cert.KernelIdeal.main_v177) = after (pc9b : List (HloOp Cert.ReferenceIdeal.τ Cert.ReferenceIdeal.sig (Elt F))) VR (Proc.devRef .tc Cert.ReferenceIdeal.main_v179) := by
  simp only [pc9b, List.cons_append, List.nil_append]
  after_results_simp
  simp only [hz, h16, h17, h18, h19]
  rfl

end Cert.Bridge

end
-- ==== Proof.SimTail3.lean ====
/-
  The last dense map, to four columns: the same product in both programs.
-/
import proofs.«144298_j83494164234286_1_alg».proof.Proof.Gen.KernelIdeal.Launch
import proofs.«144298_j83494164234286_1_alg».proof.Proof.RefOps
import proofs.«144298_j83494164234286_1_alg».proof.Proof.BridgeTypes
import proofs.«144298_j83494164234286_1_alg».proof.Proof.RefOpsTail
import Idealize.ShloMosaic.Lib.StableHlo.Run

noncomputable section

namespace Cert.Bridge

open Idealize.ShloMosaic Idealize.ShloMosaic.TcCoe Idealize.SL.Sem Idealize.ShloMosaic.StableHlo
open Cert.ReferenceIdeal.RefRun (pc0 pc1 pc2 pc3 pc4 pc5 pc6 pc7 pc8 pc9 opsA opsB opsC1 opsC2 opsD opsE1 opsE2 pc9a pc9b pc9c)

variable {F : FTy → Type} [FloatOps F]

set_option maxHeartbeats 4000000 in
/-- Same second normalised block, same weights: the same result. -/
theorem tail3_eq (VK : ValK F) (VR : ValR F)
    (hz : VK (Proc.devRef .tc Cert.KernelIdeal.main_v177) = VR (Proc.devRef .tc Cert.ReferenceIdeal.main_v179))
    (h20 : VK (Proc.devRef .tc Cert.KernelIdeal.main_arg20) = VR (Proc.devRef .tc Cert.ReferenceIdeal.main_arg20)) :
    after Cert.KernelIdeal.Gen.hostOps3_14 VK (Proc.devRef .tc Cert.KernelIdeal.main_v178) = after (pc9c : List (HloOp Cert.ReferenceIdeal.τ Cert.ReferenceIdeal.sig (Elt F))) VR (Proc.devRef .tc Cert.ReferenceIdeal.main_v180) := by
  simp only [pc9c, List.cons_append, List.nil_append]
  after_results_simp
  simp only [hz, h20]
  rfl

end Cert.Bridge

end
-- ==== Proof.Bridge.lean ====
/-
  The two programs compute the same result.  Both are followed from the launch: the kernel program through its stretches of
  host operations and its three row-blocked dense layers, the reference through the seven pieces of its entry function.
  At each of seven milestones the value the kernel program holds equals the value the reference holds:
    the first layer's output (a dense layer with bias and clamp: one whole-array function on both sides);
    the second layer's output (a dense layer whose bias row is zero, against the plain product: x + 0 = x);
    the clamped first aggregation and the first pooled means (the same host operations on equal operands);
    the third layer's output (as the second);
    the clamped second aggregation; and the result (again the same host operations on equal operands).
-/
import proofs.«144298_j83494164234286_1_alg».proof.Proof.KFacts
import proofs.«144298_j83494164234286_1_alg».proof.Proof.RFacts
import proofs.«144298_j83494164234286_1_alg».proof.Proof.RefRead
import proofs.«144298_j83494164234286_1_alg».proof.Proof.RegionValue0
import proofs.«144298_j83494164234286_1_alg».proof.Proof.RegionValue1
import proofs.«144298_j83494164234286_1_alg».proof.Proof.RegionValue2
import proofs.«144298_j83494164234286_1_alg».proof.Proof.SimAgg1
import proofs.«144298_j83494164234286_1_alg».proof.Proof.SimPool1
import proofs.«144298_j83494164234286_1_alg».proof.Proof.SimAgg2
import proofs.«144298_j83494164234286_1_alg».proof.Proof.SimTail1a
import proofs.«144298_j83494164234286_1_alg».proof.Proof.SimTail1b
import proofs.«144298_j83494164234286_1_alg».proof.Proof.SimTail1c
import proofs.«144298_j83494164234286_1_alg».proof.Proof.KFacts2
import proofs.«144298_j83494164234286_1_alg».proof.Proof.RFacts2
import proofs.«144298_j83494164234286_1_alg».proof.Proof.SimTail2
import proofs.«144298_j83494164234286_1_alg».proof.Proof.SimTail3

noncomputable section

namespace Cert.Bridge

open Idealize.ShloMosaic Idealize.ShloMosaic.TcCoe Idealize.SL.Sem Idealize.ShloMosaic.StableHlo Idealize.ShloMosaic.ValueIdx
open Cert.ReferenceIdeal.RefRun (pc8 pc9 pc8a pc8b pc8c pc9a pc9b pc9c opsA opsB opsC1 opsC2 opsD opsE1 opsE2 ops)

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD) (VR : ValR Ideal)

/-- The two programs are launched on the same argument arrays. -/
structure SameArgs : Prop where
  a0 : VR (Proc.devRef .tc Cert.ReferenceIdeal.main_arg0) = m ((c : Thread Cert.KernelIdeal.nD Cert.KernelIdeal.τ).loc Cert.KernelIdeal.main_arg0)
  a1 : VR (Proc.devRef .tc Cert.ReferenceIdeal.main_arg1) = m ((c : Thread Cert.KernelIdeal.nD Cert.KernelIdeal.τ).loc Cert.KernelIdeal.main_arg1)
  a2 : VR (Proc.devRef .tc Cert.ReferenceIdeal.main_arg2) = m ((c : Thread Cert.KernelIdeal.nD Cert.KernelIdeal.τ).loc Cert.KernelIdeal.main_arg2)
  a3 : VR (Proc.devRef .tc Cert.ReferenceIdeal.main_arg3) = m ((c : Thread Cert.KernelIdeal.nD Cert.KernelIdeal.τ).loc Cert.KernelIdeal.main_arg3)
  a4 : VR (Proc.devRef .tc Cert.ReferenceIdeal.main_arg4) = m ((c : Thread Cert.KernelIdeal.nD Cert.KernelIdeal.τ).loc Cert.KernelIdeal.main_arg4)
  a5 : VR (Proc.devRef .tc Cert.ReferenceIdeal.main_arg5) = m ((c : Thread Cert.KernelIdeal.nD Cert.KernelIdeal.τ).loc Cert.KernelIdeal.main_arg5)
  a6 : VR (Proc.devRef .tc Cert.ReferenceIdeal.main_arg6) = m ((c : Thread Cert.KernelIdeal.nD Cert.KernelIdeal.τ).loc Cert.KernelIdeal.main_arg6)
  a7 : VR (Proc.devRef .tc Cert.ReferenceIdeal.main_arg7) = m ((c : Thread Cert.KernelIdeal.nD Cert.KernelIdeal.τ).loc Cert.KernelIdeal.main_arg7)
  a8 : VR (Proc.devRef .tc Cert.ReferenceIdeal.main_arg8) = m ((c : Thread Cert.KernelIdeal.nD Cert.KernelIdeal.τ).loc Cert.KernelIdeal.main_arg8)
  a9 : VR (Proc.devRef .tc Cert.ReferenceIdeal.main_arg9) = m ((c : Thread Cert.KernelIdeal.nD Cert.KernelIdeal.τ).loc Cert.KernelIdeal.main_arg9)
  a10 : VR (Proc.devRef .tc Cert.ReferenceIdeal.main_arg10) = m ((c : Thread Cert.KernelIdeal.nD Cert.KernelIdeal.τ).loc Cert.KernelIdeal.main_arg10)
  a11 : VR (Proc.devRef .tc Cert.ReferenceIdeal.main_arg11) = m ((c : Thread Cert.KernelIdeal.nD Cert.KernelIdeal.τ).loc Cert.KernelIdeal.main_arg11)
  a12 : VR (Proc.devRef .tc Cert.ReferenceIdeal.main_arg12) = m ((c : Thread Cert.KernelIdeal.nD Cert.KernelIdeal.τ).loc Cert.KernelIdeal.main_arg12)
  a13 : VR (Proc.devRef .tc Cert.ReferenceIdeal.main_arg13) = m ((c : Thread Cert.KernelIdeal.nD Cert.KernelIdeal.τ).loc Cert.KernelIdeal.main_arg13)
  a14 : VR (Proc.devRef .tc Cert.ReferenceIdeal.main_arg14) = m ((c : Thread Cert.KernelIdeal.nD Cert.KernelIdeal.τ).loc Cert.KernelIdeal.main_arg14)
  a15 : VR (Proc.devRef .tc Cert.ReferenceIdeal.main_arg15) = m ((c : Thread Cert.KernelIdeal.nD Cert.KernelIdeal.τ).loc Cert.KernelIdeal.main_arg15)
  a16 : VR (Proc.devRef .tc Cert.ReferenceIdeal.main_arg16) = m ((c : Thread Cert.KernelIdeal.nD Cert.KernelIdeal.τ).loc Cert.KernelIdeal.main_arg16)
  a17 : VR (Proc.devRef .tc Cert.ReferenceIdeal.main_arg17) = m ((c : Thread Cert.KernelIdeal.nD Cert.KernelIdeal.τ).loc Cert.KernelIdeal.main_arg17)
  a18 : VR (Proc.devRef .tc Cert.ReferenceIdeal.main_arg18) = m ((c : Thread Cert.KernelIdeal.nD Cert.KernelIdeal.τ).loc Cert.KernelIdeal.main_arg18)
  a19 : VR (Proc.devRef .tc Cert.ReferenceIdeal.main_arg19) = m ((c : Thread Cert.KernelIdeal.nD Cert.KernelIdeal.τ).loc Cert.KernelIdeal.main_arg19)
  a20 : VR (Proc.devRef .tc Cert.ReferenceIdeal.main_arg20) = m ((c : Thread Cert.KernelIdeal.nD Cert.KernelIdeal.τ).loc Cert.KernelIdeal.main_arg20)

variable {m c VR}

/-- The first layer's output. -/
theorem first_layer (h : SameArgs m c VR) : Cert.KernelIdeal.Gen.W2 m ρ c (Proc.devRef .tc Cert.KernelIdeal.main_v2) = Cert.ReferenceIdeal.RFacts.RA VR (Proc.devRef .tc Cert.ReferenceIdeal.main_v4) := by
  have hK : Cert.KernelIdeal.Gen.W2 m ρ c (Proc.devRef .tc Cert.KernelIdeal.main_v2)
      = Cert.LinSpec.reluAffine64 (m ((c : Thread Cert.KernelIdeal.nD Cert.KernelIdeal.τ).loc Cert.KernelIdeal.main_arg0)) (m ((c : Thread Cert.KernelIdeal.nD Cert.KernelIdeal.τ).loc Cert.KernelIdeal.main_arg4)) (Cert.KernelIdeal.Gen.W1 m ρ c (Proc.devRef .tc Cert.KernelIdeal.main_v1)) := by
    refine (Cert.KernelIdeal.Gen.W2_arr m ρ c 3).trans ?_
    refine (Cert.KernelIdeal.RegionValue.region0 (Cert.KernelIdeal.Gen.V1 m ρ) c).trans ?_
    show Cert.LinSpec.reluAffine64 (Cert.KernelIdeal.Gen.W1 m ρ c (Proc.devRef .tc Cert.KernelIdeal.main_arg0)) (Cert.KernelIdeal.Gen.W1 m ρ c (Proc.devRef .tc Cert.KernelIdeal.main_arg4)) (Cert.KernelIdeal.Gen.W1 m ρ c (Proc.devRef .tc Cert.KernelIdeal.main_v1)) = _
    rw [Cert.KernelIdeal.KFacts.W1_arg0, Cert.KernelIdeal.KFacts.W1_arg4]
  have hR : Cert.ReferenceIdeal.RFacts.RA VR (Proc.devRef .tc Cert.ReferenceIdeal.main_v4)
      = Cert.LinSpec.reluAffine64 (VR (Proc.devRef .tc Cert.ReferenceIdeal.main_arg0)) (VR (Proc.devRef .tc Cert.ReferenceIdeal.main_arg4)) (Cert.KernelIdeal.Gen.W1 m ρ c (Proc.devRef .tc Cert.KernelIdeal.main_v1)) := by
    refine (Cert.ReferenceIdeal.RFacts.A_v4 VR).trans ?_
    refine Cert.ReferenceIdeal.RefRead.layer0 _ _ (VR (Proc.devRef .tc Cert.ReferenceIdeal.main_arg5)) _ (fun q => ?_)
    rw [Cert.KernelIdeal.KFacts.W1_v1, h.a5]
    exact Cert.ReferenceIdeal.RefRead.row_of_reshape _ _ q
  rw [hK, hR, h.a0, h.a4]

/-- The second layer's output: on the kernel side the dense layer with a zero bias row, on the reference side the plain product. -/
theorem second_layer (h : SameArgs m c VR) : Cert.KernelIdeal.Gen.W4 m ρ c (Proc.devRef .tc Cert.KernelIdeal.main_v4) = Cert.ReferenceIdeal.RFacts.RB VR (Proc.devRef .tc Cert.ReferenceIdeal.main_v5) := by
  have hK : Cert.KernelIdeal.Gen.W4 m ρ c (Proc.devRef .tc Cert.KernelIdeal.main_v4)
      = Cert.LinSpec.affine128 (Cert.KernelIdeal.Gen.W2 m ρ c (Proc.devRef .tc Cert.KernelIdeal.main_v2)) (m ((c : Thread Cert.KernelIdeal.nD Cert.KernelIdeal.τ).loc Cert.KernelIdeal.main_arg6)) (Cert.KernelIdeal.Gen.W3 m ρ c (Proc.devRef .tc Cert.KernelIdeal.main_v3)) := by
    refine (Cert.KernelIdeal.Gen.W4_arr m ρ c 3).trans ?_
    refine (Cert.KernelIdeal.RegionValue.region1 (Cert.KernelIdeal.Gen.V3 m ρ) c).trans ?_
    show Cert.LinSpec.affine128 (Cert.KernelIdeal.Gen.W3 m ρ c (Proc.devRef .tc Cert.KernelIdeal.main_v2)) (Cert.KernelIdeal.Gen.W3 m ρ c (Proc.devRef .tc Cert.KernelIdeal.main_arg6)) (Cert.KernelIdeal.Gen.W3 m ρ c (Proc.devRef .tc Cert.KernelIdeal.main_v3)) = _
    rw [Cert.KernelIdeal.KFacts.W3_v2, Cert.KernelIdeal.KFacts.W3_arg6]
  have hR : Cert.ReferenceIdeal.RFacts.RB VR (Proc.devRef .tc Cert.ReferenceIdeal.main_v5)
      = Cert.LinSpec.affine128 (Cert.ReferenceIdeal.RFacts.RA VR (Proc.devRef .tc Cert.ReferenceIdeal.main_v4)) (VR (Proc.devRef .tc Cert.ReferenceIdeal.main_arg6)) (Cert.KernelIdeal.Gen.W3 m ρ c (Proc.devRef .tc Cert.KernelIdeal.main_v3)) := by
    refine (Cert.ReferenceIdeal.RFacts.B_v5 (Cert.ReferenceIdeal.RFacts.RA VR)).trans ?_
    rw [Cert.ReferenceIdeal.RFacts.RA_arg6]
    refine Cert.ReferenceIdeal.RefRead.layer1 _ _ _ (fun q => ?_)
    rw [Cert.KernelIdeal.KFacts.W3_v3]
    exact Cert.ReferenceIdeal.RefRead.zero_row _ _ q
  rw [hK, hR, first_layer ρ h, h.a6]

/-- The clamped first aggregation. -/
theorem first_agg (h : SameArgs m c VR) : Cert.KernelIdeal.Gen.W10 m ρ c (Proc.devRef .tc Cert.KernelIdeal.main_v51) = Cert.ReferenceIdeal.RFacts.RC1 VR (Proc.devRef .tc Cert.ReferenceIdeal.main_v53) :=
  agg1_eq (Cert.KernelIdeal.Gen.W4 m ρ c) (Cert.ReferenceIdeal.RFacts.RB VR) (second_layer ρ h)
    ((Cert.KernelIdeal.KFacts.W4_arg1 m ρ c).trans (h.a1.symm.trans (Cert.ReferenceIdeal.RFacts.RB_arg1 VR).symm))
    ((Cert.KernelIdeal.KFacts.W4_arg2 m ρ c).trans (h.a2.symm.trans (Cert.ReferenceIdeal.RFacts.RB_arg2 VR).symm))
    ((Cert.KernelIdeal.KFacts.W4_arg7 m ρ c).trans (h.a7.symm.trans (Cert.ReferenceIdeal.RFacts.RB_arg7 VR).symm))

/-- The first pooled means. -/
theorem first_pool (h : SameArgs m c VR) : Cert.KernelIdeal.Gen.W11 m ρ c (Proc.devRef .tc Cert.KernelIdeal.main_v63) = Cert.ReferenceIdeal.RFacts.RC2 VR (Proc.devRef .tc Cert.ReferenceIdeal.main_v65) :=
  pool1_eq (Cert.KernelIdeal.Gen.W10 m ρ c) (Cert.ReferenceIdeal.RFacts.RC1 VR) (first_agg ρ h)
    ((Cert.KernelIdeal.KFacts.W10_arg3 m ρ c).trans (h.a3.symm.trans (Cert.ReferenceIdeal.RFacts.RC1_arg3 VR).symm))

/-- The third layer's output. -/
theorem third_layer (h : SameArgs m c VR) : Cert.KernelIdeal.Gen.W12 m ρ c (Proc.devRef .tc Cert.KernelIdeal.main_v65) = Cert.ReferenceIdeal.RFacts.RD VR (Proc.devRef .tc Cert.ReferenceIdeal.main_v66) := by
  have hK : Cert.KernelIdeal.Gen.W12 m ρ c (Proc.devRef .tc Cert.KernelIdeal.main_v65)
      = Cert.LinSpec.affine128 (Cert.KernelIdeal.Gen.W10 m ρ c (Proc.devRef .tc Cert.KernelIdeal.main_v51)) (m ((c : Thread Cert.KernelIdeal.nD Cert.KernelIdeal.τ).loc Cert.KernelIdeal.main_arg8)) (Cert.KernelIdeal.Gen.W11 m ρ c (Proc.devRef .tc Cert.KernelIdeal.main_v64)) := by
    refine (Cert.KernelIdeal.Gen.W12_arr m ρ c 3).trans ?_
    refine (Cert.KernelIdeal.RegionValue.region2 (Cert.KernelIdeal.Gen.V11 m ρ) c).trans ?_
    show Cert.LinSpec.affine128 (Cert.KernelIdeal.Gen.W11 m ρ c (Proc.devRef .tc Cert.KernelIdeal.main_v51)) (Cert.KernelIdeal.Gen.W11 m ρ c (Proc.devRef .tc Cert.KernelIdeal.main_arg8)) (Cert.KernelIdeal.Gen.W11 m ρ c (Proc.devRef .tc Cert.KernelIdeal.main_v64)) = _
    rw [Cert.KernelIdeal.KFacts.W11_arg8, show Cert.KernelIdeal.Gen.W11 m ρ c (Proc.devRef .tc Cert.KernelIdeal.main_v51) = Cert.KernelIdeal.Gen.W10 m ρ c (Proc.devRef .tc Cert.KernelIdeal.main_v51) from Cert.KernelIdeal.KFacts.pool_keeps_v51 (Cert.KernelIdeal.Gen.W10 m ρ c)]
  have hR : Cert.ReferenceIdeal.RFacts.RD VR (Proc.devRef .tc Cert.ReferenceIdeal.main_v66)
      = Cert.LinSpec.affine128 (Cert.ReferenceIdeal.RFacts.RC1 VR (Proc.devRef .tc Cert.ReferenceIdeal.main_v53)) (VR (Proc.devRef .tc Cert.ReferenceIdeal.main_arg8)) (Cert.KernelIdeal.Gen.W11 m ρ c (Proc.devRef .tc Cert.KernelIdeal.main_v64)) := by
    refine (Cert.ReferenceIdeal.RFacts.D_v66 (Cert.ReferenceIdeal.RFacts.RC2 VR)).trans ?_
    rw [Cert.ReferenceIdeal.RFacts.RC2_arg8, show Cert.ReferenceIdeal.RFacts.RC2 VR (Proc.devRef .tc Cert.ReferenceIdeal.main_v53) = Cert.ReferenceIdeal.RFacts.RC1 VR (Proc.devRef .tc Cert.ReferenceIdeal.main_v53) from Cert.ReferenceIdeal.RFacts.C2_keeps_v53 (Cert.ReferenceIdeal.RFacts.RC1 VR)]
    refine Cert.ReferenceIdeal.RefRead.layer1 _ _ _ (fun q => ?_)
    rw [Cert.KernelIdeal.KFacts.W11_v64]
    exact Cert.ReferenceIdeal.RefRead.zero_row _ _ q
  rw [hK, hR, first_agg ρ h, h.a8]

/-- The clamped second aggregation. -/
theorem second_agg (h : SameArgs m c VR) : Cert.KernelIdeal.Gen.W18 m ρ c (Proc.devRef .tc Cert.KernelIdeal.main_v112) = Cert.ReferenceIdeal.RFacts.RE1 VR (Proc.devRef .tc Cert.ReferenceIdeal.main_v114) :=
  agg2_eq (Cert.KernelIdeal.Gen.W12 m ρ c) (Cert.ReferenceIdeal.RFacts.RD VR) (third_layer ρ h)
    ((Cert.KernelIdeal.KFacts.W12_arg1 m ρ c).trans (h.a1.symm.trans (Cert.ReferenceIdeal.RFacts.RD_arg1 VR).symm))
    ((Cert.KernelIdeal.KFacts.W12_arg2 m ρ c).trans (h.a2.symm.trans (Cert.ReferenceIdeal.RFacts.RD_arg2 VR).symm))
    ((Cert.KernelIdeal.KFacts.W12_arg9 m ρ c).trans (h.a9.symm.trans (Cert.ReferenceIdeal.RFacts.RD_arg9 VR).symm))

/-- The first pooled means are still in place when the end of the programs reads them. -/
theorem first_pool_late (h : SameArgs m c VR) : Cert.KernelIdeal.Gen.W18 m ρ c (Proc.devRef .tc Cert.KernelIdeal.main_v63) = Cert.ReferenceIdeal.RFacts.RE1 VR (Proc.devRef .tc Cert.ReferenceIdeal.main_v65) :=
  calc Cert.KernelIdeal.Gen.W18 m ρ c (Proc.devRef .tc Cert.KernelIdeal.main_v63)
      _ = Cert.KernelIdeal.Gen.W12 m ρ c (Proc.devRef .tc Cert.KernelIdeal.main_v63) := Cert.KernelIdeal.KFacts.agg2_keeps_v63 (Cert.KernelIdeal.Gen.W12 m ρ c)
      _ = Cert.KernelIdeal.Gen.W11 m ρ c (Proc.devRef .tc Cert.KernelIdeal.main_v63) := Cert.KernelIdeal.KFacts.W12_v63 m ρ c
      _ = Cert.ReferenceIdeal.RFacts.RC2 VR (Proc.devRef .tc Cert.ReferenceIdeal.main_v65) := first_pool ρ h
      _ = Cert.ReferenceIdeal.RFacts.RD VR (Proc.devRef .tc Cert.ReferenceIdeal.main_v65) := (Cert.ReferenceIdeal.RFacts.D_keeps_v65 (Cert.ReferenceIdeal.RFacts.RC2 VR)).symm
      _ = Cert.ReferenceIdeal.RFacts.RE1 VR (Proc.devRef .tc Cert.ReferenceIdeal.main_v65) := (Cert.ReferenceIdeal.RFacts.E1_keeps_v65 (Cert.ReferenceIdeal.RFacts.RD VR)).symm

/-- The result. -/
theorem result_eq (h : SameArgs m c VR) :
    Cert.KernelIdeal.Gen.W27 m ρ c (Proc.devRef .tc Cert.KernelIdeal.main_v178) = after (ops (F := Ideal)) VR (Proc.devRef .tc Cert.ReferenceIdeal.main_v180) := by
  rw [Cert.ReferenceIdeal.RFacts.after_ops, Cert.ReferenceIdeal.RFacts.RE2_parts, Cert.KernelIdeal.KFacts.W27_parts]
  -- the second pooled means
  have e1 : (after (Cert.KernelIdeal.KOps.k36a (F := Ideal)) (Cert.KernelIdeal.Gen.W18 m ρ c)) (Proc.devRef .tc Cert.KernelIdeal.main_v124) = (after (pc8a (F := Ideal)) (Cert.ReferenceIdeal.RFacts.RE1 VR)) (Proc.devRef .tc Cert.ReferenceIdeal.main_v126) :=
    tail1a_eq (Cert.KernelIdeal.Gen.W18 m ρ c) (Cert.ReferenceIdeal.RFacts.RE1 VR) (second_agg ρ h) ((Cert.KernelIdeal.KFacts.W18_arg3 m ρ c).trans (h.a3.symm.trans (Cert.ReferenceIdeal.RFacts.RE1_arg3 VR).symm))
  -- the two pooled blocks side by side
  have e2 : (after (Cert.KernelIdeal.KOps.k36b (F := Ideal)) (after (Cert.KernelIdeal.KOps.k36a (F := Ideal)) (Cert.KernelIdeal.Gen.W18 m ρ c))) (Proc.devRef .tc Cert.KernelIdeal.main_v125) = (after (pc8b (F := Ideal)) (after (pc8a (F := Ideal)) (Cert.ReferenceIdeal.RFacts.RE1 VR))) (Proc.devRef .tc Cert.ReferenceIdeal.main_v127) :=
    tail1b_eq (after (Cert.KernelIdeal.KOps.k36a (F := Ideal)) (Cert.KernelIdeal.Gen.W18 m ρ c)) (after (pc8a (F := Ideal)) (Cert.ReferenceIdeal.RFacts.RE1 VR))
      (((Cert.KernelIdeal.KFacts.k36a_keeps_v63 (Cert.KernelIdeal.Gen.W18 m ρ c)).trans (first_pool_late ρ h)).trans (Cert.ReferenceIdeal.RFacts.pc8a_keeps_v65 (Cert.ReferenceIdeal.RFacts.RE1 VR)).symm) e1
  -- the first normalised block
  have e3 : (tailK1c (after (Cert.KernelIdeal.KOps.k36b (F := Ideal)) (after (Cert.KernelIdeal.KOps.k36a (F := Ideal)) (Cert.KernelIdeal.Gen.W18 m ρ c)))) (Proc.devRef .tc Cert.KernelIdeal.main_v153) = (after (pc8c ++ pc9a : List (HloOp Cert.ReferenceIdeal.τ Cert.ReferenceIdeal.sig (Elt Ideal))) (after (pc8b (F := Ideal)) (after (pc8a (F := Ideal)) (Cert.ReferenceIdeal.RFacts.RE1 VR)))) (Proc.devRef .tc Cert.ReferenceIdeal.main_v155) :=
    tail1c_eq (after (Cert.KernelIdeal.KOps.k36b (F := Ideal)) (after (Cert.KernelIdeal.KOps.k36a (F := Ideal)) (Cert.KernelIdeal.Gen.W18 m ρ c))) (after (pc8b (F := Ideal)) (after (pc8a (F := Ideal)) (Cert.ReferenceIdeal.RFacts.RE1 VR))) e2
      ((Cert.KernelIdeal.KFacts.X2_arg10 m ρ c).trans (h.a10.symm.trans (Cert.ReferenceIdeal.RFacts.Y2_arg10 VR).symm))
      ((Cert.KernelIdeal.KFacts.X2_arg11 m ρ c).trans (h.a11.symm.trans (Cert.ReferenceIdeal.RFacts.Y2_arg11 VR).symm))
      ((Cert.KernelIdeal.KFacts.X2_arg12 m ρ c).trans (h.a12.symm.trans (Cert.ReferenceIdeal.RFacts.Y2_arg12 VR).symm))
      ((Cert.KernelIdeal.KFacts.X2_arg13 m ρ c).trans (h.a13.symm.trans (Cert.ReferenceIdeal.RFacts.Y2_arg13 VR).symm))
      ((Cert.KernelIdeal.KFacts.X2_arg14 m ρ c).trans (h.a14.symm.trans (Cert.ReferenceIdeal.RFacts.Y2_arg14 VR).symm))
      ((Cert.KernelIdeal.KFacts.X2_arg15 m ρ c).trans (h.a15.symm.trans (Cert.ReferenceIdeal.RFacts.Y2_arg15 VR).symm))
  -- the second normalised block
  have e4 : (tailK2 (tailK1c (after (Cert.KernelIdeal.KOps.k36b (F := Ideal)) (after (Cert.KernelIdeal.KOps.k36a (F := Ideal)) (Cert.KernelIdeal.Gen.W18 m ρ c))))) (Proc.devRef .tc Cert.KernelIdeal.main_v177) = (after (pc9b (F := Ideal)) (after (pc8c ++ pc9a : List (HloOp Cert.ReferenceIdeal.τ Cert.ReferenceIdeal.sig (Elt Ideal))) (after (pc8b (F := Ideal)) (after (pc8a (F := Ideal)) (Cert.ReferenceIdeal.RFacts.RE1 VR))))) (Proc.devRef .tc Cert.ReferenceIdeal.main_v179) :=
    tail2_eq (tailK1c (after (Cert.KernelIdeal.KOps.k36b (F := Ideal)) (after (Cert.KernelIdeal.KOps.k36a (F := Ideal)) (Cert.KernelIdeal.Gen.W18 m ρ c)))) (after (pc8c ++ pc9a : List (HloOp Cert.ReferenceIdeal.τ Cert.ReferenceIdeal.sig (Elt Ideal))) (after (pc8b (F := Ideal)) (after (pc8a (F := Ideal)) (Cert.ReferenceIdeal.RFacts.RE1 VR)))) e3
      ((Cert.KernelIdeal.KFacts.X3_arg16 m ρ c).trans (h.a16.symm.trans (Cert.ReferenceIdeal.RFacts.Y3_arg16 VR).symm))
      ((Cert.KernelIdeal.KFacts.X3_arg17 m ρ c).trans (h.a17.symm.trans (Cert.ReferenceIdeal.RFacts.Y3_arg17 VR).symm))
      ((Cert.KernelIdeal.KFacts.X3_arg18 m ρ c).trans (h.a18.symm.trans (Cert.ReferenceIdeal.RFacts.Y3_arg18 VR).symm))
      ((Cert.KernelIdeal.KFacts.X3_arg19 m ρ c).trans (h.a19.symm.trans (Cert.ReferenceIdeal.RFacts.Y3_arg19 VR).symm))
  -- the last product
  exact tail3_eq (tailK2 (tailK1c (after (Cert.KernelIdeal.KOps.k36b (F := Ideal)) (after (Cert.KernelIdeal.KOps.k36a (F := Ideal)) (Cert.KernelIdeal.Gen.W18 m ρ c))))) (after (pc9b (F := Ideal)) (after (pc8c ++ pc9a : List (HloOp Cert.ReferenceIdeal.τ Cert.ReferenceIdeal.sig (Elt Ideal))) (after (pc8b (F := Ideal)) (after (pc8a (F := Ideal)) (Cert.ReferenceIdeal.RFacts.RE1 VR))))) e4 ((Cert.KernelIdeal.KFacts.X4_arg20 m ρ c).trans (h.a20.symm.trans (Cert.ReferenceIdeal.RFacts.Y4_arg20 VR).symm))

end Cert.Bridge

end
-- ==== Proof.lean ====
/-
  The certificate of one graph network evaluated two ways.  The kernel program runs its three large dense layers
  (200000 rows times 64 or 128 features into 128 features, with a bias row, the first followed by a clamp at zero) as
  row-blocked kernels of 4000 rows per grid point, with the inputs narrowed to bf16 on the way into a matrix product that
  accumulates in f32 from zero, and leaves everything else — the hypergraph aggregation by gather and scatter-sum along the
  incidence lists with degree normalisation, the mean pooling per graph, and the small dense tail with two batch
  normalisations — to host operations.  The reference evaluates the same network with plain dense products.
  Over the extended reals a change of float format is the identity and both products are the same finite sums, so each
  dense layer is one whole-array function on both sides (x + 0 = x also at the infinities, for the two layers whose bias
  row is zero); the host operations between and after the layers are the same operations in both programs, applied to
  equal operands.  No finiteness of the inputs is used.
  The three frames: the two kernel programs' are the three-region runs over the row-blocked layers; the reference's is its
  straight-line run.  Nothing was rewritten on the way to the idealised kernel program, so that conjunct is trivial.
-/
import proofs.«144298_j83494164234286_1_alg».proof.Defs
import proofs.«144298_j83494164234286_1_alg».proof.Proof.Gen.Kernel
import proofs.«144298_j83494164234286_1_alg».proof.Proof.Gen.Kernel.Skeleton
import proofs.«144298_j83494164234286_1_alg».proof.Proof.Gen.Kernel.Launch
import proofs.«144298_j83494164234286_1_alg».proof.Proof.Gen.Kernel.Points
import proofs.«144298_j83494164234286_1_alg».proof.Proof.Gen.Kernel.Frame
import proofs.«144298_j83494164234286_1_alg».proof.Proof.Gen.KernelIdeal
import proofs.«144298_j83494164234286_1_alg».proof.Proof.Gen.KernelIdeal.Skeleton
import proofs.«144298_j83494164234286_1_alg».proof.Proof.Gen.KernelIdeal.Launch
import proofs.«144298_j83494164234286_1_alg».proof.Proof.Gen.KernelIdeal.Points
import proofs.«144298_j83494164234286_1_alg».proof.Proof.Gen.KernelIdeal.Frame
import proofs.«144298_j83494164234286_1_alg».proof.Proof.Gen.ReferenceIdeal
import proofs.«144298_j83494164234286_1_alg».proof.Proof.Gen.Pre_finite_inputs
import proofs.«144298_j83494164234286_1_alg».proof.Proof.KVal
import proofs.«144298_j83494164234286_1_alg».proof.Proof.RefRun
import proofs.«144298_j83494164234286_1_alg».proof.Proof.Bridge
import Idealize.ShloMosaic.Adequacy
import Idealize.ShloMosaic.Init

noncomputable section

namespace Cert.Proof

open Idealize.ShloMosaic Idealize.SL.Sem Idealize.ShloMosaic.StableHlo

/-- The word-level kernel program runs and keeps its arguments. -/
theorem frame_k : Cert.frame_Kernel := fun m ρ _ => Cert.Kernel.Gen.frame m ρ

/-- The idealised kernel program runs and keeps its arguments. -/
theorem frame_ki : Cert.frame_KernelIdeal := fun m ρ _ => Cert.KernelIdeal.Gen.frame m ρ

/-- The reference runs and keeps its arguments: its straight-line run, no operation of which writes an argument array. -/
theorem frame_ri : Cert.frame_ReferenceIdeal := fun m ρ _ =>
  (θ_run Cert.ReferenceIdeal.defs _ _).mono (fun r h c => by
    have k := Cert.ReferenceIdeal.RefRun.arg_kept (F := Ideal) (launchContents m c)
    exact ⟨(h c Cert.ReferenceIdeal.main_arg0).trans k.1,
      (h c Cert.ReferenceIdeal.main_arg1).trans k.2.1,
      (h c Cert.ReferenceIdeal.main_arg2).trans k.2.2.1,
      (h c Cert.ReferenceIdeal.main_arg3).trans k.2.2.2.1,
      (h c Cert.ReferenceIdeal.main_arg4).trans k.2.2.2.2.1,
      (h c Cert.ReferenceIdeal.main_arg5).trans k.2.2.2.2.2.1,
      (h c Cert.ReferenceIdeal.main_arg6).trans k.2.2.2.2.2.2.1,
      (h c Cert.ReferenceIdeal.main_arg7).trans k.2.2.2.2.2.2.2.1,
      (h c Cert.ReferenceIdeal.main_arg8).trans k.2.2.2.2.2.2.2.2.1,
      (h c Cert.ReferenceIdeal.main_arg9).trans k.2.2.2.2.2.2.2.2.2.1,
      (h c Cert.ReferenceIdeal.main_arg10).trans k.2.2.2.2.2.2.2.2.2.2.1,
      (h c Cert.ReferenceIdeal.main_arg11).trans k.2.2.2.2.2.2.2.2.2.2.2.1,
      (h c Cert.ReferenceIdeal.main_arg12).trans k.2.2.2.2.2.2.2.2.2.2.2.2.1,
      (h c Cert.ReferenceIdeal.main_arg13).trans k.2.2.2.2.2.2.2.2.2.2.2.2.2.1,
      (h c Cert.ReferenceIdeal.main_arg14).trans k.2.2.2.2.2.2.2.2.2.2.2.2.2.2.1,
      (h c Cert.ReferenceIdeal.main_arg15).trans k.2.2.2.2.2.2.2.2.2.2.2.2.2.2.2.1,
      (h c Cert.ReferenceIdeal.main_arg16).trans k.2.2.2.2.2.2.2.2.2.2.2.2.2.2.2.2.1,
      (h c Cert.ReferenceIdeal.main_arg17).trans k.2.2.2.2.2.2.2.2.2.2.2.2.2.2.2.2.2.1,
      (h c Cert.ReferenceIdeal.main_arg18).trans k.2.2.2.2.2.2.2.2.2.2.2.2.2.2.2.2.2.2.1,
      (h c Cert.ReferenceIdeal.main_arg19).trans k.2.2.2.2.2.2.2.2.2.2.2.2.2.2.2.2.2.2.2.1,
      (h c Cert.ReferenceIdeal.main_arg20).trans k.2.2.2.2.2.2.2.2.2.2.2.2.2.2.2.2.2.2.2.2⟩)
    (Cert.ReferenceIdeal.RefRun.run_main (F := Ideal) m ρ)

/-- From memories that agree on the arguments both idealised programs run, keep their arguments, and end with the same
    result: the kernel program's result array is what its last stretch of host operations leaves, the reference's is what
    its entry function's operations leave, and the two are equal milestone by milestone. -/
theorem algebraic : Cert.algebraic_KernelIdeal_ReferenceIdeal := by
  intro m ρ m' ρ' _ hagree
  refine ⟨fun c => Cert.KernelIdeal.Gen.W27 m ρ c (Proc.devRef .tc Cert.KernelIdeal.main_v178), Cert.KernelIdeal.KVal.run_result m ρ, ?_⟩
  refine (θ_run Cert.ReferenceIdeal.defs _ _).mono (fun r h c => ?_) (Cert.ReferenceIdeal.RefRun.run_main (F := Ideal) m' ρ')
  have k := Cert.ReferenceIdeal.RefRun.arg_kept (F := Ideal) (launchContents m' c)
  have hs : Cert.Bridge.SameArgs m c (launchContents m' c) :=
    ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2⟩
  exact ⟨(h c Cert.ReferenceIdeal.main_v180).trans (Cert.Bridge.result_eq ρ hs).symm,
      (h c Cert.ReferenceIdeal.main_arg0).trans k.1,
      (h c Cert.ReferenceIdeal.main_arg1).trans k.2.1,
      (h c Cert.ReferenceIdeal.main_arg2).trans k.2.2.1,
      (h c Cert.ReferenceIdeal.main_arg3).trans k.2.2.2.1,
      (h c Cert.ReferenceIdeal.main_arg4).trans k.2.2.2.2.1,
      (h c Cert.ReferenceIdeal.main_arg5).trans k.2.2.2.2.2.1,
      (h c Cert.ReferenceIdeal.main_arg6).trans k.2.2.2.2.2.2.1,
      (h c Cert.ReferenceIdeal.main_arg7).trans k.2.2.2.2.2.2.2.1,
      (h c Cert.ReferenceIdeal.main_arg8).trans k.2.2.2.2.2.2.2.2.1,
      (h c Cert.ReferenceIdeal.main_arg9).trans k.2.2.2.2.2.2.2.2.2.1,
      (h c Cert.ReferenceIdeal.main_arg10).trans k.2.2.2.2.2.2.2.2.2.2.1,
      (h c Cert.ReferenceIdeal.main_arg11).trans k.2.2.2.2.2.2.2.2.2.2.2.1,
      (h c Cert.ReferenceIdeal.main_arg12).trans k.2.2.2.2.2.2.2.2.2.2.2.2.1,
      (h c Cert.ReferenceIdeal.main_arg13).trans k.2.2.2.2.2.2.2.2.2.2.2.2.2.1,
      (h c Cert.ReferenceIdeal.main_arg14).trans k.2.2.2.2.2.2.2.2.2.2.2.2.2.2.1,
      (h c Cert.ReferenceIdeal.main_arg15).trans k.2.2.2.2.2.2.2.2.2.2.2.2.2.2.2.1,
      (h c Cert.ReferenceIdeal.main_arg16).trans k.2.2.2.2.2.2.2.2.2.2.2.2.2.2.2.2.1,
      (h c Cert.ReferenceIdeal.main_arg17).trans k.2.2.2.2.2.2.2.2.2.2.2.2.2.2.2.2.2.1,
      (h c Cert.ReferenceIdeal.main_arg18).trans k.2.2.2.2.2.2.2.2.2.2.2.2.2.2.2.2.2.2.1,
      (h c Cert.ReferenceIdeal.main_arg19).trans k.2.2.2.2.2.2.2.2.2.2.2.2.2.2.2.2.2.2.2.1,
      (h c Cert.ReferenceIdeal.main_arg20).trans k.2.2.2.2.2.2.2.2.2.2.2.2.2.2.2.2.2.2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
